-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S64x256 : Shape := ⟨2, ![64, 256]⟩
abbrev S256x256 : Shape := ⟨2, ![256, 256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S8x2048x256 .f32) (main_arg1 : FVec F S64x256 .f32) (main_arg2 : FVec F S64x256 .f32) (main_arg3 : FVec F S256x256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S8x2048x256 : Shape := ⟨3, ![8, 2048, 256]⟩
abbrev S64x256 : Shape := ⟨2, ![64, 256]⟩
abbrev S256x256 : Shape := ⟨2, ![256, 256]⟩
abbrev S1x2048x256 : Shape := ⟨3, ![1, 2048, 256]⟩
abbrev S2048x2048 : Shape := ⟨2, ![2048, 2048]⟩
abbrev S1x2048 : Shape := ⟨2, ![1, 2048]⟩
abbrev S2048x64 : Shape := ⟨2, ![2048, 64]⟩
abbrev S2048x256 : Shape := ⟨2, ![2048, 256]⟩
abbrev S256x64 : Shape := ⟨2, ![256, 64]⟩
abbrev S512x64 : Shape := ⟨2, ![512, 64]⟩
abbrev S64x2048 : Shape := ⟨2, ![64, 2048]⟩
abbrev S512x2048 : Shape := ⟨2, ![512, 2048]⟩
abbrev S2048 : Shape := ⟨1, ![2048]⟩
abbrev S512 : Shape := ⟨1, ![512]⟩
abbrev S512x1 : Shape := ⟨2, ![512, 1]⟩
abbrev S512x256 : Shape := ⟨2, ![512, 256]⟩

abbrev nBuf : Space → Nat
  | .hbm => 9
  | .vmem => 11
  | .smem => 0
  | _ => 0

abbrev bufTy : (tb : Table) → Fin (tcTables nBuf tb) → BufTy
  | .hbm, ⟨0, _⟩ => ⟨S8x2048x256, .f32⟩
  | .hbm, ⟨1, _⟩ => ⟨S64x256, .f32⟩
  | .hbm, ⟨2, _⟩ => ⟨S64x256, .f32⟩
  | .hbm, ⟨3, _⟩ => ⟨S256x256, .f32⟩
  | .hbm, ⟨4, _⟩ => ⟨S8x2048x256, .bf16⟩
  | .hbm, ⟨5, _⟩ => ⟨S64x256, .bf16⟩
  | .hbm, ⟨6, _⟩ => ⟨S64x256, .bf16⟩
  | .hbm, ⟨7, _⟩ => ⟨S256x256, .bf16⟩
  | .hbm, ⟨8, _⟩ => ⟨S8x2048x256, .f32⟩
  | .local _ .vmem, ⟨0, _⟩ => ⟨S1x2048x256, .bf16⟩
  | .local _ .vmem, ⟨1, _⟩ => ⟨S1x2048x256, .bf16⟩
  | .local _ .vmem, ⟨2, _⟩ => ⟨S64x256, .bf16⟩
  | .local _ .vmem, ⟨3, _⟩ => ⟨S64x256, .bf16⟩
  | .local _ .vmem, ⟨4, _⟩ => ⟨S256x256, .bf16⟩
  | .local _ .vmem, ⟨5, _⟩ => ⟨S1x2048x256, .f32⟩
  | .local _ .vmem, ⟨6, _⟩ => ⟨S1x2048x256, .f32⟩
  | .local _ .vmem, ⟨7, _⟩ => ⟨S2048x2048, .f32⟩
  | .local _ .vmem, ⟨8, _⟩ => ⟨S1x2048, .f32⟩
  | .local _ .vmem, ⟨9, _⟩ => ⟨S1x2048, .f32⟩
  | .local _ .vmem, ⟨10, _⟩ => ⟨S2048x64, .bf16⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v28 : BitVec 32 := Scalar.addi c0_i32 c4_i32
  let c1_i32 : BitVec 32 := 1#32
  ⟨c0_i32, v28, c1_i32⟩
def k0_mult1 (k0_t1 : Fin k0_t1_loop.trips) : BitVec 32 :=
  let c0_i32_32 : BitVec 32 := 0#32
  let c0_i32 : BitVec 32 := 0#32
  let c1_i32 : BitVec 32 := 1#32
  let arg10 : BitVec 32 := Scf.iv c0_i32 c1_i32 k0_t1
  let c1_i32_31 : BitVec 32 := 1#32
  let v34 : BitVec 32 := Scalar.muli arg10 c1_i32_31
  let v35 : BitVec 32 := Scalar.addi c0_i32_32 v34
  let c512_i32 : BitVec 32 := 512#32
  let v36 : BitVec 32 := Scalar.muli v35 c512_i32
  v36
def k0_off1 (k0_t1 : Fin k0_t1_loop.trips) : Fin 2 → Nat :=
  let c0_i32_32 : BitVec 32 := 0#32
  let c0_i32 : BitVec 32 := 0#32
  let c1_i32 : BitVec 32 := 1#32
  let arg10 : BitVec 32 := Scf.iv c0_i32 c1_i32 k0_t1
  let c1_i32_31 : BitVec 32 := 1#32
  let v34 : BitVec 32 := Scalar.muli arg10 c1_i32_31
  let v35 : BitVec 32 := Scalar.addi c0_i32_32 v34
  let c512_i32 : BitVec 32 := 512#32
  let v36 : BitVec 32 := Scalar.muli v35 c512_i32
  let v37 : BitVec 32 := v36
  let v38 : Index := Scalar.indexCast v37
  let c0_33 : Index := 0#32
  ![v38.toNat, 0]
def k0_off2 (k0_t1 : Fin k0_t1_loop.trips) : Fin 2 → Nat :=
  let c0_i32_32 : BitVec 32 := 0#32
  let c0_i32 : BitVec 32 := 0#32
  let c1_i32 : BitVec 32 := 1#32
  let arg10 : BitVec 32 := Scf.iv c0_i32 c1_i32 k0_t1
  let c1_i32_31 : BitVec 32 := 1#32
  let v34 : BitVec 32 := Scalar.muli arg10 c1_i32_31
  let v35 : BitVec 32 := Scalar.addi c0_i32_32 v34
  let c512_i32 : BitVec 32 := 512#32
  let v36 : BitVec 32 := Scalar.muli v35 c512_i32
  let v37 : BitVec 32 := v36
  let v42 : Index := Scalar.indexCast v37
  let c0_35 : Index := 0#32
  ![v42.toNat, 0]
@[reducible] def k0_t2_loop : Scf.Loop 32 :=
  let c0_i32_19 : BitVec 32 := 0#32
  let c4_i32_20 : BitVec 32 := 4#32
  let v29 : BitVec 32 := Scalar.addi c0_i32_19 c4_i32_20
  let c1_i32_21 : BitVec 32 := 1#32
  ⟨c0_i32_19, v29, c1_i32_21⟩
def k0_mult2 (k0_t2 : Fin k0_t2_loop.trips) : BitVec 32 :=
  let c0_i32_32 : BitVec 32 := 0#32
  let c0_i32_19 : BitVec 32 := 0#32
  let c1_i32_21 : BitVec 32 := 1#32
  let arg10 : BitVec 32 := Scf.iv c0_i32_19 c1_i32_21 k0_t2
  let c1_i32_31 : BitVec 32 := 1#32
  let v34 : BitVec 32 := Scalar.muli arg10 c1_i32_31
  let v35 : BitVec 32 := Scalar.addi c0_i32_32 v34
  let c512_i32 : BitVec 32 := 512#32
  let v36 : BitVec 32 := Scalar.muli v35 c512_i32
  v36
def k0_off3 (k0_t2 : Fin k0_t2_loop.trips) : Fin 2 → Nat :=
  let c0_i32_32 : BitVec 32 := 0#32
  let c0_i32_19 : BitVec 32 := 0#32
  let c1_i32_21 : BitVec 32 := 1#32
  let arg10 : BitVec 32 := Scf.iv c0_i32_19 c1_i32_21 k0_t2
  let c1_i32_31 : BitVec 32 := 1#32
  let v34 : BitVec 32 := Scalar.muli arg10 c1_i32_31
  let v35 : BitVec 32 := Scalar.addi c0_i32_32 v34
  let c512_i32 : BitVec 32 := 512#32
  let v36 : BitVec 32 := Scalar.muli v35 c512_i32
  let v37 : BitVec 32 := v36
  let v38 : Index := Scalar.indexCast v37
  let c0_33 : Index := 0#32
  ![v38.toNat, 0]
@[reducible] def k0_t3_loop : Scf.Loop 32 :=
  let c0_i32_27 : BitVec 32 := 0#32
  let c4_i32_28 : BitVec 32 := 4#32
  let v33 : BitVec 32 := Scalar.addi c0_i32_27 c4_i32_28
  let c1_i32_29 : BitVec 32 := 1#32
  ⟨c0_i32_27, v33, c1_i32_29⟩
def k0_mult3 (k0_t3 : Fin k0_t3_loop.trips) : BitVec 32 :=
  let c0_i32_32 : BitVec 32 := 0#32
  let c0_i32_27 : BitVec 32 := 0#32
  let c1_i32_29 : BitVec 32 := 1#32
  let arg10 : BitVec 32 := Scf.iv c0_i32_27 c1_i32_29 k0_t3
  let c1_i32_31 : BitVec 32 := 1#32
  let v34 : BitVec 32 := Scalar.muli arg10 c1_i32_31
  let v35 : BitVec 32 := Scalar.addi c0_i32_32 v34
  let c512_i32 : BitVec 32 := 512#32
  let v36 : BitVec 32 := Scalar.muli v35 c512_i32
  v36
def k0_off4 (k0_t3 : Fin k0_t3_loop.trips) : Fin 2 → Nat :=
  let c0_i32_32 : BitVec 32 := 0#32
  let c0_i32_27 : BitVec 32 := 0#32
  let c1_i32_29 : BitVec 32 := 1#32
  let arg10 : BitVec 32 := Scf.iv c0_i32_27 c1_i32_29 k0_t3
  let c1_i32_31 : BitVec 32 := 1#32
  let v34 : BitVec 32 := Scalar.muli arg10 c1_i32_31
  let v35 : BitVec 32 := Scalar.addi c0_i32_32 v34
  let c512_i32 : BitVec 32 := 512#32
  let v36 : BitVec 32 := Scalar.muli v35 c512_i32
  let v37 : BitVec 32 := v36
  let v38 : Index := Scalar.indexCast v37
  let c0_33 : Index := 0#32
  ![v38.toNat, 0]
def k0_off5 (k0_t3 : Fin k0_t3_loop.trips) : Fin 2 → Nat :=
  let c0_i32_32 : BitVec 32 := 0#32
  let c0_i32_27 : BitVec 32 := 0#32
  let c1_i32_29 : BitVec 32 := 1#32
  let arg10 : BitVec 32 := Scf.iv c0_i32_27 c1_i32_29 k0_t3
  let c1_i32_31 : BitVec 32 := 1#32
  let v34 : BitVec 32 := Scalar.muli arg10 c1_i32_31
  let v35 : BitVec 32 := Scalar.addi c0_i32_32 v34
  let c512_i32 : BitVec 32 := 512#32
  let v36 : BitVec 32 := Scalar.muli v35 c512_i32
  let v37 : BitVec 32 := v36
  let v54 : Index := Scalar.indexCast v37
  let c0_40 : Index := 0#32
  ![v54.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  transposes_S64x256_p1_0_S256x64 : S64x256.Transposes [1, 0] S256x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  transposes_S256x256_p1_0_S256x256 : S256x256.Transposes [1, 0] S256x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  h_S512x64 : 0 < S512x64.numel
  transposes_S2048x64_p1_0_S64x2048 : S2048x64.Transposes [1, 0] S64x2048
  h_S512x2048 : 0 < S512x2048.numel
  shapeCasts_S512x2048_S512x2048 : S512x2048.ShapeCasts S512x2048
  reduces_S512x2048_S2048 : S512x2048.Reduces [0] S2048
  shapeCasts_S2048_S1x2048 : S2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x256 : S512x1.Broadcasts S512x256
  squeezes_S1x2048x256_S2048x256 : S1x2048x256.Squeezes S2048x256
  h_S512x256 : 0 < S512x256.numel
  dot_S2048x256_S256x64_S2048x64_1_0_0_1_n_n_wf : DotDims.WF S2048x256 S256x64 S2048x64 [1] [0] [0] [1] [] []
  dot_S2048x256_S256x256_S2048x256_1_0_0_1_n_n_wf : DotDims.WF S2048x256 S256x256 S2048x256 [1] [0] [0] [1] [] []
  dot_S512x64_S64x2048_S512x2048_1_0_0_1_n_n_wf : DotDims.WF S512x64 S64x2048 S512x2048 [1] [0] [0] [1] [] []
  dot_S512x2048_S2048x256_S512x256_1_0_0_1_n_n_wf : DotDims.WF S512x2048 S2048x256 S512x256 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x64.size a ≤ S2048x64.size a
  k0_off2_inb : ∀ k0_t1 : Fin k0_t1_loop.trips, ∀ a, (k0_off2 k0_t1) a + S512x2048.size a ≤ S2048x2048.size a
  k0_t2_ok : k0_t2_loop.OK
  k0_mult2_dvd : ∀ k0_t2 : Fin k0_t2_loop.trips, 512 ∣ (k0_mult2 k0_t2).toNat
  k0_off3_inb : ∀ k0_t2 : Fin k0_t2_loop.trips, ∀ a, (k0_off3 k0_t2) a + S512x2048.size a ≤ S2048x2048.size a
  k0_t3_ok : k0_t3_loop.OK
  k0_mult3_dvd : ∀ k0_t3 : Fin k0_t3_loop.trips, 512 ∣ (k0_mult3 k0_t3).toNat
  k0_off4_inb : ∀ k0_t3 : Fin k0_t3_loop.trips, ∀ a, (k0_off4 k0_t3) a + S512x2048.size a ≤ S2048x2048.size a
  k0_off5_inb : ∀ k0_t3 : Fin k0_t3_loop.trips, ∀ a, (k0_off5 k0_t3) a + S512x256.size a ≤ S2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .bf16 = 32 ∨ (Rect.block (s := S8x2048x256) S1x2048x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .bf16 = 32 ∨ (Rect.block (s := S64x256) S64x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x256.size a ≤ S8x2048x256.size a
  hwx0_4 : ∀ i : grid0.Coords, EltTy.bits .f32 = 32 ∨ (Rect.block (s := S8x2048x256) S1x2048x256.size (cc0_transform_4 i) (hinb0_4 i)).WholeWords (EltTy.packing .f32)

variable [Facts₀]

def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_v0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S64x256 : Shape := ⟨2, ![64, 256]⟩
abbrev S256x256 : Shape := ⟨2, ![256, 256]⟩
abbrev S8x2048x64 : Shape := ⟨3, ![8, 2048, 64]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩
abbrev S8x2048x1 : Shape := ⟨3, ![8, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S64x256, .f32⟩
  | .hbm, ⟨2, _⟩ => ⟨S64x256, .f32⟩
  | .hbm, ⟨3, _⟩ => ⟨S256x256, .f32⟩
  | .hbm, ⟨4, _⟩ => ⟨S8x2048x64, .f32⟩
  | .hbm, ⟨5, _⟩ => ⟨S8x2048x64, .f32⟩
  | .hbm, ⟨6, _⟩ => ⟨S8x2048x256, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x1x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S8x1x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x2048, .f32⟩
  | .hbm, ⟨29, _⟩ => ⟨S8x2048x2048, .f32⟩
  | .hbm, ⟨30, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  reducesTo_S8x2048x2048_S8x2048_d2 : S8x2048x2048.ReducesTo [2] S8x2048
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x2048_0_1_2 : S8x2048x1.BroadcastsInDim S8x2048x2048 (![0, 1, 2] : Fin 3 → Fin S8x2048x2048.rank)
  dot_S8x2048x256_S64x256_S8x2048x64_2_1_01_0_n_n_wf : DotDims.WF S8x2048x256 S64x256 S8x2048x64 [2] [1] [0, 1] [0] [] []
  dot_S8x2048x256_S256x256_S8x2048x256_2_1_01_0_n_n_wf : DotDims.WF S8x2048x256 S256x256 S8x2048x256 [2] [1] [0, 1] [0] [] []
  dot_S8x2048x64_S8x2048x64_S8x2048x2048_2_2_1_1_0_0_wf : DotDims.WF S8x2048x64 S8x2048x64 S8x2048x2048 [2] [2] [1] [1] [0] [0]
  dot_S8x2048x2048_S8x2048x256_S8x2048x256_2_1_1_2_0_0_wf : DotDims.WF S8x2048x2048 S8x2048x256 S8x2048x256 [2] [1] [1] [2] [0] [0]

variable [Facts₀]

def dot_S8x2048x256_S64x256_S8x2048x64_2_1_01_0_n_n : DotDims S8x2048x256 S64x256 S8x2048x64 where
  lhsContracting := [2]
  rhsContracting := [1]
  lhsNonContracting := [0, 1]
  rhsNonContracting := [0]
  lhsBatch := []
  rhsBatch := []
  wf := dot_S8x2048x256_S64x256_S8x2048x64_2_1_01_0_n_n_wf
def dot_S8x2048x256_S256x256_S8x2048x256_2_1_01_0_n_n : DotDims S8x2048x256 S256x256 S8x2048x256 where
  lhsContracting := [2]
  rhsContracting := [1]
  lhsNonContracting := [0, 1]
  rhsNonContracting := [0]
  lhsBatch := []
  rhsBatch := []
  wf := dot_S8x2048x256_S256x256_S8x2048x256_2_1_01_0_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.BitsLoop3.lean ====
/-
  The third counted loop of the kernel body (four trips): trip k reads rows 512k … 512k+511 of the scratch holding the
  exponentials, scales them by the reciprocal column sums, renormalises each row and multiplies with v, and stores the
  512×256 result through a squeezed view of the output's staging buffer at rows 512k ….  The store goes through a view,
  so the buffer's contents after the trips are stated as an iterated write (`W3`), not as a list of pieces:
  `W3 … f₀ 0 = f₀` and `W3 … f₀ (k+1)` is `W3 … f₀ k` with trip k's block written through the view.
-/
import proofs.«139261_j76158360092784_2_alg».proof.Proof.Gen.Kernel.Frame
import proofs.«139261_j76158360092784_2_alg».proof.Proof.Gen.Kernel.Loops
import proofs.«139261_j76158360092784_2_alg».proof.Proof.Gen.Kernel.Skeleton

set_option maxRecDepth 16384
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

/-- The output's staging memref with its unit leading axis dropped: the 2048×256 view the loop stores through. -/
abbrev outView (arg5 : Memref sig .tc .vmem S1x2048x256 .f32) : Memref sig .tc .vmem S2048x256 .f32 :=
  (arg5.slice (Rect.unit (s := S1x2048x256) ![0, 0, 0] S1x2048x256.size inb_S1x2048x256_S1x2048x256_0_0_0) (fun _ => rfl)).squeeze S2048x256 squeezes_S1x2048x256_S2048x256

/-- The 512×256 block trip `k` computes from the scratch contents `X`: the payload of the rows it loads. -/
def blk3 (arg6 : Memref sig .tc .vmem S2048x2048 .f32) (v19 : FVec F S2048x256 .bf16) (v30 : Vec F S1x2048 .f32)
    (X : BufTy.Contents (Elt F) arg6.view.ty) (k : Fin k0_t3_loop.trips) : FVec F S512x256 .f32 :=
  k0_pay4 v19 v30 (View.readAt (Elt F) arg6.view (Rect.unit (s := S2048x2048) (k0_off4 k) S512x2048.size (k0_off4_inb k)).toLoadRect X)

/-- One trip's effect on the staging buffer's contents: its block written through the view at the trip's rows. -/
def step3 (arg5 : Memref sig .tc .vmem S1x2048x256 .f32) (arg6 : Memref sig .tc .vmem S2048x2048 .f32) (v19 : FVec F S2048x256 .bf16) (v30 : Vec F S1x2048 .f32)
    (X : BufTy.Contents (Elt F) arg6.view.ty) (k : Fin k0_t3_loop.trips) (f : BufTy.Contents (Elt F) arg5.view.ty) : BufTy.Contents (Elt F) arg5.view.ty :=
  View.write (Elt F) ((outView arg5).access (Rect.unit (s := S2048x256) (k0_off5 k) S512x256.size (k0_off5_inb k))) f (blk3 arg6 v19 v30 X k) Finset.univ

/-- The contents before trip `k`, from the contents `f₀` at loop entry. -/
def W3 (arg5 : Memref sig .tc .vmem S1x2048x256 .f32) (arg6 : Memref sig .tc .vmem S2048x2048 .f32) (v19 : FVec F S2048x256 .bf16) (v30 : Vec F S1x2048 .f32)
    (X : BufTy.Contents (Elt F) arg6.view.ty) (f₀ : BufTy.Contents (Elt F) arg5.view.ty) : ℕ → BufTy.Contents (Elt F) arg5.view.ty
  | 0 => f₀
  | k + 1 => if h : k < k0_t3_loop.trips then step3 arg5 arg6 v19 v30 X ⟨k, h⟩ (W3 arg5 arg6 v19 v30 X f₀ k) else W3 arg5 arg6 v19 v30 X f₀ k

theorem W3_succ (arg5 : Memref sig .tc .vmem S1x2048x256 .f32) (arg6 : Memref sig .tc .vmem S2048x2048 .f32) (v19 : FVec F S2048x256 .bf16) (v30 : Vec F S1x2048 .f32)
    (X : BufTy.Contents (Elt F) arg6.view.ty) (f₀ : BufTy.Contents (Elt F) arg5.view.ty) (k : Fin k0_t3_loop.trips) :
    W3 arg5 arg6 v19 v30 X f₀ (k.val + 1) = step3 arg5 arg6 v19 v30 X k (W3 arg5 arg6 v19 v30 X f₀ k.val) := by
  rw [W3]; exact dif_pos k.isLt

/-- One trip's resources: the scratch read at its contents, the output's staging buffer held whole. -/
abbrev Trip_k0_t3 (c : Dev nD) (arg6 : Memref sig .tc .vmem S2048x2048 .f32) (arg5 : Memref sig .tc .vmem S1x2048x256 .f32) (X_arg6 : BufTy.Contents (Elt F) arg6.view.ty) (f_arg5 : BufTy.Contents (Elt F) arg5.view.ty) : sProp 𝕄G :=
  iprop((arg6.view.loc (c : Thread nD τ) ↦[arg6.view.set]{fullShare} X_arg6) ∗ (arg5.view.loc (c : Thread nD τ) ↦[Finset.univ]{fullShare} f_arg5))

/-- ONE TRIP at a symbolic `k`: from any contents `f` of the staging buffer to `step3 … k f`. -/
theorem trip_k0_t3 (𝒱 : Variants) (c : Dev nD) (bd : Option 𝒱.V) (i : grid0.Coords) (arg1 : Memref sig .tc .vmem S1x2048x256 .bf16) (harg1 : arg1.IsWhole) (arg2 : Memref sig .tc .vmem S64x256 .bf16) (harg2 : arg2.IsWhole) (arg3 : Memref sig .tc .vmem S64x256 .bf16) (harg3 : arg3.IsWhole) (arg4 : Memref sig .tc .vmem S256x256 .bf16) (harg4 : arg4.IsWhole) (arg5 : Memref sig .tc .vmem S1x2048x256 .f32) (harg5 : arg5.IsWhole) (arg6 : Memref sig .tc .vmem S2048x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x64 .bf16) (harg9 : arg9.IsWhole) (v19 : FVec F S2048x256 .bf16) (v30 : Vec F S1x2048 .f32) (X_arg6 : BufTy.Contents (Elt F) arg6.view.ty) (k : Fin k0_t3_loop.trips)
    (E : Set ℕ) (f_arg5 : BufTy.Contents (Elt F) arg5.view.ty) :
      Trip_k0_t3 (F := F) c arg6 arg5 X_arg6 f_arg5
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 v19 v30 k PUnit.unit)
          (fun _ => Trip_k0_t3 (F := F) c arg6 arg5 X_arg6 (step3 arg5 arg6 v19 v30 X_arg6 k f_arg5)) := by
  have hk : k.val < 4 := Nat.lt_of_lt_of_le k.isLt k0_t3_abs.2.1
  unfold k0_t3_body
  iintro ⟨HR_arg6, HW_arg5⟩
  sl_exec
  sl_step
  isplitl [HR_arg6]; · iexact HR_arg6
  iexact HW_arg5

/-- THE INVARIANT before trip `k`. -/
abbrev inv_k0_t3 (c : Dev nD) (arg5 : Memref sig .tc .vmem S1x2048x256 .f32) (arg6 : Memref sig .tc .vmem S2048x2048 .f32) (v19 : FVec F S2048x256 .bf16) (v30 : Vec F S1x2048 .f32)
    (X_arg6 : BufTy.Contents (Elt F) arg6.view.ty) (f₀ : BufTy.Contents (Elt F) arg5.view.ty) (k : ℕ) (_u : PUnit) : sProp 𝕄G :=
  Trip_k0_t3 (F := F) c arg6 arg5 X_arg6 (W3 arg5 arg6 v19 v30 X_arg6 f₀ k)

set_option warn.classDefReducibility false in
/-- THE LOOP BY ITS INVARIANT. -/
@[sl_loop] def loopInv_k0_t3 (𝒱 : Variants) (c : Dev nD) (bd : Option 𝒱.V) (E : Set ℕ) (i : grid0.Coords) (arg1 : Memref sig .tc .vmem S1x2048x256 .bf16) (harg1 : arg1.IsWhole) (arg2 : Memref sig .tc .vmem S64x256 .bf16) (harg2 : arg2.IsWhole) (arg3 : Memref sig .tc .vmem S64x256 .bf16) (harg3 : arg3.IsWhole) (arg4 : Memref sig .tc .vmem S256x256 .bf16) (harg4 : arg4.IsWhole) (arg5 : Memref sig .tc .vmem S1x2048x256 .f32) (harg5 : arg5.IsWhole) (arg6 : Memref sig .tc .vmem S2048x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x64 .bf16) (harg9 : arg9.IsWhole) (v19 : FVec F S2048x256 .bf16) (v30 : Vec F S1x2048 .f32)
    (X_arg6 : BufTy.Contents (Elt F) arg6.view.ty) (f₀ : BufTy.Contents (Elt F) arg5.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 v19 v30 where
  inv := inv_k0_t3 (F := F) c arg5 arg6 v19 v30 X_arg6 f₀
  step k acc := by
    show Trip_k0_t3 (F := F) c arg6 arg5 X_arg6 (W3 arg5 arg6 v19 v30 X_arg6 f₀ k.val)
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 v19 v30 k acc)
          (fun _ => Trip_k0_t3 (F := F) c arg6 arg5 X_arg6 (W3 arg5 arg6 v19 v30 X_arg6 f₀ (k.val + 1)))
    rw [W3_succ]
    exact trip_k0_t3 (F := F) 𝒱 c bd i arg1 harg1 arg2 harg2 arg3 harg3 arg4 harg4 arg5 harg5 arg6 harg6 arg7 harg7 arg8 harg8 arg9 harg9 v19 v30 X_arg6 k E _

end Cert.Kernel.Gen

end
-- ==== Proof.BitsRun.lean ====
/-
  The kernel body's run at one grid point, on any whole staging and scratch memrefs: holding the four input blocks at
  their contents, the output's staging buffer and the four scratch buffers at anything, the body — three projections,
  the three counted loops — runs to its end without a fault, leaves the inputs as they were, and leaves in the output's
  staging buffer the contents `out f₅ f₆`, a function of what that buffer and the energy scratch held before
  (Proof/…Read.lean shows that what is READ back through the buffer does not depend on either).
-/
import proofs.«139261_j76158360092784_2_alg».proof.Proof.BitsLoop3

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each window's current staging memref at point `t`, spelled as the pipeline passes it, and its wholeness. -/
abbrev ms0_0 (t : Fin cfg0.N) : Memref sig .tc .vmem S1x2048x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x256 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2048x2048 .f32 := Memref.whole cc0_scratch0
abbrev scM0_1 : Memref sig .tc .vmem S1x2048 .f32 := Memref.whole cc0_scratch1
abbrev scM0_2 : Memref sig .tc .vmem S1x2048 .f32 := Memref.whole cc0_scratch2
abbrev scM0_3 : Memref sig .tc .vmem S2048x64 .bf16 := Memref.whole cc0_scratch3

/-- The region's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

set_option maxHeartbeats 4000000 in
/-- THE BODY'S RUN. The witness is what the output's staging buffer holds at the end, as a function of what it and the
    energy scratch held at the start (found by the run). -/
noncomputable def kernelRun0_A (c : Dev nD) (i : grid0.Coords) (arg1 : Memref sig .tc .vmem S1x2048x256 .bf16) (harg1 : arg1.IsWhole) (arg2 : Memref sig .tc .vmem S64x256 .bf16) (harg2 : arg2.IsWhole) (arg3 : Memref sig .tc .vmem S64x256 .bf16) (harg3 : arg3.IsWhole) (arg4 : Memref sig .tc .vmem S256x256 .bf16) (harg4 : arg4.IsWhole) (arg5 : Memref sig .tc .vmem S1x2048x256 .f32) (harg5 : arg5.IsWhole) (arg6 : Memref sig .tc .vmem S2048x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x64 .bf16) (harg9 : arg9.IsWhole)
    (x0 : Vec F S1x2048x256 .bf16) (x1 x2 : Vec F S64x256 .bf16) (x3 : Vec F S256x256 .bf16) :
    { out : BufTy.Contents (Elt F) arg5.view.ty → BufTy.Contents (Elt F) arg6.view.ty → BufTy.Contents (Elt F) arg5.view.ty //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f5 f6, arg5.view.loc (c : Thread nD τ) ↦[arg5.view.set]{fullShare} out f5 f6)
                ∗ (∃ g, arg6.view.loc (c : Thread nD τ) ↦[arg6.view.set]{fullShare} g) ∗ (∃ g, arg7.view.loc (c : Thread nD τ) ↦[arg7.view.set]{fullShare} g)
                ∗ (∃ g, arg8.view.loc (c : Thread nD τ) ↦[arg8.view.set]{fullShare} g) ∗ (∃ g, arg9.view.loc (c : Thread nD τ) ↦[arg9.view.set]{fullShare} g)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, fun E K => ?run⟩
  case run =>
    simp only [cc0__fused_kernel_eq_skeleton]; unfold cc0__fused_kernel_skel
    unfold owns
    rw [harg5.set_eq_univ]
    iintro ⟨⟨%f0, %hf0, H1⟩, ⟨%f1, %hf1, H2⟩, ⟨%f2, %hf2, H3⟩, ⟨%f3, %hf3, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists f5, f6; iexact H5
    isplitl [H6]; · iexists _; iexact H6
    isplitl [H7]; · iexists _; iexact H7
    isplitl [H8]; · iexists _; iexact H8
    iexists _; iexact H9

end Cert.Kernel.Gen

end
-- ==== Proof.BitsBlock.lean ====
/-
  What one grid point of the kernel computes, as ONE pure function of its four input blocks (the batch's 2048×256 rows of
  x and the three weight matrices), composed from the body's named arithmetic:
    q = x·wqᵀ (all rows), then per tile k of 512 query rows the energies E k = q[tile k]·kᵀ, the running column maximum
    `cmx` (from -inf, one tile at a time), the exponentials P k = exp (E k − final maximum), the running column sum `csm`
    (from 0), and the output tile O k from v = x·wvᵀ, the final column sums and P k.  Row n of the output block is row
    n mod 512 of tile n / 512.
-/
import proofs.«139261_j76158360092784_2_alg».proof.Proof.Gen.Kernel.Skeleton
import Idealize.ShloMosaic.Lib.ValueIdx

noncomputable section

namespace Cert.Kernel.Blk

open Idealize.ShloMosaic Idealize.ShloMosaic.ValueIdx Cert.Kernel Cert.Kernel.Gen

variable {F : FTy → Type} [FloatOps F]

/-- Rows 512k … 512k+511 of the projected queries. -/
def qRows (Q : FVec F S2048x64 .bf16) (k : Fin 4) : Vec F S512x64 .bf16 :=
  fun y => Q (ix2 (⟨512 * k.val + (y 0).val, by have h : (y 0).val < 512 := (y 0).isLt; have := k.isLt; omega⟩ : Fin 2048)
    (⟨(y 1).val, (y 1).isLt⟩ : Fin 64))

variable (X : Vec F S1x2048x256 .bf16) (WQ WK : Vec F S64x256 .bf16) (WV : Vec F S256x256 .bf16)

/-- The projected queries, all rows. -/
def Qm : FVec F S2048x64 .bf16 := k0_pay6 X WQ

/-- The energies of tile k against every key. -/
def Eb (k : Fin 4) : FVec F S512x2048 .f32 := k0_pay11 X WK (qRows (Qm X WQ) k)

/-- The running column maximum after the first k tiles. -/
def cmx : ℕ → Vec F S1x2048 .f32
  | 0 => k0_pay8
  | k + 1 => if h : k < 4 then k0_pay12 X WK (qRows (Qm X WQ) ⟨k, h⟩) (cmx k) else cmx k

/-- The exponentials of tile k against the final column maximum. -/
def Pb (k : Fin 4) : FVec F S512x2048 .f32 := k0_pay2 (Eb X WQ WK k) (cmx X WQ WK 4)

/-- The running column sum after the first k tiles. -/
def csm : ℕ → Vec F S1x2048 .f32
  | 0 => k0_pay9
  | k + 1 => if h : k < 4 then k0_pay3 (Eb X WQ WK ⟨k, h⟩) (cmx X WQ WK 4) (csm k) else csm k

/-- The projected values. -/
def Vm : FVec F S2048x256 .bf16 := k0_pay7 X WV

/-- The output tile k. -/
def Ob (k : Fin 4) : FVec F S512x256 .f32 := k0_pay4 (Vm X WV) (csm X WQ WK 4) (Pb X WQ WK k)

/-- The output block: row n is row n mod 512 of tile n / 512. -/
def outBlk : Vec F S1x2048x256 .f32 :=
  fun y => Ob X WQ WK WV (⟨(y 1).val / 512, by have h : (y 1).val < 2048 := (y 1).isLt; omega⟩ : Fin 4)
    (ix2 (⟨(y 1).val % 512, Nat.mod_lt _ (by norm_num)⟩ : Fin 512) (⟨(y 2).val, (y 2).isLt⟩ : Fin 256))

end Cert.Kernel.Blk

end
-- ==== Proof.BitsLoop3Read.lean ====
/-
  The output staging buffer read after the four trips of the third loop.  Trip k writes its 512×256 block through the
  squeezed 2048×256 view at rows 512k … 512k+511; the four row bands are disjoint and cover every row, so the element
  under (0, n, d) of the buffer's own view holds, after the four trips, entry (n mod 512, d) of the block of trip n / 512.
  The squeezed view's index (n, d) sits at the buffer's (0, n, d); the rectangle of trip k places its (r, d) at the
  squeezed view's (512k + r, d); a write through a rectangle of a view is read back through the view as the payload on the
  rectangle and as the old contents off it.
-/
import proofs.«139261_j76158360092784_2_alg».proof.Proof.BitsLoop3
import Idealize.ShloMosaic.Lib.ValueIdx
import Idealize.ShloMosaic.Lib.ValueLayout

noncomputable section

namespace Cert.Kernel.Gen

open Idealize.ShloMosaic Idealize.ShloMosaic.ValueIdx

variable {F : FTy → Type} [FloatOps F]

/-- The loop runs four trips. -/
theorem w3_trips : k0_t3_loop.trips = 4 := by decide +kernel

/-- Row n lies in the band of trip n / 512. -/
theorem w3_div_lt (n : Fin 2048) : n.val / 512 < k0_t3_loop.trips := by
  rw [w3_trips]; have := n.isLt; omega

/-- The squeezed view's index (n, d) sits in the buffer where the buffer's own view puts (0, n, d). -/
theorem w3_emb_out (arg5 : Memref sig .tc .vmem S1x2048x256 .f32) (n : Fin 2048) (d : Fin 256) :
    (outView arg5).view.emb (ix2 n d) = arg5.view.emb (ix3 0 n d) := by
  show arg5.view.emb ((Rect.unit (s := S1x2048x256) ![0, 0, 0] S1x2048x256.size inb_S1x2048x256_S1x2048x256_0_0_0).emb
      (Shape.reshapeEquiv squeezes_S1x2048x256_S2048x256.numel_eq (ix2 n d))) = _
  refine congrArg arg5.view.emb ?_
  have e : Shape.reshapeEquiv squeezes_S1x2048x256_S2048x256.numel_eq (ix2 n d) = ix3 (⟨0, Nat.one_pos⟩ : Fin 1) n d :=
    reshapeEquiv_ix2_1ab (a := 2048) (b := 256) _ n d
  rw [e]
  funext a; apply Fin.ext
  match a with
  | ⟨0, _⟩ => rfl
  | ⟨1, _⟩ => show 0 + 1 * n.val = n.val; omega
  | ⟨2, _⟩ => show 0 + 1 * d.val = d.val; omega

/-- So the buffer's own view at (0, n, d) reads what the squeezed view reads at (n, d). -/
theorem w3_read_out (arg5 : Memref sig .tc .vmem S1x2048x256 .f32) (f : BufTy.Contents (Elt F) arg5.view.ty) (n : Fin 2048) (d : Fin 256) :
    arg5.view.read (Elt F) f (ix3 0 n d) = (outView arg5).view.read (Elt F) f (ix2 n d) := by
  rw [View.read_apply, View.read_apply, w3_emb_out]

/-- Trip k's rectangle places its (r, d) at the squeezed view's (512k + r, d). -/
theorem w3_rect_emb (k : Fin k0_t3_loop.trips) (r : Fin 512) (d : Fin 256) (h : 512 * k.val + r.val < 2048) :
    (Rect.unit (s := S2048x256) (k0_off5 k) S512x256.size (k0_off5_inb k)).emb (ix2 r d) = ix2 (⟨512 * k.val + r.val, h⟩ : Fin 2048) d := by
  funext a; apply Fin.ext
  match a with
  | ⟨0, _⟩ =>
    show k0_off5 k 0 + 1 * r.val = 512 * k.val + r.val
    rw [k0_off5_eq]; show 512 * k.val + 1 * r.val = _; omega
  | ⟨1, _⟩ =>
    show k0_off5 k 1 + 1 * d.val = d.val
    rw [k0_off5_eq]; show 0 + 1 * d.val = _; omega

/-- A row outside trip k's band is outside its rectangle. -/
theorem w3_not_mem (k : Fin k0_t3_loop.trips) (n : Fin 2048) (d : Fin 256) (h : n.val / 512 ≠ k.val) :
    ix2 n d ∉ (Finset.univ : Finset (Rect.unit (s := S2048x256) (k0_off5 k) S512x256.size (k0_off5_inb k)).shape.Idx).map
      (Rect.unit (s := S2048x256) (k0_off5 k) S512x256.size (k0_off5_inb k)).emb := by
  rw [Rect.map_emb_univ, Rect.mem_set_unit]
  intro hm
  have h0 := hm 0
  rw [k0_off5_eq] at h0
  have h1 : 512 * k.val ≤ n.val ∧ n.val < 512 * k.val + 512 := h0
  omega

/-- One trip read through the squeezed view: its block on its band, the old contents off it. -/
theorem w3_step_read (arg5 : Memref sig .tc .vmem S1x2048x256 .f32) (arg6 : Memref sig .tc .vmem S2048x2048 .f32) (v19 : FVec F S2048x256 .bf16) (v30 : Vec F S1x2048 .f32)
    (X : BufTy.Contents (Elt F) arg6.view.ty) (k : Fin k0_t3_loop.trips) (f : BufTy.Contents (Elt F) arg5.view.ty) (n : Fin 2048) (d : Fin 256) :
    (outView arg5).view.read (Elt F) (step3 arg5 arg6 v19 v30 X k f) (ix2 n d)
      = if n.val / 512 = k.val then blk3 arg6 v19 v30 X k (ix2 (⟨n.val % 512, Nat.mod_lt _ (by norm_num)⟩ : Fin 512) d)
        else (outView arg5).view.read (Elt F) f (ix2 n d) := by
  unfold step3
  by_cases hq : n.val / 512 = k.val
  · rw [if_pos hq]
    have hn : 512 * k.val + n.val % 512 < 2048 := by have := n.isLt; omega
    have e : ix2 n d = (Rect.unit (s := S2048x256) (k0_off5 k) S512x256.size (k0_off5_inb k)).emb
        (ix2 (⟨n.val % 512, Nat.mod_lt _ (by norm_num)⟩ : Fin 512) d) := by
      rw [w3_rect_emb k _ d hn]
      exact congrArg (fun t : Fin 2048 => ix2 t d) (Fin.ext (by show n.val = 512 * k.val + n.val % 512; omega))
    refine (congrArg _ e).trans ?_
    exact View.read_slice_write_emb (v := (outView arg5).view) _ f _ (Finset.mem_univ _)
  · rw [if_neg hq]
    exact View.read_slice_write_of_not_mem (v := (outView arg5).view) _ f _ _ (w3_not_mem k n d hq)

/-- After K trips the squeezed view reads, at a row whose band was written, that band's block, and elsewhere the entry contents. -/
theorem w3_read_aux (arg5 : Memref sig .tc .vmem S1x2048x256 .f32) (arg6 : Memref sig .tc .vmem S2048x2048 .f32) (v19 : FVec F S2048x256 .bf16) (v30 : Vec F S1x2048 .f32)
    (X : BufTy.Contents (Elt F) arg6.view.ty) (f₀ : BufTy.Contents (Elt F) arg5.view.ty) (n : Fin 2048) (d : Fin 256) :
    ∀ (K : ℕ) (hK : K ≤ k0_t3_loop.trips),
    (outView arg5).view.read (Elt F) (W3 arg5 arg6 v19 v30 X f₀ K) (ix2 n d)
      = if h : n.val / 512 < K then
          blk3 arg6 v19 v30 X ⟨n.val / 512, Nat.lt_of_lt_of_le h hK⟩ (ix2 (⟨n.val % 512, Nat.mod_lt _ (by norm_num)⟩ : Fin 512) d)
        else (outView arg5).view.read (Elt F) f₀ (ix2 n d) := by
  intro K
  induction K with
  | zero => intro hK; rw [dif_neg (Nat.not_lt_zero _)]; rfl
  | succ K ih =>
    intro hK
    have hK' : K < k0_t3_loop.trips := hK
    have hs := W3_succ arg5 arg6 v19 v30 X f₀ ⟨K, hK'⟩
    rw [show W3 arg5 arg6 v19 v30 X f₀ (K + 1) = step3 arg5 arg6 v19 v30 X ⟨K, hK'⟩ (W3 arg5 arg6 v19 v30 X f₀ K) from hs,
      w3_step_read]
    by_cases hq : n.val / 512 = K
    · subst hq
      rw [if_pos rfl, dif_pos (Nat.lt_succ_self _)]
    · rw [if_neg hq, ih (Nat.le_of_lt hK')]
      by_cases hlt : n.val / 512 < K
      · rw [dif_pos hlt, dif_pos (Nat.lt_succ_of_lt hlt)]
      · rw [dif_neg hlt, dif_neg (by omega)]

/-- After the four trips the buffer's own view reads, at (0, n, d), entry (n mod 512, d) of the block of trip n / 512. -/
theorem w3_read (arg5 : Memref sig .tc .vmem S1x2048x256 .f32) (harg5 : arg5.IsWhole) (arg6 : Memref sig .tc .vmem S2048x2048 .f32) (v19 : FVec F S2048x256 .bf16) (v30 : Vec F S1x2048 .f32)
    (X : BufTy.Contents (Elt F) arg6.view.ty) (f₀ : BufTy.Contents (Elt F) arg5.view.ty) (n : Fin 2048) (d : Fin 256) :
    arg5.view.read (Elt F) (W3 arg5 arg6 v19 v30 X f₀ 4) (ValueIdx.ix3 0 n d)
      = blk3 arg6 v19 v30 X ⟨n.val / 512, w3_div_lt n⟩ (ValueIdx.ix2 ⟨n.val % 512, Nat.mod_lt _ (by norm_num)⟩ d) := by
  rw [w3_read_out, w3_read_aux arg5 arg6 v19 v30 X f₀ n d 4 (le_of_eq w3_trips.symm),
    dif_pos (show n.val / 512 < 4 by have := n.isLt; omega)]

end Cert.Kernel.Gen

end
-- ==== Proof.BitsLoop2.lean ====
/-
  The kernel's second counted loop, one trip at a time.

  Before the loop the 2048×2048 scratch holds, in its band of rows 512·k … 512·k+511, a strip E k (k < 4), one row
  buffer holds a row CM and another the zero row.  Trip k reads its band and both rows, overwrites the band with a
  function of the band and of CM, and overwrites the second row with a function of the band, CM and the row itself.
  Bands at different k are disjoint sets of rows, so a trip leaves every other band as it was: after j trips the
  bands k < j hold the new strips and the bands k ≥ j still hold E k, and the second row holds the j-fold
  accumulation started from the zero row.  After the four trips every band holds its new strip.
-/
import proofs.«139261_j76158360092784_2_alg».proof.Proof.Gen.Kernel.Loops
import Idealize.ShloMosaic.Lib.Writes
import Idealize.ShloMosaic.Lib.WritesUnit
import Idealize.ShloMosaic.Lib.Pipeline.Value

noncomputable section

namespace Cert.Kernel.Gen

open Idealize.ShloMosaic Idealize.ShloMosaic.TcCoe Idealize.SL.Sem

variable {F : FTy → Type} [FloatOps F]

/-! ## Reading a rectangle back from a list of writes -/

/-- A load through the rectangle of the newest piece reads that piece's payload. -/
theorem l2_readAt_cons_same {sig' : RefSig} {κ : Kind} {sp : Space} {s : Shape} {e : EltTy} {Val : EltTy → Type}
    (v : View sig' κ sp s e) (f : v.ty.Contents Val) (r : Rect s) (w : r.shape.Idx → Val e)
    (L : List (View.Piece Val s e)) :
    v.readAt Val r.toLoadRect (v.writes Val f ((⟨r, w⟩ : View.Piece Val s e) :: L)) = w :=
  funext fun x => View.read_writes_cons_emb v f r w L x

/-- A load through a rectangle disjoint from the newest piece's reads what the older pieces left. -/
theorem l2_readAt_cons_disjoint {sig' : RefSig} {κ : Kind} {sp : Space} {s : Shape} {e : EltTy} {Val : EltTy → Type}
    (v : View sig' κ sp s e) (f : v.ty.Contents Val) (r r' : Rect s) (w : r'.shape.Idx → Val e)
    (L : List (View.Piece Val s e)) (h : Disjoint r.set r'.set) :
    v.readAt Val r.toLoadRect (v.writes Val f ((⟨r', w⟩ : View.Piece Val s e) :: L))
      = v.readAt Val r.toLoadRect (v.writes Val f L) :=
  funext fun x => by
    rw [View.readAt_apply, View.readAt_apply, View.writes_cons]
    refine View.read_slice_write_of_not_mem r' _ w Finset.univ ?_
    rw [Rect.map_emb_univ]
    exact Finset.disjoint_left.mp h (r.toLoadRect.idx_mem x)

/-! ## The loop's trips -/

/-- The loop runs four trips. -/
theorem l2_trips : k0_t2_loop.trips = 4 := by decide

/-- The band of trip k starts at row 512·k. -/
theorem l2_off3_zero (k : Fin k0_t2_loop.trips) : k0_off3 k 0 = 512 * k.val := by
  rw [k0_off3_eq]; rfl

/-- Bands of different trips are disjoint. -/
theorem l2_bands_disjoint (k k' : Fin k0_t2_loop.trips) (h : k.val ≠ k'.val) :
    Disjoint (Rect.unit (s := S2048x2048) (k0_off3 k) S512x2048.size (k0_off3_inb k)).set (Rect.unit (s := S2048x2048) (k0_off3 k') S512x2048.size (k0_off3_inb k')).set := by
  refine Rect.unit_disjoint (0 : Fin 2) ?_
  rw [l2_off3_zero, l2_off3_zero]
  show 512 * k.val + 512 ≤ 512 * k'.val ∨ 512 * k'.val + 512 ≤ 512 * k.val
  omega

/-- The running row after j trips: from the zero row, trip k folds in the strip E k against the row CM. -/
def l2_csm (E : Fin 4 → FVec F S512x2048 .f32) (CM : Vec F S1x2048 .f32) : ℕ → Vec F S1x2048 .f32
  | 0 => k0_pay9
  | k + 1 => if h : k < 4 then k0_pay3 (E ⟨k, h⟩) CM (l2_csm E CM k) else l2_csm E CM k

section Loop

variable (𝒱 : Variants) (c : Dev nD) (bd : Option 𝒱.V) (i : grid0.Coords) (arg1 : Memref sig .tc .vmem S1x2048x256 .bf16) (harg1 : arg1.IsWhole) (arg2 : Memref sig .tc .vmem S64x256 .bf16) (harg2 : arg2.IsWhole) (arg3 : Memref sig .tc .vmem S64x256 .bf16) (harg3 : arg3.IsWhole) (arg4 : Memref sig .tc .vmem S256x256 .bf16) (harg4 : arg4.IsWhole) (arg5 : Memref sig .tc .vmem S1x2048x256 .f32) (harg5 : arg5.IsWhole) (arg6 : Memref sig .tc .vmem S2048x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x64 .bf16) (harg9 : arg9.IsWhole)
  (X7 : BufTy.Contents (Elt F) arg7.view.ty) (G6 : BufTy.Contents (Elt F) arg6.view.ty)
  (G8 : BufTy.Contents (Elt F) arg8.view.ty)

/-- ONE TRIP's pieces, read off the trip's definition (opened here and nowhere else): the band of trip k, rewritten
    from the band itself and the first row; the second row, rewritten from the band, the first row and itself. -/
theorem l2_trip (k : Fin k0_t2_loop.trips) (g6 : BufTy.Contents (Elt F) arg6.view.ty)
    (g8 : BufTy.Contents (Elt F) arg8.view.ty) :
    tripL_k0_t2 (F := F) 𝒱 c bd i arg1 harg1 arg2 harg2 arg3 harg3 arg4 harg4 arg5 harg5 arg6 harg6 arg7 harg7 arg8 harg8 arg9 harg9 X7 k g6 g8
      = ([(⟨(Rect.unit (s := S2048x2048) (k0_off3 k) S512x2048.size (k0_off3_inb k)),
            k0_pay2 (arg6.view.readAt (Elt F) (Rect.unit (s := S2048x2048) (k0_off3 k) S512x2048.size (k0_off3_inb k)).toLoadRect g6)
              (arg7.view.readAt (Elt F) (Rect.unit (s := S1x2048) ![0, 0] S1x2048.size inb_S1x2048_S1x2048_0_0).toLoadRect X7)⟩ : View.Piece (Elt F) S2048x2048 .f32)],
         [(⟨(Rect.unit (s := S1x2048) ![0, 0] S1x2048.size inb_S1x2048_S1x2048_0_0),
            k0_pay3 (arg6.view.readAt (Elt F) (Rect.unit (s := S2048x2048) (k0_off3 k) S512x2048.size (k0_off3_inb k)).toLoadRect g6)
              (arg7.view.readAt (Elt F) (Rect.unit (s := S1x2048) ![0, 0] S1x2048.size inb_S1x2048_S1x2048_0_0).toLoadRect X7)
              (arg8.view.readAt (Elt F) (Rect.unit (s := S1x2048) ![0, 0] S1x2048.size inb_S1x2048_S1x2048_0_0).toLoadRect g8)⟩ : View.Piece (Elt F) S1x2048 .f32)]) := by
  unfold tripL_k0_t2 trip_k0_t2
  rfl

/-- Trip j's pieces consed onto those of the trips before it. -/
theorem l2_pb_succ (j : ℕ) (hlt : j < k0_t2_loop.trips) :
    (pb_k0_t2 (F := F) 𝒱 c bd i arg1 harg1 arg2 harg2 arg3 harg3 arg4 harg4 arg5 harg5 arg6 harg6 arg7 harg7 arg8 harg8 arg9 harg9 X7 G6 G8 (j + 1))
      = ((⟨(Rect.unit (s := S2048x2048) (k0_off3 ⟨j, hlt⟩) S512x2048.size (k0_off3_inb ⟨j, hlt⟩)),
            k0_pay2 (arg6.view.readAt (Elt F) (Rect.unit (s := S2048x2048) (k0_off3 ⟨j, hlt⟩) S512x2048.size (k0_off3_inb ⟨j, hlt⟩)).toLoadRect
                (arg6.view.writes (Elt F) G6 (pb_k0_t2 (F := F) 𝒱 c bd i arg1 harg1 arg2 harg2 arg3 harg3 arg4 harg4 arg5 harg5 arg6 harg6 arg7 harg7 arg8 harg8 arg9 harg9 X7 G6 G8 j).1))
              (arg7.view.readAt (Elt F) (Rect.unit (s := S1x2048) ![0, 0] S1x2048.size inb_S1x2048_S1x2048_0_0).toLoadRect X7)⟩ : View.Piece (Elt F) S2048x2048 .f32)
            :: (pb_k0_t2 (F := F) 𝒱 c bd i arg1 harg1 arg2 harg2 arg3 harg3 arg4 harg4 arg5 harg5 arg6 harg6 arg7 harg7 arg8 harg8 arg9 harg9 X7 G6 G8 j).1,
         (⟨(Rect.unit (s := S1x2048) ![0, 0] S1x2048.size inb_S1x2048_S1x2048_0_0),
            k0_pay3 (arg6.view.readAt (Elt F) (Rect.unit (s := S2048x2048) (k0_off3 ⟨j, hlt⟩) S512x2048.size (k0_off3_inb ⟨j, hlt⟩)).toLoadRect
                (arg6.view.writes (Elt F) G6 (pb_k0_t2 (F := F) 𝒱 c bd i arg1 harg1 arg2 harg2 arg3 harg3 arg4 harg4 arg5 harg5 arg6 harg6 arg7 harg7 arg8 harg8 arg9 harg9 X7 G6 G8 j).1))
              (arg7.view.readAt (Elt F) (Rect.unit (s := S1x2048) ![0, 0] S1x2048.size inb_S1x2048_S1x2048_0_0).toLoadRect X7)
              (arg8.view.readAt (Elt F) (Rect.unit (s := S1x2048) ![0, 0] S1x2048.size inb_S1x2048_S1x2048_0_0).toLoadRect
                (arg8.view.writes (Elt F) G8 (pb_k0_t2 (F := F) 𝒱 c bd i arg1 harg1 arg2 harg2 arg3 harg3 arg4 harg4 arg5 harg5 arg6 harg6 arg7 harg7 arg8 harg8 arg9 harg9 X7 G6 G8 j).2))⟩ : View.Piece (Elt F) S1x2048 .f32)
            :: (pb_k0_t2 (F := F) 𝒱 c bd i arg1 harg1 arg2 harg2 arg3 harg3 arg4 harg4 arg5 harg5 arg6 harg6 arg7 harg7 arg8 harg8 arg9 harg9 X7 G6 G8 j).2) :=
  (pb_k0_t2_succ (F := F) 𝒱 c bd i arg1 harg1 arg2 harg2 arg3 harg3 arg4 harg4 arg5 harg5 arg6 harg6 arg7 harg7 arg8 harg8 arg9 harg9 X7 G6 G8 ⟨j, hlt⟩).trans (by rw [l2_trip]; rfl)

variable (CM : Vec F S1x2048 .f32) (E : Fin 4 → FVec F S512x2048 .f32)

/-- THE INVARIANT after j trips: the bands of the trips done hold the new strips, the others still hold E, and the
    second row holds the j-fold accumulation. -/
theorem l2_inv
    (hX7 : arg7.view.readAt (Elt F) (Rect.unit (s := S1x2048) ![0, 0] S1x2048.size inb_S1x2048_S1x2048_0_0).toLoadRect X7 = CM)
    (hG8 : arg8.view.readAt (Elt F) (Rect.unit (s := S1x2048) ![0, 0] S1x2048.size inb_S1x2048_S1x2048_0_0).toLoadRect G8 = k0_pay9)
    (hG6 : ∀ k : Fin k0_t2_loop.trips, arg6.view.readAt (Elt F) (Rect.unit (s := S2048x2048) (k0_off3 k) S512x2048.size (k0_off3_inb k)).toLoadRect G6
        = E ⟨k.val, Nat.lt_of_lt_of_le k.isLt k0_t2_abs.2.1⟩)
    (j : ℕ) (hj : j ≤ 4) :
    (∀ k : Fin k0_t2_loop.trips,
        arg6.view.readAt (Elt F) (Rect.unit (s := S2048x2048) (k0_off3 k) S512x2048.size (k0_off3_inb k)).toLoadRect (arg6.view.writes (Elt F) G6 (pb_k0_t2 (F := F) 𝒱 c bd i arg1 harg1 arg2 harg2 arg3 harg3 arg4 harg4 arg5 harg5 arg6 harg6 arg7 harg7 arg8 harg8 arg9 harg9 X7 G6 G8 j).1)
          = if k.val < j then k0_pay2 (E ⟨k.val, Nat.lt_of_lt_of_le k.isLt k0_t2_abs.2.1⟩) CM
            else E ⟨k.val, Nat.lt_of_lt_of_le k.isLt k0_t2_abs.2.1⟩)
      ∧ arg8.view.readAt (Elt F) (Rect.unit (s := S1x2048) ![0, 0] S1x2048.size inb_S1x2048_S1x2048_0_0).toLoadRect (arg8.view.writes (Elt F) G8 (pb_k0_t2 (F := F) 𝒱 c bd i arg1 harg1 arg2 harg2 arg3 harg3 arg4 harg4 arg5 harg5 arg6 harg6 arg7 harg7 arg8 harg8 arg9 harg9 X7 G6 G8 j).2) = l2_csm E CM j := by
  induction j with
  | zero =>
    refine ⟨fun k => ?_, hG8⟩
    rw [if_neg (Nat.not_lt_zero _)]
    exact hG6 k
  | succ j ih =>
    have hj4 : j < 4 := hj
    have hlt : j < k0_t2_loop.trips := by rw [l2_trips]; exact hj4
    obtain ⟨ihA, ihB⟩ := ih (Nat.le_of_succ_le hj)
    have hE : arg6.view.readAt (Elt F) (Rect.unit (s := S2048x2048) (k0_off3 ⟨j, hlt⟩) S512x2048.size (k0_off3_inb ⟨j, hlt⟩)).toLoadRect (arg6.view.writes (Elt F) G6 (pb_k0_t2 (F := F) 𝒱 c bd i arg1 harg1 arg2 harg2 arg3 harg3 arg4 harg4 arg5 harg5 arg6 harg6 arg7 harg7 arg8 harg8 arg9 harg9 X7 G6 G8 j).1)
        = E ⟨j, hj4⟩ := (ihA ⟨j, hlt⟩).trans (if_neg (Nat.lt_irrefl j))
    rw [l2_pb_succ (F := F) 𝒱 c bd i arg1 harg1 arg2 harg2 arg3 harg3 arg4 harg4 arg5 harg5 arg6 harg6 arg7 harg7 arg8 harg8 arg9 harg9 X7 G6 G8 j hlt, hE, hX7, ihB]
    refine ⟨fun k => ?_, ?_⟩
    · by_cases hk : k.val = j
      · obtain rfl : k = ⟨j, hlt⟩ := Fin.ext hk
        rw [if_pos (Nat.lt_succ_self j)]
        exact l2_readAt_cons_same arg6.view G6 _ _ _
      · rw [l2_readAt_cons_disjoint arg6.view G6 _ _ _ _ (l2_bands_disjoint k ⟨j, hlt⟩ hk), ihA k]
        by_cases hkj : k.val < j
        · rw [if_pos hkj, if_pos (Nat.lt_succ_of_lt hkj)]
        · rw [if_neg hkj, if_neg (by omega)]
    · rw [l2_csm, dif_pos hj4]
      exact l2_readAt_cons_same arg8.view G8 _ _ _

/-- The second row after j trips. -/
theorem l2_sum
    (hX7 : arg7.view.readAt (Elt F) (Rect.unit (s := S1x2048) ![0, 0] S1x2048.size inb_S1x2048_S1x2048_0_0).toLoadRect X7 = CM)
    (hG8 : arg8.view.readAt (Elt F) (Rect.unit (s := S1x2048) ![0, 0] S1x2048.size inb_S1x2048_S1x2048_0_0).toLoadRect G8 = k0_pay9)
    (hG6 : ∀ k : Fin k0_t2_loop.trips, arg6.view.readAt (Elt F) (Rect.unit (s := S2048x2048) (k0_off3 k) S512x2048.size (k0_off3_inb k)).toLoadRect G6
        = E ⟨k.val, Nat.lt_of_lt_of_le k.isLt k0_t2_abs.2.1⟩)
    (j : ℕ) (hj : j ≤ 4) :
    arg8.view.readAt (Elt F) (Rect.unit (s := S1x2048) ![0, 0] S1x2048.size inb_S1x2048_S1x2048_0_0).toLoadRect (arg8.view.writes (Elt F) G8 (pb_k0_t2 (F := F) 𝒱 c bd i arg1 harg1 arg2 harg2 arg3 harg3 arg4 harg4 arg5 harg5 arg6 harg6 arg7 harg7 arg8 harg8 arg9 harg9 X7 G6 G8 j).2) = l2_csm E CM j :=
  (l2_inv (F := F) 𝒱 c bd i arg1 harg1 arg2 harg2 arg3 harg3 arg4 harg4 arg5 harg5 arg6 harg6 arg7 harg7 arg8 harg8 arg9 harg9 X7 G6 G8 CM E hX7 hG8 hG6 j hj).2

/-- After the loop, the band the third loop's trip k reads holds the new strip k. -/
theorem l2_band
    (hX7 : arg7.view.readAt (Elt F) (Rect.unit (s := S1x2048) ![0, 0] S1x2048.size inb_S1x2048_S1x2048_0_0).toLoadRect X7 = CM)
    (hG8 : arg8.view.readAt (Elt F) (Rect.unit (s := S1x2048) ![0, 0] S1x2048.size inb_S1x2048_S1x2048_0_0).toLoadRect G8 = k0_pay9)
    (hG6 : ∀ k : Fin k0_t2_loop.trips, arg6.view.readAt (Elt F) (Rect.unit (s := S2048x2048) (k0_off3 k) S512x2048.size (k0_off3_inb k)).toLoadRect G6
        = E ⟨k.val, Nat.lt_of_lt_of_le k.isLt k0_t2_abs.2.1⟩)
    (k : Fin k0_t3_loop.trips) :
    arg6.view.readAt (Elt F) (Rect.unit (s := S2048x2048) (k0_off4 k) S512x2048.size (k0_off4_inb k)).toLoadRect
        (arg6.view.writes (Elt F) G6 (pb_k0_t2 (F := F) 𝒱 c bd i arg1 harg1 arg2 harg2 arg3 harg3 arg4 harg4 arg5 harg5 arg6 harg6 arg7 harg7 arg8 harg8 arg9 harg9 X7 G6 G8 k0_t2_loop.trips).1)
      = k0_pay2 (E ⟨k.val, Nat.lt_of_lt_of_le k.isLt k0_t3_abs.2.1⟩) CM := by
  have hk4 : k.val < 4 := Nat.lt_of_lt_of_le k.isLt k0_t3_abs.2.1
  have hlt : k.val < k0_t2_loop.trips := Nat.lt_of_lt_of_eq hk4 l2_trips.symm
  have hoff : k0_off4 k = k0_off3 ⟨k.val, hlt⟩ := by rw [k0_off4_eq, k0_off3_eq]
  have h4 : (pb_k0_t2 (F := F) 𝒱 c bd i arg1 harg1 arg2 harg2 arg3 harg3 arg4 harg4 arg5 harg5 arg6 harg6 arg7 harg7 arg8 harg8 arg9 harg9 X7 G6 G8 k0_t2_loop.trips) = (pb_k0_t2 (F := F) 𝒱 c bd i arg1 harg1 arg2 harg2 arg3 harg3 arg4 harg4 arg5 harg5 arg6 harg6 arg7 harg7 arg8 harg8 arg9 harg9 X7 G6 G8 4) :=
    congrArg (pb_k0_t2 (F := F) 𝒱 c bd i arg1 harg1 arg2 harg2 arg3 harg3 arg4 harg4 arg5 harg5 arg6 harg6 arg7 harg7 arg8 harg8 arg9 harg9 X7 G6 G8) l2_trips
  rw [h4]
  refine (View.readAt_unit_congr arg6.view hoff (k0_off4_inb k) (k0_off3_inb ⟨k.val, hlt⟩) _).trans ?_
  exact ((l2_inv (F := F) 𝒱 c bd i arg1 harg1 arg2 harg2 arg3 harg3 arg4 harg4 arg5 harg5 arg6 harg6 arg7 harg7 arg8 harg8 arg9 harg9 X7 G6 G8 CM E hX7 hG8 hG6 4 (Nat.le_refl 4)).1 ⟨k.val, hlt⟩).trans
    (if_pos hk4)

end Loop

end Cert.Kernel.Gen

end
-- ==== Proof.BitsLoops12.lean ====
/-
  The first two counted loops of the kernel body, joined to the pure per-tile functions.

  Loop 1 (four trips): trip k loads rows 512k … 512k+511 of the projected queries, multiplies them with the
  projected keys, stores the 512×2048 block of energies into rows 512k … of the energy scratch and folds the block's
  column maximum into the running maximum.  The row bands of different trips are disjoint, so after the loop band k of
  the scratch holds the energies of tile k, whatever it held before; the running maximum, restored whole by every
  trip, holds the fold of the first j tiles after j trips.
  Loop 2 turns band k into the exponentials against the final maximum and accumulates the column sums; with both
  loops read, trip k of loop 3 computes the pure output tile k.
-/
import proofs.«139261_j76158360092784_2_alg».proof.Proof.BitsBlock
import proofs.«139261_j76158360092784_2_alg».proof.Proof.BitsLoop3
import proofs.«139261_j76158360092784_2_alg».proof.Proof.BitsLoop2
import proofs.«139261_j76158360092784_2_alg».proof.Proof.Gen.Kernel.Loops
import Idealize.ShloMosaic.Lib.Writes
import Idealize.ShloMosaic.Lib.WritesUnit
import Idealize.ShloMosaic.Lib.ValueIdx

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

/-! ## Reading a list of stores through a unit-stride rectangle -/

section Helpers

variable {sig : RefSig} {κ : Kind} {sp : Space} {e : EltTy} {Val : EltTy → Type}

/-- A load through the rectangle of the newest store reads that store's payload. -/
theorem l12_readAt_cons_self {s : Shape} (v : View sig κ sp s e) (f : v.ty.Contents Val) (r : Rect s)
    (w : r.shape.Idx → Val e) (L : List (View.Piece Val s e)) :
    v.readAt Val r.toLoadRect (v.writes Val f (⟨r, w⟩ :: L)) = w :=
  funext fun y => View.read_writes_cons_emb v f r w L y

/-- The same, the load's offsets being equal to the store's. -/
theorem l12_readAt_cons_hit {s : Shape} (v : View sig κ sp s e) (f : v.ty.Contents Val) {off off' size : Fin s.rank → ℕ}
    (inb : ∀ a, off a + size a ≤ s.size a) (inb' : ∀ a, off' a + size a ≤ s.size a)
    (w : (Rect.unit off size inb).shape.Idx → Val e) (L : List (View.Piece Val s e)) (h : off' = off) :
    v.readAt Val (Rect.unit off' size inb').toLoadRect (v.writes Val f (⟨Rect.unit off size inb, w⟩ :: L)) = w := by
  subst h
  exact l12_readAt_cons_self v f _ w L

/-- A load of whole rows [o', o' + W') of a rank-2 view passes a newest store of whole rows [o, o + W) disjoint from
    them. -/
theorem l12_readAt_cons_miss {d : Fin 2 → ℕ} (v : View sig κ sp (⟨2, d⟩ : Shape) e) (f : v.ty.Contents Val)
    {off off' size size' : Fin 2 → ℕ} {o o' W W' : ℕ} (inb : ∀ a : Fin 2, off a + size a ≤ d a)
    (inb' : ∀ a : Fin 2, off' a + size' a ≤ d a)
    (w : (Rect.unit (s := ⟨2, d⟩) off size inb).shape.Idx → Val e) (L : List (View.Piece Val (⟨2, d⟩ : Shape) e))
    (hoff : off = ![o, 0]) (hoff' : off' = ![o', 0]) (hW : size (0 : Fin 2) = W) (hW' : size' (0 : Fin 2) = W')
    (hdis : o' + W' ≤ o ∨ o + W ≤ o') :
    v.readAt Val (Rect.unit (s := ⟨2, d⟩) off' size' inb').toLoadRect
        (v.writes Val f ((⟨Rect.unit (s := ⟨2, d⟩) off size inb, w⟩ : View.Piece Val (⟨2, d⟩ : Shape) e) :: L))
      = v.readAt Val (Rect.unit (s := ⟨2, d⟩) off' size' inb').toLoadRect (v.writes Val f L) := by
  funext y
  rw [View.readAt_apply, View.readAt_apply]
  refine View.read_writes_cons_rows_of_not_mem v f inb w L _ hoff hW ?_
  have h1 : ((Rect.unit (s := ⟨2, d⟩) off' size' inb').toLoadRect.idx y (0 : Fin 2)).val = o' + (y (0 : Fin 2)).val := by
    subst hoff'
    show (![o', 0] : Fin 2 → ℕ) 0 + 1 * (y (0 : Fin 2)).val = o' + (y (0 : Fin 2)).val
    rw [Nat.one_mul]; rfl
  have h2 : (y (0 : Fin 2)).val < W' := hW' ▸ (y (0 : Fin 2)).isLt
  omega

/-- Reading a rank-2 view whole after a newest store of the whole view: the payload. -/
theorem l12_read_cons_whole {d : Fin 2 → ℕ} (v : View sig κ sp (⟨2, d⟩ : Shape) e) (f : v.ty.Contents Val)
    (inb : ∀ a : Fin 2, (![0, 0] : Fin 2 → ℕ) a + d a ≤ d a)
    (w : (Rect.unit (s := ⟨2, d⟩) ![0, 0] d inb).shape.Idx → Val e) (L : List (View.Piece Val (⟨2, d⟩ : Shape) e)) :
    v.read Val (v.writes Val f ((⟨Rect.unit (s := ⟨2, d⟩) ![0, 0] d inb, w⟩ : View.Piece Val (⟨2, d⟩ : Shape) e) :: L)) = w := by
  funext y
  exact View.read_writes_cons_unit_of_mem v f inb w L y y rfl
    (Fin.forall_fin_two.mpr ⟨(Nat.zero_add _).symm, (Nat.zero_add _).symm⟩)

end Helpers

variable {F : FTy → Type} [FloatOps F]

/-! ## Loop 1 -/

section Loop1

variable (𝒱 : Variants) (c : Dev nD) (bd : Option 𝒱.V) (i : grid0.Coords) (arg1 : Memref sig .tc .vmem S1x2048x256 .bf16) (harg1 : arg1.IsWhole) (arg2 : Memref sig .tc .vmem S64x256 .bf16) (harg2 : arg2.IsWhole) (arg3 : Memref sig .tc .vmem S64x256 .bf16) (harg3 : arg3.IsWhole) (arg4 : Memref sig .tc .vmem S256x256 .bf16) (harg4 : arg4.IsWhole) (arg5 : Memref sig .tc .vmem S1x2048x256 .f32) (harg5 : arg5.IsWhole) (arg6 : Memref sig .tc .vmem S2048x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x64 .bf16) (harg9 : arg9.IsWhole)
  (X : Vec F S1x2048x256 .bf16) (WQ WK : Vec F S64x256 .bf16)

/-- Loop 1 makes four trips. -/
theorem l12_trips1 : k0_t1_loop.trips = 4 := by decide

/-- ONE TRIP of loop 1, its definition opened once: the block of energies stored at the trip's rows of the energy
    scratch, and the running maximum restored whole, both from the trip's rows of the projected queries. -/
theorem l12_tripL1 (v0 : Vec F S1x2048x256 .bf16) (v10 : Vec F S64x256 .bf16) (X9 : BufTy.Contents (Elt F) arg9.view.ty)
    (k : Fin k0_t1_loop.trips) (g6 : BufTy.Contents (Elt F) arg6.view.ty) (g7 : BufTy.Contents (Elt F) arg7.view.ty) :
    tripL_k0_t1 (F := F) 𝒱 c bd i arg1 harg1 arg2 harg2 arg3 harg3 arg4 harg4 arg5 harg5 arg6 harg6 arg7 harg7 arg8 harg8 arg9 harg9 v0 v10 X9 k g6 g7
      = ([⟨Rect.unit (s := S2048x2048) (k0_off2 k) S512x2048.size (k0_off2_inb k), k0_pay11 v0 v10 (View.readAt (Elt F) arg9.view (Rect.unit (s := S2048x64) (k0_off1 k) S512x64.size (k0_off1_inb k)).toLoadRect X9)⟩],
         [⟨(Rect.unit (s := S1x2048) ![0, 0] S1x2048.size inb_S1x2048_S1x2048_0_0), k0_pay12 v0 v10 (View.readAt (Elt F) arg9.view (Rect.unit (s := S2048x64) (k0_off1 k) S512x64.size (k0_off1_inb k)).toLoadRect X9)
            (View.readAt (Elt F) arg7.view (Rect.unit (s := S1x2048) ![0, 0] S1x2048.size inb_S1x2048_S1x2048_0_0).toLoadRect g7)⟩]) := by
  unfold tripL_k0_t1 trip_k0_t1
  rfl

/-- The pieces after one more trip: the trip's two stores in front of the earlier trips'. -/
theorem l12_pb1_succ (X9 : BufTy.Contents (Elt F) arg9.view.ty) (G6 : BufTy.Contents (Elt F) arg6.view.ty)
    (G7 : BufTy.Contents (Elt F) arg7.view.ty) (k : Fin k0_t1_loop.trips) :
    (pb_k0_t1 (F := F) 𝒱 c bd i arg1 harg1 arg2 harg2 arg3 harg3 arg4 harg4 arg5 harg5 arg6 harg6 arg7 harg7 arg8 harg8 arg9 harg9 X WK X9 G6 G7 (k.val + 1))
      = (⟨Rect.unit (s := S2048x2048) (k0_off2 k) S512x2048.size (k0_off2_inb k), k0_pay11 X WK (View.readAt (Elt F) arg9.view (Rect.unit (s := S2048x64) (k0_off1 k) S512x64.size (k0_off1_inb k)).toLoadRect X9)⟩
            :: (pb_k0_t1 (F := F) 𝒱 c bd i arg1 harg1 arg2 harg2 arg3 harg3 arg4 harg4 arg5 harg5 arg6 harg6 arg7 harg7 arg8 harg8 arg9 harg9 X WK X9 G6 G7 k.val).1,
         ⟨(Rect.unit (s := S1x2048) ![0, 0] S1x2048.size inb_S1x2048_S1x2048_0_0), k0_pay12 X WK (View.readAt (Elt F) arg9.view (Rect.unit (s := S2048x64) (k0_off1 k) S512x64.size (k0_off1_inb k)).toLoadRect X9)
            (View.readAt (Elt F) arg7.view (Rect.unit (s := S1x2048) ![0, 0] S1x2048.size inb_S1x2048_S1x2048_0_0).toLoadRect (arg7.view.writes (Elt F) G7 (pb_k0_t1 (F := F) 𝒱 c bd i arg1 harg1 arg2 harg2 arg3 harg3 arg4 harg4 arg5 harg5 arg6 harg6 arg7 harg7 arg8 harg8 arg9 harg9 X WK X9 G6 G7 k.val).2))⟩
            :: (pb_k0_t1 (F := F) 𝒱 c bd i arg1 harg1 arg2 harg2 arg3 harg3 arg4 harg4 arg5 harg5 arg6 harg6 arg7 harg7 arg8 harg8 arg9 harg9 X WK X9 G6 G7 k.val).2) := by
  rw [pb_k0_t1_succ, l12_tripL1]
  rfl

/-- A trip's load of the projected queries is its band of rows. -/
theorem l12_load_q (X9 : BufTy.Contents (Elt F) arg9.view.ty) (hX9 : arg9.view.read (Elt F) X9 = Blk.Qm X WQ)
    (k : Fin k0_t1_loop.trips) :
    (View.readAt (Elt F) arg9.view (Rect.unit (s := S2048x64) (k0_off1 k) S512x64.size (k0_off1_inb k)).toLoadRect X9) = Blk.qRows (Blk.Qm X WQ) ⟨k.val, Nat.lt_of_lt_of_le k.isLt k0_t1_abs.2.1⟩ := by
  funext y
  rw [View.readAt_apply, hX9]
  refine congrArg (Blk.Qm X WQ) (funext fun a => Fin.ext ?_)
  match a with
  | ⟨0, _⟩ =>
    show k0_off1 k 0 + 1 * (y 0).val = 512 * k.val + (y 0).val
    have h0 : k0_off1 k 0 = 512 * k.val := by rw [k0_off1_eq]; rfl
    omega
  | ⟨1, _⟩ =>
    show k0_off1 k 1 + 1 * (y 1).val = (y 1).val
    have h1 : k0_off1 k 1 = 0 := by rw [k0_off1_eq]; rfl
    omega

/-- THE RUNNING MAXIMUM after j trips is the pure fold over the first j tiles. -/
theorem l1_max (X9 : BufTy.Contents (Elt F) arg9.view.ty) (G6 : BufTy.Contents (Elt F) arg6.view.ty)
    (G7 : BufTy.Contents (Elt F) arg7.view.ty) (hX9 : arg9.view.read (Elt F) X9 = Blk.Qm X WQ)
    (hG7 : View.readAt (Elt F) arg7.view (Rect.unit (s := S1x2048) ![0, 0] S1x2048.size inb_S1x2048_S1x2048_0_0).toLoadRect G7 = k0_pay8) :
    ∀ (j : ℕ) (hj : j ≤ 4),
      View.readAt (Elt F) arg7.view (Rect.unit (s := S1x2048) ![0, 0] S1x2048.size inb_S1x2048_S1x2048_0_0).toLoadRect (arg7.view.writes (Elt F) G7 (pb_k0_t1 (F := F) 𝒱 c bd i arg1 harg1 arg2 harg2 arg3 harg3 arg4 harg4 arg5 harg5 arg6 harg6 arg7 harg7 arg8 harg8 arg9 harg9 X WK X9 G6 G7 j).2) = Blk.cmx X WQ WK j
  | 0, _ => hG7
  | j + 1, hj => by
    have hj4 : j < 4 := by omega
    have hj' : j < k0_t1_loop.trips := by rw [l12_trips1]; exact hj4
    have h : (pb_k0_t1 (F := F) 𝒱 c bd i arg1 harg1 arg2 harg2 arg3 harg3 arg4 harg4 arg5 harg5 arg6 harg6 arg7 harg7 arg8 harg8 arg9 harg9 X WK X9 G6 G7 (j + 1)) = _ := l12_pb1_succ (F := F) 𝒱 c bd i arg1 harg1 arg2 harg2 arg3 harg3 arg4 harg4 arg5 harg5 arg6 harg6 arg7 harg7 arg8 harg8 arg9 harg9 X WK X9 G6 G7 ⟨j, hj'⟩
    rw [h]
    dsimp only
    rw [l12_readAt_cons_self, l12_load_q (F := F) arg9 X WQ X9 hX9, l1_max X9 G6 G7 hX9 hG7 j (by omega)]
    conv_rhs => rw [Blk.cmx]
    rw [dif_pos hj4]

end Loop1

section Loop1Band

variable (𝒱 : Variants) (c : Dev nD) (bd : Option 𝒱.V) (i : grid0.Coords) (arg1 : Memref sig .tc .vmem S1x2048x256 .bf16) (harg1 : arg1.IsWhole) (arg2 : Memref sig .tc .vmem S64x256 .bf16) (harg2 : arg2.IsWhole) (arg3 : Memref sig .tc .vmem S64x256 .bf16) (harg3 : arg3.IsWhole) (arg4 : Memref sig .tc .vmem S256x256 .bf16) (harg4 : arg4.IsWhole) (arg5 : Memref sig .tc .vmem S1x2048x256 .f32) (harg5 : arg5.IsWhole) (arg6 : Memref sig .tc .vmem S2048x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x64 .bf16) (harg9 : arg9.IsWhole)
  (X : Vec F S1x2048x256 .bf16) (WQ WK : Vec F S64x256 .bf16)

/-- Loop 2 makes four trips. -/
theorem l12_trips2 : k0_t2_loop.trips = 4 := by decide

/-- After j trips of loop 1, band k < j of the energy scratch holds the energies of tile k: trip k stored them, the
    later trips store other bands. -/
theorem l1_band_aux (X9 : BufTy.Contents (Elt F) arg9.view.ty) (G6 : BufTy.Contents (Elt F) arg6.view.ty)
    (G7 : BufTy.Contents (Elt F) arg7.view.ty) (hX9 : arg9.view.read (Elt F) X9 = Blk.Qm X WQ) :
    ∀ (j : ℕ) (hj : j ≤ 4) (k : Fin k0_t2_loop.trips) (hk : k.val < j),
      View.readAt (Elt F) arg6.view (Rect.unit (s := S2048x2048) (k0_off3 k) S512x2048.size (k0_off3_inb k)).toLoadRect
          (arg6.view.writes (Elt F) G6 (pb_k0_t1 (F := F) 𝒱 c bd i arg1 harg1 arg2 harg2 arg3 harg3 arg4 harg4 arg5 harg5 arg6 harg6 arg7 harg7 arg8 harg8 arg9 harg9 X WK X9 G6 G7 j).1)
        = Blk.Eb X WQ WK ⟨k.val, Nat.lt_of_lt_of_le k.isLt k0_t2_abs.2.1⟩
  | 0, _, k, hk => absurd hk (Nat.not_lt_zero _)
  | j + 1, hj, k, hk => by
    have hj4 : j < 4 := by omega
    have hj' : j < k0_t1_loop.trips := by rw [l12_trips1]; exact hj4
    have h : (pb_k0_t1 (F := F) 𝒱 c bd i arg1 harg1 arg2 harg2 arg3 harg3 arg4 harg4 arg5 harg5 arg6 harg6 arg7 harg7 arg8 harg8 arg9 harg9 X WK X9 G6 G7 (j + 1)) = _ := l12_pb1_succ (F := F) 𝒱 c bd i arg1 harg1 arg2 harg2 arg3 harg3 arg4 harg4 arg5 harg5 arg6 harg6 arg7 harg7 arg8 harg8 arg9 harg9 X WK X9 G6 G7 ⟨j, hj'⟩
    rw [h]
    dsimp only
    by_cases hkj : k.val = j
    · rw [l12_readAt_cons_hit arg6.view G6 (k0_off2_inb ⟨j, hj'⟩) (k0_off3_inb k) _ _
        (by rw [k0_off3_eq, k0_off2_eq, hkj]),
        l12_load_q (F := F) arg9 X WQ X9 hX9]
      have hf : (⟨k.val, Nat.lt_of_lt_of_le k.isLt k0_t2_abs.2.1⟩ : Fin 4) = ⟨j, hj4⟩ := Fin.ext hkj
      rw [hf]
      rfl
    · have hlt : k.val < j := by omega
      rw [l12_readAt_cons_miss arg6.view G6 (k0_off2_inb ⟨j, hj'⟩) (k0_off3_inb k) _ _ (k0_off2_eq _) (k0_off3_eq _)
        (W := 512) (W' := 512) rfl rfl (Or.inl (by show 512 * k.val + 512 ≤ 512 * j; omega))]
      exact l1_band_aux X9 G6 G7 hX9 j (by omega) k hlt

/-- THE ENERGY SCRATCH after loop 1: band k holds the energies of tile k, whatever the scratch held before. -/
theorem l1_band (X9 : BufTy.Contents (Elt F) arg9.view.ty) (G6 : BufTy.Contents (Elt F) arg6.view.ty)
    (G7 : BufTy.Contents (Elt F) arg7.view.ty) (hX9 : arg9.view.read (Elt F) X9 = Blk.Qm X WQ)
    (k : Fin k0_t2_loop.trips) :
    View.readAt (Elt F) arg6.view (Rect.unit (s := S2048x2048) (k0_off3 k) S512x2048.size (k0_off3_inb k)).toLoadRect
        (arg6.view.writes (Elt F) G6 (pb_k0_t1 (F := F) 𝒱 c bd i arg1 harg1 arg2 harg2 arg3 harg3 arg4 harg4 arg5 harg5 arg6 harg6 arg7 harg7 arg8 harg8 arg9 harg9 X WK X9 G6 G7 k0_t1_loop.trips).1)
      = Blk.Eb X WQ WK ⟨k.val, Nat.lt_of_lt_of_le k.isLt k0_t2_abs.2.1⟩ :=
  l1_band_aux (F := F) 𝒱 c bd i arg1 harg1 arg2 harg2 arg3 harg3 arg4 harg4 arg5 harg5 arg6 harg6 arg7 harg7 arg8 harg8 arg9 harg9 X WQ WK X9 G6 G7 hX9 k0_t1_loop.trips (le_of_eq l12_trips1)
    k (lt_of_lt_of_eq (Nat.lt_of_lt_of_le k.isLt k0_t2_abs.2.1) l12_trips1.symm)

end Loop1Band

/-! ## The two loops together: what trip k of loop 3 computes -/

section Assemble

variable (𝒱 : Variants) (c : Dev nD) (bd : Option 𝒱.V) (i : grid0.Coords) (arg1 : Memref sig .tc .vmem S1x2048x256 .bf16) (harg1 : arg1.IsWhole) (arg2 : Memref sig .tc .vmem S64x256 .bf16) (harg2 : arg2.IsWhole) (arg3 : Memref sig .tc .vmem S64x256 .bf16) (harg3 : arg3.IsWhole) (arg4 : Memref sig .tc .vmem S256x256 .bf16) (harg4 : arg4.IsWhole) (arg5 : Memref sig .tc .vmem S1x2048x256 .f32) (harg5 : arg5.IsWhole) (arg6 : Memref sig .tc .vmem S2048x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x64 .bf16) (harg9 : arg9.IsWhole)
  (X : Vec F S1x2048x256 .bf16) (WQ WK : Vec F S64x256 .bf16) (WV : Vec F S256x256 .bf16)
  (j7 : BufTy.Contents (Elt F) arg7.view.ty) (j8 : BufTy.Contents (Elt F) arg8.view.ty)
  (j9 : BufTy.Contents (Elt F) arg9.view.ty) (f6 : BufTy.Contents (Elt F) arg6.view.ty)

/-- The projected-query scratch as loop 1 finds it: the projection stored whole. -/
abbrev l12_X9 : BufTy.Contents (Elt F) arg9.view.ty :=
  arg9.view.writes (Elt F) j9 [⟨(Rect.unit (s := S2048x64) ![0, 0] S2048x64.size inb_S2048x64_S2048x64_0_0), k0_pay6 X WQ⟩]

/-- The running maximum as loop 1 finds it: -inf stored whole. -/
abbrev l12_G7 : BufTy.Contents (Elt F) arg7.view.ty :=
  arg7.view.writes (Elt F) j7 [⟨(Rect.unit (s := S1x2048) ![0, 0] S1x2048.size inb_S1x2048_S1x2048_0_0), k0_pay8⟩]

/-- Loop 1's pieces, all trips. -/
abbrev l12_PB1 : List (View.Piece (Elt F) S2048x2048 .f32) × List (View.Piece (Elt F) S1x2048 .f32) :=
  pb_k0_t1 (F := F) 𝒱 c bd i arg1 harg1 arg2 harg2 arg3 harg3 arg4 harg4 arg5 harg5 arg6 harg6 arg7 harg7 arg8 harg8 arg9 harg9 X WK (l12_X9 arg9 X WQ j9) f6 (l12_G7 arg7 j7) k0_t1_loop.trips

/-- The running maximum as loop 2 finds it. -/
abbrev l12_X7 : BufTy.Contents (Elt F) arg7.view.ty :=
  arg7.view.writes (Elt F) j7 ((l12_PB1 𝒱 c bd i arg1 harg1 arg2 harg2 arg3 harg3 arg4 harg4 arg5 harg5 arg6 harg6 arg7 harg7 arg8 harg8 arg9 harg9 X WQ WK j7 j9 f6).2 ++ [⟨(Rect.unit (s := S1x2048) ![0, 0] S1x2048.size inb_S1x2048_S1x2048_0_0), k0_pay8⟩])

/-- The energy scratch as loop 2 finds it. -/
abbrev l12_G6 : BufTy.Contents (Elt F) arg6.view.ty :=
  arg6.view.writes (Elt F) f6 (l12_PB1 𝒱 c bd i arg1 harg1 arg2 harg2 arg3 harg3 arg4 harg4 arg5 harg5 arg6 harg6 arg7 harg7 arg8 harg8 arg9 harg9 X WQ WK j7 j9 f6).1

/-- The running sum as loop 2 finds it: zero stored whole. -/
abbrev l12_G8 : BufTy.Contents (Elt F) arg8.view.ty :=
  arg8.view.writes (Elt F) j8 [⟨(Rect.unit (s := S1x2048) ![0, 0] S1x2048.size inb_S1x2048_S1x2048_0_0), k0_pay9⟩]

/-- Loop 2's pieces, all trips. -/
abbrev l12_PB2 : List (View.Piece (Elt F) S2048x2048 .f32) × List (View.Piece (Elt F) S1x2048 .f32) :=
  pb_k0_t2 (F := F) 𝒱 c bd i arg1 harg1 arg2 harg2 arg3 harg3 arg4 harg4 arg5 harg5 arg6 harg6 arg7 harg7 arg8 harg8 arg9 harg9 (l12_X7 𝒱 c bd i arg1 harg1 arg2 harg2 arg3 harg3 arg4 harg4 arg5 harg5 arg6 harg6 arg7 harg7 arg8 harg8 arg9 harg9 X WQ WK j7 j9 f6) (l12_G6 𝒱 c bd i arg1 harg1 arg2 harg2 arg3 harg3 arg4 harg4 arg5 harg5 arg6 harg6 arg7 harg7 arg8 harg8 arg9 harg9 X WQ WK j7 j9 f6)
    (l12_G8 arg8 j8) k0_t2_loop.trips

/-- The column sums loop 3 loads. -/
abbrev l12_S : Vec F S1x2048 .f32 :=
  View.readAt (Elt F) arg8.view (Rect.unit (s := S1x2048) ![0, 0] S1x2048.size inb_S1x2048_S1x2048_0_0).toLoadRect
    (arg8.view.writes (Elt F) j8 ((l12_PB2 𝒱 c bd i arg1 harg1 arg2 harg2 arg3 harg3 arg4 harg4 arg5 harg5 arg6 harg6 arg7 harg7 arg8 harg8 arg9 harg9 X WQ WK j7 j8 j9 f6).2 ++ [⟨(Rect.unit (s := S1x2048) ![0, 0] S1x2048.size inb_S1x2048_S1x2048_0_0), k0_pay9⟩]))

/-- The energy scratch as loop 3 finds it. -/
abbrev l12_X6 : BufTy.Contents (Elt F) arg6.view.ty :=
  arg6.view.writes (Elt F) f6 ((l12_PB2 𝒱 c bd i arg1 harg1 arg2 harg2 arg3 harg3 arg4 harg4 arg5 harg5 arg6 harg6 arg7 harg7 arg8 harg8 arg9 harg9 X WQ WK j7 j8 j9 f6).1 ++ (l12_PB1 𝒱 c bd i arg1 harg1 arg2 harg2 arg3 harg3 arg4 harg4 arg5 harg5 arg6 harg6 arg7 harg7 arg8 harg8 arg9 harg9 X WQ WK j7 j9 f6).1)

/-- The abstract running sum at the pure energies and final maximum is the pure running sum. -/
theorem l12_csm_eq : ∀ j : ℕ, l2_csm (Blk.Eb X WQ WK) (Blk.cmx X WQ WK 4) j = Blk.csm X WQ WK j
  | 0 => rfl
  | j + 1 => by
    rw [l2_csm, Blk.csm, l12_csm_eq j]

/-- TRIP k OF LOOP 3 computes the pure output tile k, whatever the scratch buffers held at the start. -/
theorem l12_out (k : Fin k0_t3_loop.trips) :
    blk3 arg6 (k0_pay7 X WV) (l12_S 𝒱 c bd i arg1 harg1 arg2 harg2 arg3 harg3 arg4 harg4 arg5 harg5 arg6 harg6 arg7 harg7 arg8 harg8 arg9 harg9 X WQ WK j7 j8 j9 f6) (l12_X6 𝒱 c bd i arg1 harg1 arg2 harg2 arg3 harg3 arg4 harg4 arg5 harg5 arg6 harg6 arg7 harg7 arg8 harg8 arg9 harg9 X WQ WK j7 j8 j9 f6) k
      = Blk.Ob X WQ WK WV ⟨k.val, Nat.lt_of_lt_of_le k.isLt k0_t3_abs.2.1⟩ := by
  have hX9 : arg9.view.read (Elt F) (l12_X9 arg9 X WQ j9) = Blk.Qm X WQ :=
    l12_read_cons_whole arg9.view j9 inb_S2048x64_S2048x64_0_0 (k0_pay6 X WQ) []
  have hG7 : View.readAt (Elt F) arg7.view (Rect.unit (s := S1x2048) ![0, 0] S1x2048.size inb_S1x2048_S1x2048_0_0).toLoadRect (l12_G7 arg7 j7) = k0_pay8 :=
    l12_readAt_cons_self arg7.view j7 (Rect.unit (s := S1x2048) ![0, 0] S1x2048.size inb_S1x2048_S1x2048_0_0) k0_pay8 []
  have hG8 : View.readAt (Elt F) arg8.view (Rect.unit (s := S1x2048) ![0, 0] S1x2048.size inb_S1x2048_S1x2048_0_0).toLoadRect (l12_G8 arg8 j8) = k0_pay9 :=
    l12_readAt_cons_self arg8.view j8 (Rect.unit (s := S1x2048) ![0, 0] S1x2048.size inb_S1x2048_S1x2048_0_0) k0_pay9 []
  have hX7 : View.readAt (Elt F) arg7.view (Rect.unit (s := S1x2048) ![0, 0] S1x2048.size inb_S1x2048_S1x2048_0_0).toLoadRect (l12_X7 𝒱 c bd i arg1 harg1 arg2 harg2 arg3 harg3 arg4 harg4 arg5 harg5 arg6 harg6 arg7 harg7 arg8 harg8 arg9 harg9 X WQ WK j7 j9 f6) = Blk.cmx X WQ WK 4 := by
    unfold l12_X7
    rw [View.writes_append]
    exact (l1_max (F := F) 𝒱 c bd i arg1 harg1 arg2 harg2 arg3 harg3 arg4 harg4 arg5 harg5 arg6 harg6 arg7 harg7 arg8 harg8 arg9 harg9 X WQ WK _ f6 _ hX9 hG7 k0_t1_loop.trips (le_of_eq l12_trips1)).trans
      (congrArg (Blk.cmx X WQ WK) l12_trips1)
  have hG6 : ∀ k : Fin k0_t2_loop.trips, View.readAt (Elt F) arg6.view (Rect.unit (s := S2048x2048) (k0_off3 k) S512x2048.size (k0_off3_inb k)).toLoadRect (l12_G6 𝒱 c bd i arg1 harg1 arg2 harg2 arg3 harg3 arg4 harg4 arg5 harg5 arg6 harg6 arg7 harg7 arg8 harg8 arg9 harg9 X WQ WK j7 j9 f6) = Blk.Eb X WQ WK ⟨k.val, Nat.lt_of_lt_of_le k.isLt k0_t2_abs.2.1⟩ :=
    fun k => l1_band (F := F) 𝒱 c bd i arg1 harg1 arg2 harg2 arg3 harg3 arg4 harg4 arg5 harg5 arg6 harg6 arg7 harg7 arg8 harg8 arg9 harg9 X WQ WK _ f6 _ hX9 k
  have hS : l12_S 𝒱 c bd i arg1 harg1 arg2 harg2 arg3 harg3 arg4 harg4 arg5 harg5 arg6 harg6 arg7 harg7 arg8 harg8 arg9 harg9 X WQ WK j7 j8 j9 f6 = Blk.csm X WQ WK 4 := by
    unfold l12_S
    rw [View.writes_append]
    refine (l2_sum (F := F) 𝒱 c bd i arg1 harg1 arg2 harg2 arg3 harg3 arg4 harg4 arg5 harg5 arg6 harg6 arg7 harg7 arg8 harg8 arg9 harg9 _ _ _ _ _ hX7 hG8 hG6 k0_t2_loop.trips (le_of_eq l12_trips2)).trans ?_
    exact (congrArg (l2_csm (Blk.Eb X WQ WK) (Blk.cmx X WQ WK 4)) l12_trips2).trans (l12_csm_eq X WQ WK 4)
  have hP : View.readAt (Elt F) arg6.view (Rect.unit (s := S2048x2048) (k0_off4 k) S512x2048.size (k0_off4_inb k)).toLoadRect
      (l12_X6 𝒱 c bd i arg1 harg1 arg2 harg2 arg3 harg3 arg4 harg4 arg5 harg5 arg6 harg6 arg7 harg7 arg8 harg8 arg9 harg9 X WQ WK j7 j8 j9 f6) = Blk.Pb X WQ WK ⟨k.val, Nat.lt_of_lt_of_le k.isLt k0_t3_abs.2.1⟩ := by
    unfold l12_X6
    rw [View.writes_append]
    exact l2_band (F := F) 𝒱 c bd i arg1 harg1 arg2 harg2 arg3 harg3 arg4 harg4 arg5 harg5 arg6 harg6 arg7 harg7 arg8 harg8 arg9 harg9 _ _ _ _ _ hX7 hG8 hG6 k
  unfold blk3
  rw [hS, hP]
  rfl

end Assemble

end Cert.Kernel.Gen

end
-- ==== Proof.BitsRead.lean ====
/-
  What is READ BACK through the output's staging buffer after the kernel body: the pure output block of the four input
  blocks, whatever the buffer and the energy scratch held before.  The body's run leaves the iterated view-writes of the
  third loop (`W3`) over the contents the first two loops left; row n of the read-back is row n mod 512 of trip n / 512's
  block (the four row bands are disjoint and cover the buffer), and that block is the pure output tile (the first two
  loops' pieces, read band by band).
-/
import proofs.«139261_j76158360092784_2_alg».proof.Proof.BitsRun
import proofs.«139261_j76158360092784_2_alg».proof.Proof.BitsBlock
import proofs.«139261_j76158360092784_2_alg».proof.Proof.BitsLoop3Read
import proofs.«139261_j76158360092784_2_alg».proof.Proof.BitsLoops12
import Idealize.ShloMosaic.Lib.Pipeline.Value

set_option maxRecDepth 16384

noncomputable section

namespace Cert.Kernel.Gen

open Idealize.ShloMosaic Idealize.ShloMosaic.TcCoe Idealize.ShloMosaic.Tactic Idealize.SL.Sem

variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl

/-- A whole-buffer load of a whole memref holding `x` is `x`. -/
theorem load_x (arg1 : Memref sig .tc .vmem S1x2048x256 .bf16) (harg1 : arg1.IsWhole) (x : Vec F S1x2048x256 .bf16) :
    View.readAt (Elt F) arg1.view (Rect.unit (s := S1x2048x256) ![0, 0, 0] ![1, 2048, 256] inb_S1x2048x256_S1x2048x256_0_0_0).toLoadRect (harg1.unread x) = x := by
  show View.readAt (Elt F) arg1.view (Rect.unit (s := S1x2048x256) ![0, 0, 0] S1x2048x256.size inb_S1x2048x256_S1x2048x256_0_0_0).toLoadRect (harg1.unread x) = x
  simp only [View.readAt_eq_ld, harg1.read_unread, View.ld_unit_zero (S := S1x2048x256) zeros3]
theorem load_w (arg2 : Memref sig .tc .vmem S64x256 .bf16) (harg2 : arg2.IsWhole) (x : Vec F S64x256 .bf16) :
    View.readAt (Elt F) arg2.view (Rect.unit (s := S64x256) ![0, 0] ![64, 256] inb_S64x256_S64x256_0_0).toLoadRect (harg2.unread x) = x := by
  show View.readAt (Elt F) arg2.view (Rect.unit (s := S64x256) ![0, 0] S64x256.size inb_S64x256_S64x256_0_0).toLoadRect (harg2.unread x) = x
  simp only [View.readAt_eq_ld, harg2.read_unread, View.ld_unit_zero (S := S64x256) zeros2]
theorem load_wv (arg4 : Memref sig .tc .vmem S256x256 .bf16) (harg4 : arg4.IsWhole) (x : Vec F S256x256 .bf16) :
    View.readAt (Elt F) arg4.view (Rect.unit (s := S256x256) ![0, 0] ![256, 256] inb_S256x256_S256x256_0_0).toLoadRect (harg4.unread x) = x := by
  show View.readAt (Elt F) arg4.view (Rect.unit (s := S256x256) ![0, 0] S256x256.size inb_S256x256_S256x256_0_0).toLoadRect (harg4.unread x) = x
  simp only [View.readAt_eq_ld, harg4.read_unread, View.ld_unit_zero (S := S256x256) zeros2]

theorem trips3 : Scf.trips (0#32) (Scalar.addi 0#32 4#32) 1#32 = 4 := by decide +kernel

/-- The read-back of the third loop's iterated writes, when each trip's block is the pure output tile. -/
theorem read_W3_outBlk (arg5 : Memref sig .tc .vmem S1x2048x256 .f32) (harg5 : arg5.IsWhole) (arg6 : Memref sig .tc .vmem S2048x2048 .f32)
    (V : FVec F S2048x256 .bf16) (S : Vec F S1x2048 .f32) (X6 : BufTy.Contents (Elt F) arg6.view.ty) (f5 : BufTy.Contents (Elt F) arg5.view.ty)
    (x0 : Vec F S1x2048x256 .bf16) (x1 x2 : Vec F S64x256 .bf16) (x3 : Vec F S256x256 .bf16)
    (h : ∀ k : Fin k0_t3_loop.trips, blk3 arg6 V S X6 k = Cert.Kernel.Blk.Ob x0 x1 x2 x3 ⟨k.val, Nat.lt_of_lt_of_le k.isLt k0_t3_abs.2.1⟩) :
    arg5.view.read (Elt F) (W3 arg5 arg6 V S X6 f5 (Scf.trips (0#32) (Scalar.addi 0#32 4#32) 1#32)) = Cert.Kernel.Blk.outBlk x0 x1 x2 x3 := by
  rw [trips3]
  funext y
  obtain ⟨a, n, d, rfl⟩ : ∃ (a : Fin 1) (n : Fin 2048) (d : Fin 256), y = ValueIdx.ix3 a n d := ⟨y 0, y 1, y 2, ValueIdx.eq_ix3 y⟩
  obtain rfl : a = 0 := Subsingleton.elim _ _
  rw [w3_read arg5 harg5, h]
  rfl

set_option maxHeartbeats 1600000 in
theorem read_out (c : Dev nD) (i : grid0.Coords) (arg1 : Memref sig .tc .vmem S1x2048x256 .bf16) (harg1 : arg1.IsWhole) (arg2 : Memref sig .tc .vmem S64x256 .bf16) (harg2 : arg2.IsWhole) (arg3 : Memref sig .tc .vmem S64x256 .bf16) (harg3 : arg3.IsWhole) (arg4 : Memref sig .tc .vmem S256x256 .bf16) (harg4 : arg4.IsWhole) (arg5 : Memref sig .tc .vmem S1x2048x256 .f32) (harg5 : arg5.IsWhole) (arg6 : Memref sig .tc .vmem S2048x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x64 .bf16) (harg9 : arg9.IsWhole)
    (x0 : Vec F S1x2048x256 .bf16) (x1 x2 : Vec F S64x256 .bf16) (x3 : Vec F S256x256 .bf16)
    (f5 : BufTy.Contents (Elt F) arg5.view.ty) (f6 : BufTy.Contents (Elt F) arg6.view.ty) :
    arg5.view.read (Elt F) ((kernelRun0_A c i arg1 harg1 arg2 harg2 arg3 harg3 arg4 harg4 arg5 harg5 arg6 harg6 arg7 harg7 arg8 harg8 arg9 harg9 x0 x1 x2 x3).1 f5 f6) = Cert.Kernel.Blk.outBlk x0 x1 x2 x3 := by
  unfold kernelRun0_A
  dsimp only
  sl_unfold_run_names
  simp only [load_x, load_w, load_wv]
  exact read_W3_outBlk arg5 harg5 arg6 _ _ _ f5 x0 x1 x2 x3
    (fun k => l12_out Variants.none c none i arg1 harg1 arg2 harg2 arg3 harg3 arg4 harg4 arg5 harg5 arg6 harg6 arg7 harg7 arg8 harg8 arg9 harg9 x0 x1 x2 x3 arg7.view.junk arg8.view.junk arg9.view.junk f6 k)

end Cert.Kernel.Gen

end
-- ==== Proof.BitsFrame.lean ====
/-
  The frame of the program with the one kernel launch, and its run with the output array named: the proof data of the
  pipeline (each input window's staging buffer at its block; the output's at `Blk.outBlk` of the point's four input
  blocks; the scratch buffers in the region's invariant at anything, since every point writes each of them before it
  reads it), the body obligation from the body's run, the launch, and the frame claim's post.
-/
import proofs.«139261_j76158360092784_2_alg».proof.Proof.BitsRead
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the output's staging buffer at point `t`: the pure output block of the point's input blocks. -/
def out0_4 (c : Dev nD) (t : Fin cfg0.N) : Vec F S1x2048x256 .f32 :=
  Cert.Kernel.Blk.outBlk (iblk m c 0 t) (iblk m c 1 t) (iblk m c 2 t) (iblk m c 3 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1600000 in
/-- The body at any point: the inputs' memrefs hold their blocks; the invariant hands the body its scratch buffers at
    some contents and takes them back at some contents; the output's buffer is read back as the point's output block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩⟩
  iapply ((kernelRun0_A c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, ⟨%f5, %f6, H4⟩, ⟨%g6, HS0⟩, ⟨%g7, HS1⟩, ⟨%g8, HS2⟩, ⟨%g9, HS3⟩⟩
  isplitl [HS0 HS1 HS2 HS3 Hg]
  · isplitr [Hg]
    · isplitl [HS0]; · iexists _; unfold owns; iexists g6; isplitr; · (ipureintro; rfl)
                       iexact HS0
      isplitl [HS1]; · iexists _; unfold owns; iexists g7; isplitr; · (ipureintro; rfl)
                       iexact HS1
      isplitl [HS2]; · iexists _; unfold owns; iexists g8; isplitr; · (ipureintro; rfl)
                       iexact HS2
      iexists _; unfold owns; iexists g9; isplitr; · (ipureintro; rfl)
      iexact HS3
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro
  exact read_out c (grid0.coords t) _ _ _ _ _ _ _ _ _ (hs0_4 t) _ _ _ _ _ _ _ _ (iblk m c 0 t) (iblk m c 1 t) (iblk m c 2 t) (iblk m c 3 t) f5 f6

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the program runs to its end without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Gen

end
-- ==== Proof.IdealLoop3.lean ====
/-
  The third counted loop of the kernel body (four trips): trip k reads rows 512k … 512k+511 of the scratch holding the
  exponentials, scales them by the reciprocal column sums, renormalises each row and multiplies with v, and stores the
  512×256 result through a squeezed view of the output's staging buffer at rows 512k ….  The store goes through a view,
  so the buffer's contents after the trips are stated as an iterated write (`W3`), not as a list of pieces:
  `W3 … f₀ 0 = f₀` and `W3 … f₀ (k+1)` is `W3 … f₀ k` with trip k's block written through the view.
-/
import proofs.«139261_j76158360092784_2_alg».proof.Proof.Gen.KernelIdeal.Frame
import proofs.«139261_j76158360092784_2_alg».proof.Proof.Gen.KernelIdeal.Loops
import proofs.«139261_j76158360092784_2_alg».proof.Proof.Gen.KernelIdeal.Skeleton

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

/-- The output's staging memref with its unit leading axis dropped: the 2048×256 view the loop stores through. -/
abbrev outView (arg5 : Memref sig .tc .vmem S1x2048x256 .f32) : Memref sig .tc .vmem S2048x256 .f32 :=
  (arg5.slice (Rect.unit (s := S1x2048x256) ![0, 0, 0] S1x2048x256.size inb_S1x2048x256_S1x2048x256_0_0_0) (fun _ => rfl)).squeeze S2048x256 squeezes_S1x2048x256_S2048x256

/-- The 512×256 block trip `k` computes from the scratch contents `X`: the payload of the rows it loads. -/
def blk3 (arg6 : Memref sig .tc .vmem S2048x2048 .f32) (v19 : FVec F S2048x256 .bf16) (v30 : Vec F S1x2048 .f32)
    (X : BufTy.Contents (Elt F) arg6.view.ty) (k : Fin k0_t3_loop.trips) : FVec F S512x256 .f32 :=
  k0_pay4 v19 v30 (View.readAt (Elt F) arg6.view (Rect.unit (s := S2048x2048) (k0_off4 k) S512x2048.size (k0_off4_inb k)).toLoadRect X)

/-- One trip's effect on the staging buffer's contents: its block written through the view at the trip's rows. -/
def step3 (arg5 : Memref sig .tc .vmem S1x2048x256 .f32) (arg6 : Memref sig .tc .vmem S2048x2048 .f32) (v19 : FVec F S2048x256 .bf16) (v30 : Vec F S1x2048 .f32)
    (X : BufTy.Contents (Elt F) arg6.view.ty) (k : Fin k0_t3_loop.trips) (f : BufTy.Contents (Elt F) arg5.view.ty) : BufTy.Contents (Elt F) arg5.view.ty :=
  View.write (Elt F) ((outView arg5).access (Rect.unit (s := S2048x256) (k0_off5 k) S512x256.size (k0_off5_inb k))) f (blk3 arg6 v19 v30 X k) Finset.univ

/-- The contents before trip `k`, from the contents `f₀` at loop entry. -/
def W3 (arg5 : Memref sig .tc .vmem S1x2048x256 .f32) (arg6 : Memref sig .tc .vmem S2048x2048 .f32) (v19 : FVec F S2048x256 .bf16) (v30 : Vec F S1x2048 .f32)
    (X : BufTy.Contents (Elt F) arg6.view.ty) (f₀ : BufTy.Contents (Elt F) arg5.view.ty) : ℕ → BufTy.Contents (Elt F) arg5.view.ty
  | 0 => f₀
  | k + 1 => if h : k < k0_t3_loop.trips then step3 arg5 arg6 v19 v30 X ⟨k, h⟩ (W3 arg5 arg6 v19 v30 X f₀ k) else W3 arg5 arg6 v19 v30 X f₀ k

theorem W3_succ (arg5 : Memref sig .tc .vmem S1x2048x256 .f32) (arg6 : Memref sig .tc .vmem S2048x2048 .f32) (v19 : FVec F S2048x256 .bf16) (v30 : Vec F S1x2048 .f32)
    (X : BufTy.Contents (Elt F) arg6.view.ty) (f₀ : BufTy.Contents (Elt F) arg5.view.ty) (k : Fin k0_t3_loop.trips) :
    W3 arg5 arg6 v19 v30 X f₀ (k.val + 1) = step3 arg5 arg6 v19 v30 X k (W3 arg5 arg6 v19 v30 X f₀ k.val) := by
  rw [W3]; exact dif_pos k.isLt

/-- One trip's resources: the scratch read at its contents, the output's staging buffer held whole. -/
abbrev Trip_k0_t3 (c : Dev nD) (arg6 : Memref sig .tc .vmem S2048x2048 .f32) (arg5 : Memref sig .tc .vmem S1x2048x256 .f32) (X_arg6 : BufTy.Contents (Elt F) arg6.view.ty) (f_arg5 : BufTy.Contents (Elt F) arg5.view.ty) : sProp 𝕄G :=
  iprop((arg6.view.loc (c : Thread nD τ) ↦[arg6.view.set]{fullShare} X_arg6) ∗ (arg5.view.loc (c : Thread nD τ) ↦[Finset.univ]{fullShare} f_arg5))

/-- ONE TRIP at a symbolic `k`: from any contents `f` of the staging buffer to `step3 … k f`. -/
theorem trip_k0_t3 (𝒱 : Variants) (c : Dev nD) (bd : Option 𝒱.V) (i : grid0.Coords) (arg1 : Memref sig .tc .vmem S1x2048x256 .bf16) (harg1 : arg1.IsWhole) (arg2 : Memref sig .tc .vmem S64x256 .bf16) (harg2 : arg2.IsWhole) (arg3 : Memref sig .tc .vmem S64x256 .bf16) (harg3 : arg3.IsWhole) (arg4 : Memref sig .tc .vmem S256x256 .bf16) (harg4 : arg4.IsWhole) (arg5 : Memref sig .tc .vmem S1x2048x256 .f32) (harg5 : arg5.IsWhole) (arg6 : Memref sig .tc .vmem S2048x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x64 .bf16) (harg9 : arg9.IsWhole) (v19 : FVec F S2048x256 .bf16) (v30 : Vec F S1x2048 .f32) (X_arg6 : BufTy.Contents (Elt F) arg6.view.ty) (k : Fin k0_t3_loop.trips)
    (E : Set ℕ) (f_arg5 : BufTy.Contents (Elt F) arg5.view.ty) :
      Trip_k0_t3 (F := F) c arg6 arg5 X_arg6 f_arg5
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 v19 v30 k PUnit.unit)
          (fun _ => Trip_k0_t3 (F := F) c arg6 arg5 X_arg6 (step3 arg5 arg6 v19 v30 X_arg6 k f_arg5)) := by
  have hk : k.val < 4 := Nat.lt_of_lt_of_le k.isLt k0_t3_abs.2.1
  unfold k0_t3_body
  iintro ⟨HR_arg6, HW_arg5⟩
  sl_exec
  sl_step
  isplitl [HR_arg6]; · iexact HR_arg6
  iexact HW_arg5

/-- THE INVARIANT before trip `k`. -/
abbrev inv_k0_t3 (c : Dev nD) (arg5 : Memref sig .tc .vmem S1x2048x256 .f32) (arg6 : Memref sig .tc .vmem S2048x2048 .f32) (v19 : FVec F S2048x256 .bf16) (v30 : Vec F S1x2048 .f32)
    (X_arg6 : BufTy.Contents (Elt F) arg6.view.ty) (f₀ : BufTy.Contents (Elt F) arg5.view.ty) (k : ℕ) (_u : PUnit) : sProp 𝕄G :=
  Trip_k0_t3 (F := F) c arg6 arg5 X_arg6 (W3 arg5 arg6 v19 v30 X_arg6 f₀ k)

set_option warn.classDefReducibility false in
/-- THE LOOP BY ITS INVARIANT. -/
@[sl_loop] def loopInv_k0_t3 (𝒱 : Variants) (c : Dev nD) (bd : Option 𝒱.V) (E : Set ℕ) (i : grid0.Coords) (arg1 : Memref sig .tc .vmem S1x2048x256 .bf16) (harg1 : arg1.IsWhole) (arg2 : Memref sig .tc .vmem S64x256 .bf16) (harg2 : arg2.IsWhole) (arg3 : Memref sig .tc .vmem S64x256 .bf16) (harg3 : arg3.IsWhole) (arg4 : Memref sig .tc .vmem S256x256 .bf16) (harg4 : arg4.IsWhole) (arg5 : Memref sig .tc .vmem S1x2048x256 .f32) (harg5 : arg5.IsWhole) (arg6 : Memref sig .tc .vmem S2048x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x64 .bf16) (harg9 : arg9.IsWhole) (v19 : FVec F S2048x256 .bf16) (v30 : Vec F S1x2048 .f32)
    (X_arg6 : BufTy.Contents (Elt F) arg6.view.ty) (f₀ : BufTy.Contents (Elt F) arg5.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 v19 v30 where
  inv := inv_k0_t3 (F := F) c arg5 arg6 v19 v30 X_arg6 f₀
  step k acc := by
    show Trip_k0_t3 (F := F) c arg6 arg5 X_arg6 (W3 arg5 arg6 v19 v30 X_arg6 f₀ k.val)
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 v19 v30 k acc)
          (fun _ => Trip_k0_t3 (F := F) c arg6 arg5 X_arg6 (W3 arg5 arg6 v19 v30 X_arg6 f₀ (k.val + 1)))
    rw [W3_succ]
    exact trip_k0_t3 (F := F) 𝒱 c bd i arg1 harg1 arg2 harg2 arg3 harg3 arg4 harg4 arg5 harg5 arg6 harg6 arg7 harg7 arg8 harg8 arg9 harg9 v19 v30 X_arg6 k E _

end Cert.KernelIdeal.Gen

end
-- ==== Proof.IdealRun.lean ====
/-
  The kernel body's run at one grid point, on any whole staging and scratch memrefs: holding the four input blocks at
  their contents, the output's staging buffer and the four scratch buffers at anything, the body — three projections,
  the three counted loops — runs to its end without a fault, leaves the inputs as they were, and leaves in the output's
  staging buffer the contents `out f₅ f₆`, a function of what that buffer and the energy scratch held before
  (Proof/…Read.lean shows that what is READ back through the buffer does not depend on either).
-/
import proofs.«139261_j76158360092784_2_alg».proof.Proof.IdealLoop3

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Each window's current staging memref at point `t`, spelled as the pipeline passes it, and its wholeness. -/
abbrev ms0_0 (t : Fin cfg0.N) : Memref sig .tc .vmem S1x2048x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x256 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S2048x2048 .f32 := Memref.whole cc0_scratch0
abbrev scM0_1 : Memref sig .tc .vmem S1x2048 .f32 := Memref.whole cc0_scratch1
abbrev scM0_2 : Memref sig .tc .vmem S1x2048 .f32 := Memref.whole cc0_scratch2
abbrev scM0_3 : Memref sig .tc .vmem S2048x64 .bf16 := Memref.whole cc0_scratch3

/-- The region's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

set_option maxHeartbeats 4000000 in
/-- THE BODY'S RUN. The witness is what the output's staging buffer holds at the end, as a function of what it and the
    energy scratch held at the start (found by the run). -/
noncomputable def kernelRun0_A (c : Dev nD) (i : grid0.Coords) (arg1 : Memref sig .tc .vmem S1x2048x256 .bf16) (harg1 : arg1.IsWhole) (arg2 : Memref sig .tc .vmem S64x256 .bf16) (harg2 : arg2.IsWhole) (arg3 : Memref sig .tc .vmem S64x256 .bf16) (harg3 : arg3.IsWhole) (arg4 : Memref sig .tc .vmem S256x256 .bf16) (harg4 : arg4.IsWhole) (arg5 : Memref sig .tc .vmem S1x2048x256 .f32) (harg5 : arg5.IsWhole) (arg6 : Memref sig .tc .vmem S2048x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x64 .bf16) (harg9 : arg9.IsWhole)
    (x0 : Vec F S1x2048x256 .bf16) (x1 x2 : Vec F S64x256 .bf16) (x3 : Vec F S256x256 .bf16) :
    { out : BufTy.Contents (Elt F) arg5.view.ty → BufTy.Contents (Elt F) arg6.view.ty → BufTy.Contents (Elt F) arg5.view.ty //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f5 f6, arg5.view.loc (c : Thread nD τ) ↦[arg5.view.set]{fullShare} out f5 f6)
                ∗ (∃ g, arg6.view.loc (c : Thread nD τ) ↦[arg6.view.set]{fullShare} g) ∗ (∃ g, arg7.view.loc (c : Thread nD τ) ↦[arg7.view.set]{fullShare} g)
                ∗ (∃ g, arg8.view.loc (c : Thread nD τ) ↦[arg8.view.set]{fullShare} g) ∗ (∃ g, arg9.view.loc (c : Thread nD τ) ↦[arg9.view.set]{fullShare} g)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9) K } := by
  refine ⟨?_, fun E K => ?run⟩
  case run =>
    simp only [cc0__fused_kernel_eq_skeleton]; unfold cc0__fused_kernel_skel
    unfold owns
    rw [harg5.set_eq_univ]
    iintro ⟨⟨%f0, %hf0, H1⟩, ⟨%f1, %hf1, H2⟩, ⟨%f2, %hf2, H3⟩, ⟨%f3, %hf3, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists f5, f6; iexact H5
    isplitl [H6]; · iexists _; iexact H6
    isplitl [H7]; · iexists _; iexact H7
    isplitl [H8]; · iexists _; iexact H8
    iexists _; iexact H9

end Cert.KernelIdeal.Gen

end
-- ==== Proof.IdealBlock.lean ====
/-
  What one grid point of the kernel computes, as ONE pure function of its four input blocks (the batch's 2048×256 rows of
  x and the three weight matrices), composed from the body's named arithmetic:
    q = x·wqᵀ (all rows), then per tile k of 512 query rows the energies E k = q[tile k]·kᵀ, the running column maximum
    `cmx` (from -inf, one tile at a time), the exponentials P k = exp (E k − final maximum), the running column sum `csm`
    (from 0), and the output tile O k from v = x·wvᵀ, the final column sums and P k.  Row n of the output block is row
    n mod 512 of tile n / 512.
-/
import proofs.«139261_j76158360092784_2_alg».proof.Proof.Gen.KernelIdeal.Skeleton
import Idealize.ShloMosaic.Lib.ValueIdx

noncomputable section

namespace Cert.KernelIdeal.Blk

open Idealize.ShloMosaic Idealize.ShloMosaic.ValueIdx Cert.KernelIdeal Cert.KernelIdeal.Gen

variable {F : FTy → Type} [FloatOps F]

/-- Rows 512k … 512k+511 of the projected queries. -/
def qRows (Q : FVec F S2048x64 .bf16) (k : Fin 4) : Vec F S512x64 .bf16 :=
  fun y => Q (ix2 (⟨512 * k.val + (y 0).val, by have h : (y 0).val < 512 := (y 0).isLt; have := k.isLt; omega⟩ : Fin 2048)
    (⟨(y 1).val, (y 1).isLt⟩ : Fin 64))

variable (X : Vec F S1x2048x256 .bf16) (WQ WK : Vec F S64x256 .bf16) (WV : Vec F S256x256 .bf16)

/-- The projected queries, all rows. -/
def Qm : FVec F S2048x64 .bf16 := k0_pay6 X WQ

/-- The energies of tile k against every key. -/
def Eb (k : Fin 4) : FVec F S512x2048 .f32 := k0_pay11 X WK (qRows (Qm X WQ) k)

/-- The running column maximum after the first k tiles. -/
def cmx : ℕ → Vec F S1x2048 .f32
  | 0 => k0_pay8
  | k + 1 => if h : k < 4 then k0_pay12 X WK (qRows (Qm X WQ) ⟨k, h⟩) (cmx k) else cmx k

/-- The exponentials of tile k against the final column maximum. -/
def Pb (k : Fin 4) : FVec F S512x2048 .f32 := k0_pay2 (Eb X WQ WK k) (cmx X WQ WK 4)

/-- The running column sum after the first k tiles. -/
def csm : ℕ → Vec F S1x2048 .f32
  | 0 => k0_pay9
  | k + 1 => if h : k < 4 then k0_pay3 (Eb X WQ WK ⟨k, h⟩) (cmx X WQ WK 4) (csm k) else csm k

/-- The projected values. -/
def Vm : FVec F S2048x256 .bf16 := k0_pay7 X WV

/-- The output tile k. -/
def Ob (k : Fin 4) : FVec F S512x256 .f32 := k0_pay4 (Vm X WV) (csm X WQ WK 4) (Pb X WQ WK k)

/-- The output block: row n is row n mod 512 of tile n / 512. -/
def outBlk : Vec F S1x2048x256 .f32 :=
  fun y => Ob X WQ WK WV (⟨(y 1).val / 512, by have h : (y 1).val < 2048 := (y 1).isLt; omega⟩ : Fin 4)
    (ix2 (⟨(y 1).val % 512, Nat.mod_lt _ (by norm_num)⟩ : Fin 512) (⟨(y 2).val, (y 2).isLt⟩ : Fin 256))

end Cert.KernelIdeal.Blk

end
-- ==== Proof.IdealLoop3Read.lean ====
/-
  The output staging buffer read after the four trips of the third loop.  Trip k writes its 512×256 block through the
  squeezed 2048×256 view at rows 512k … 512k+511; the four row bands are disjoint and cover every row, so the element
  under (0, n, d) of the buffer's own view holds, after the four trips, entry (n mod 512, d) of the block of trip n / 512.
  The squeezed view's index (n, d) sits at the buffer's (0, n, d); the rectangle of trip k places its (r, d) at the
  squeezed view's (512k + r, d); a write through a rectangle of a view is read back through the view as the payload on the
  rectangle and as the old contents off it.
-/
import proofs.«139261_j76158360092784_2_alg».proof.Proof.IdealLoop3
import Idealize.ShloMosaic.Lib.ValueIdx
import Idealize.ShloMosaic.Lib.ValueLayout

noncomputable section

namespace Cert.KernelIdeal.Gen

open Idealize.ShloMosaic Idealize.ShloMosaic.ValueIdx

variable {F : FTy → Type} [FloatOps F]

/-- The loop runs four trips. -/
theorem w3_trips : k0_t3_loop.trips = 4 := by decide +kernel

/-- Row n lies in the band of trip n / 512. -/
theorem w3_div_lt (n : Fin 2048) : n.val / 512 < k0_t3_loop.trips := by
  rw [w3_trips]; have := n.isLt; omega

/-- The squeezed view's index (n, d) sits in the buffer where the buffer's own view puts (0, n, d). -/
theorem w3_emb_out (arg5 : Memref sig .tc .vmem S1x2048x256 .f32) (n : Fin 2048) (d : Fin 256) :
    (outView arg5).view.emb (ix2 n d) = arg5.view.emb (ix3 0 n d) := by
  show arg5.view.emb ((Rect.unit (s := S1x2048x256) ![0, 0, 0] S1x2048x256.size inb_S1x2048x256_S1x2048x256_0_0_0).emb
      (Shape.reshapeEquiv squeezes_S1x2048x256_S2048x256.numel_eq (ix2 n d))) = _
  refine congrArg arg5.view.emb ?_
  have e : Shape.reshapeEquiv squeezes_S1x2048x256_S2048x256.numel_eq (ix2 n d) = ix3 (⟨0, Nat.one_pos⟩ : Fin 1) n d :=
    reshapeEquiv_ix2_1ab (a := 2048) (b := 256) _ n d
  rw [e]
  funext a; apply Fin.ext
  match a with
  | ⟨0, _⟩ => rfl
  | ⟨1, _⟩ => show 0 + 1 * n.val = n.val; omega
  | ⟨2, _⟩ => show 0 + 1 * d.val = d.val; omega

/-- So the buffer's own view at (0, n, d) reads what the squeezed view reads at (n, d). -/
theorem w3_read_out (arg5 : Memref sig .tc .vmem S1x2048x256 .f32) (f : BufTy.Contents (Elt F) arg5.view.ty) (n : Fin 2048) (d : Fin 256) :
    arg5.view.read (Elt F) f (ix3 0 n d) = (outView arg5).view.read (Elt F) f (ix2 n d) := by
  rw [View.read_apply, View.read_apply, w3_emb_out]

/-- Trip k's rectangle places its (r, d) at the squeezed view's (512k + r, d). -/
theorem w3_rect_emb (k : Fin k0_t3_loop.trips) (r : Fin 512) (d : Fin 256) (h : 512 * k.val + r.val < 2048) :
    (Rect.unit (s := S2048x256) (k0_off5 k) S512x256.size (k0_off5_inb k)).emb (ix2 r d) = ix2 (⟨512 * k.val + r.val, h⟩ : Fin 2048) d := by
  funext a; apply Fin.ext
  match a with
  | ⟨0, _⟩ =>
    show k0_off5 k 0 + 1 * r.val = 512 * k.val + r.val
    rw [k0_off5_eq]; show 512 * k.val + 1 * r.val = _; omega
  | ⟨1, _⟩ =>
    show k0_off5 k 1 + 1 * d.val = d.val
    rw [k0_off5_eq]; show 0 + 1 * d.val = _; omega

/-- A row outside trip k's band is outside its rectangle. -/
theorem w3_not_mem (k : Fin k0_t3_loop.trips) (n : Fin 2048) (d : Fin 256) (h : n.val / 512 ≠ k.val) :
    ix2 n d ∉ (Finset.univ : Finset (Rect.unit (s := S2048x256) (k0_off5 k) S512x256.size (k0_off5_inb k)).shape.Idx).map
      (Rect.unit (s := S2048x256) (k0_off5 k) S512x256.size (k0_off5_inb k)).emb := by
  rw [Rect.map_emb_univ, Rect.mem_set_unit]
  intro hm
  have h0 := hm 0
  rw [k0_off5_eq] at h0
  have h1 : 512 * k.val ≤ n.val ∧ n.val < 512 * k.val + 512 := h0
  omega

/-- One trip read through the squeezed view: its block on its band, the old contents off it. -/
theorem w3_step_read (arg5 : Memref sig .tc .vmem S1x2048x256 .f32) (arg6 : Memref sig .tc .vmem S2048x2048 .f32) (v19 : FVec F S2048x256 .bf16) (v30 : Vec F S1x2048 .f32)
    (X : BufTy.Contents (Elt F) arg6.view.ty) (k : Fin k0_t3_loop.trips) (f : BufTy.Contents (Elt F) arg5.view.ty) (n : Fin 2048) (d : Fin 256) :
    (outView arg5).view.read (Elt F) (step3 arg5 arg6 v19 v30 X k f) (ix2 n d)
      = if n.val / 512 = k.val then blk3 arg6 v19 v30 X k (ix2 (⟨n.val % 512, Nat.mod_lt _ (by norm_num)⟩ : Fin 512) d)
        else (outView arg5).view.read (Elt F) f (ix2 n d) := by
  unfold step3
  by_cases hq : n.val / 512 = k.val
  · rw [if_pos hq]
    have hn : 512 * k.val + n.val % 512 < 2048 := by have := n.isLt; omega
    have e : ix2 n d = (Rect.unit (s := S2048x256) (k0_off5 k) S512x256.size (k0_off5_inb k)).emb
        (ix2 (⟨n.val % 512, Nat.mod_lt _ (by norm_num)⟩ : Fin 512) d) := by
      rw [w3_rect_emb k _ d hn]
      exact congrArg (fun t : Fin 2048 => ix2 t d) (Fin.ext (by show n.val = 512 * k.val + n.val % 512; omega))
    refine (congrArg _ e).trans ?_
    exact View.read_slice_write_emb (v := (outView arg5).view) _ f _ (Finset.mem_univ _)
  · rw [if_neg hq]
    exact View.read_slice_write_of_not_mem (v := (outView arg5).view) _ f _ _ (w3_not_mem k n d hq)

/-- After K trips the squeezed view reads, at a row whose band was written, that band's block, and elsewhere the entry contents. -/
theorem w3_read_aux (arg5 : Memref sig .tc .vmem S1x2048x256 .f32) (arg6 : Memref sig .tc .vmem S2048x2048 .f32) (v19 : FVec F S2048x256 .bf16) (v30 : Vec F S1x2048 .f32)
    (X : BufTy.Contents (Elt F) arg6.view.ty) (f₀ : BufTy.Contents (Elt F) arg5.view.ty) (n : Fin 2048) (d : Fin 256) :
    ∀ (K : ℕ) (hK : K ≤ k0_t3_loop.trips),
    (outView arg5).view.read (Elt F) (W3 arg5 arg6 v19 v30 X f₀ K) (ix2 n d)
      = if h : n.val / 512 < K then
          blk3 arg6 v19 v30 X ⟨n.val / 512, Nat.lt_of_lt_of_le h hK⟩ (ix2 (⟨n.val % 512, Nat.mod_lt _ (by norm_num)⟩ : Fin 512) d)
        else (outView arg5).view.read (Elt F) f₀ (ix2 n d) := by
  intro K
  induction K with
  | zero => intro hK; rw [dif_neg (Nat.not_lt_zero _)]; rfl
  | succ K ih =>
    intro hK
    have hK' : K < k0_t3_loop.trips := hK
    have hs := W3_succ arg5 arg6 v19 v30 X f₀ ⟨K, hK'⟩
    rw [show W3 arg5 arg6 v19 v30 X f₀ (K + 1) = step3 arg5 arg6 v19 v30 X ⟨K, hK'⟩ (W3 arg5 arg6 v19 v30 X f₀ K) from hs,
      w3_step_read]
    by_cases hq : n.val / 512 = K
    · subst hq
      rw [if_pos rfl, dif_pos (Nat.lt_succ_self _)]
    · rw [if_neg hq, ih (Nat.le_of_lt hK')]
      by_cases hlt : n.val / 512 < K
      · rw [dif_pos hlt, dif_pos (Nat.lt_succ_of_lt hlt)]
      · rw [dif_neg hlt, dif_neg (by omega)]

/-- After the four trips the buffer's own view reads, at (0, n, d), entry (n mod 512, d) of the block of trip n / 512. -/
theorem w3_read (arg5 : Memref sig .tc .vmem S1x2048x256 .f32) (harg5 : arg5.IsWhole) (arg6 : Memref sig .tc .vmem S2048x2048 .f32) (v19 : FVec F S2048x256 .bf16) (v30 : Vec F S1x2048 .f32)
    (X : BufTy.Contents (Elt F) arg6.view.ty) (f₀ : BufTy.Contents (Elt F) arg5.view.ty) (n : Fin 2048) (d : Fin 256) :
    arg5.view.read (Elt F) (W3 arg5 arg6 v19 v30 X f₀ 4) (ValueIdx.ix3 0 n d)
      = blk3 arg6 v19 v30 X ⟨n.val / 512, w3_div_lt n⟩ (ValueIdx.ix2 ⟨n.val % 512, Nat.mod_lt _ (by norm_num)⟩ d) := by
  rw [w3_read_out, w3_read_aux arg5 arg6 v19 v30 X f₀ n d 4 (le_of_eq w3_trips.symm),
    dif_pos (show n.val / 512 < 4 by have := n.isLt; omega)]

end Cert.KernelIdeal.Gen

end
-- ==== Proof.IdealLoop2.lean ====
/-
  The kernel's second counted loop, one trip at a time.

  Before the loop the 2048×2048 scratch holds, in its band of rows 512·k … 512·k+511, a strip E k (k < 4), one row
  buffer holds a row CM and another the zero row.  Trip k reads its band and both rows, overwrites the band with a
  function of the band and of CM, and overwrites the second row with a function of the band, CM and the row itself.
  Bands at different k are disjoint sets of rows, so a trip leaves every other band as it was: after j trips the
  bands k < j hold the new strips and the bands k ≥ j still hold E k, and the second row holds the j-fold
  accumulation started from the zero row.  After the four trips every band holds its new strip.
-/
import proofs.«139261_j76158360092784_2_alg».proof.Proof.Gen.KernelIdeal.Loops
import Idealize.ShloMosaic.Lib.Writes
import Idealize.ShloMosaic.Lib.WritesUnit
import Idealize.ShloMosaic.Lib.Pipeline.Value

noncomputable section

namespace Cert.KernelIdeal.Gen

open Idealize.ShloMosaic Idealize.ShloMosaic.TcCoe Idealize.SL.Sem

variable {F : FTy → Type} [FloatOps F]

/-! ## Reading a rectangle back from a list of writes -/

/-- A load through the rectangle of the newest piece reads that piece's payload. -/
theorem l2_readAt_cons_same {sig' : RefSig} {κ : Kind} {sp : Space} {s : Shape} {e : EltTy} {Val : EltTy → Type}
    (v : View sig' κ sp s e) (f : v.ty.Contents Val) (r : Rect s) (w : r.shape.Idx → Val e)
    (L : List (View.Piece Val s e)) :
    v.readAt Val r.toLoadRect (v.writes Val f ((⟨r, w⟩ : View.Piece Val s e) :: L)) = w :=
  funext fun x => View.read_writes_cons_emb v f r w L x

/-- A load through a rectangle disjoint from the newest piece's reads what the older pieces left. -/
theorem l2_readAt_cons_disjoint {sig' : RefSig} {κ : Kind} {sp : Space} {s : Shape} {e : EltTy} {Val : EltTy → Type}
    (v : View sig' κ sp s e) (f : v.ty.Contents Val) (r r' : Rect s) (w : r'.shape.Idx → Val e)
    (L : List (View.Piece Val s e)) (h : Disjoint r.set r'.set) :
    v.readAt Val r.toLoadRect (v.writes Val f ((⟨r', w⟩ : View.Piece Val s e) :: L))
      = v.readAt Val r.toLoadRect (v.writes Val f L) :=
  funext fun x => by
    rw [View.readAt_apply, View.readAt_apply, View.writes_cons]
    refine View.read_slice_write_of_not_mem r' _ w Finset.univ ?_
    rw [Rect.map_emb_univ]
    exact Finset.disjoint_left.mp h (r.toLoadRect.idx_mem x)

/-! ## The loop's trips -/

/-- The loop runs four trips. -/
theorem l2_trips : k0_t2_loop.trips = 4 := by decide

/-- The band of trip k starts at row 512·k. -/
theorem l2_off3_zero (k : Fin k0_t2_loop.trips) : k0_off3 k 0 = 512 * k.val := by
  rw [k0_off3_eq]; rfl

/-- Bands of different trips are disjoint. -/
theorem l2_bands_disjoint (k k' : Fin k0_t2_loop.trips) (h : k.val ≠ k'.val) :
    Disjoint (Rect.unit (s := S2048x2048) (k0_off3 k) S512x2048.size (k0_off3_inb k)).set (Rect.unit (s := S2048x2048) (k0_off3 k') S512x2048.size (k0_off3_inb k')).set := by
  refine Rect.unit_disjoint (0 : Fin 2) ?_
  rw [l2_off3_zero, l2_off3_zero]
  show 512 * k.val + 512 ≤ 512 * k'.val ∨ 512 * k'.val + 512 ≤ 512 * k.val
  omega

/-- The running row after j trips: from the zero row, trip k folds in the strip E k against the row CM. -/
def l2_csm (E : Fin 4 → FVec F S512x2048 .f32) (CM : Vec F S1x2048 .f32) : ℕ → Vec F S1x2048 .f32
  | 0 => k0_pay9
  | k + 1 => if h : k < 4 then k0_pay3 (E ⟨k, h⟩) CM (l2_csm E CM k) else l2_csm E CM k

section Loop

variable (𝒱 : Variants) (c : Dev nD) (bd : Option 𝒱.V) (i : grid0.Coords) (arg1 : Memref sig .tc .vmem S1x2048x256 .bf16) (harg1 : arg1.IsWhole) (arg2 : Memref sig .tc .vmem S64x256 .bf16) (harg2 : arg2.IsWhole) (arg3 : Memref sig .tc .vmem S64x256 .bf16) (harg3 : arg3.IsWhole) (arg4 : Memref sig .tc .vmem S256x256 .bf16) (harg4 : arg4.IsWhole) (arg5 : Memref sig .tc .vmem S1x2048x256 .f32) (harg5 : arg5.IsWhole) (arg6 : Memref sig .tc .vmem S2048x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x64 .bf16) (harg9 : arg9.IsWhole)
  (X7 : BufTy.Contents (Elt F) arg7.view.ty) (G6 : BufTy.Contents (Elt F) arg6.view.ty)
  (G8 : BufTy.Contents (Elt F) arg8.view.ty)

/-- ONE TRIP's pieces, read off the trip's definition (opened here and nowhere else): the band of trip k, rewritten
    from the band itself and the first row; the second row, rewritten from the band, the first row and itself. -/
theorem l2_trip (k : Fin k0_t2_loop.trips) (g6 : BufTy.Contents (Elt F) arg6.view.ty)
    (g8 : BufTy.Contents (Elt F) arg8.view.ty) :
    tripL_k0_t2 (F := F) 𝒱 c bd i arg1 harg1 arg2 harg2 arg3 harg3 arg4 harg4 arg5 harg5 arg6 harg6 arg7 harg7 arg8 harg8 arg9 harg9 X7 k g6 g8
      = ([(⟨(Rect.unit (s := S2048x2048) (k0_off3 k) S512x2048.size (k0_off3_inb k)),
            k0_pay2 (arg6.view.readAt (Elt F) (Rect.unit (s := S2048x2048) (k0_off3 k) S512x2048.size (k0_off3_inb k)).toLoadRect g6)
              (arg7.view.readAt (Elt F) (Rect.unit (s := S1x2048) ![0, 0] S1x2048.size inb_S1x2048_S1x2048_0_0).toLoadRect X7)⟩ : View.Piece (Elt F) S2048x2048 .f32)],
         [(⟨(Rect.unit (s := S1x2048) ![0, 0] S1x2048.size inb_S1x2048_S1x2048_0_0),
            k0_pay3 (arg6.view.readAt (Elt F) (Rect.unit (s := S2048x2048) (k0_off3 k) S512x2048.size (k0_off3_inb k)).toLoadRect g6)
              (arg7.view.readAt (Elt F) (Rect.unit (s := S1x2048) ![0, 0] S1x2048.size inb_S1x2048_S1x2048_0_0).toLoadRect X7)
              (arg8.view.readAt (Elt F) (Rect.unit (s := S1x2048) ![0, 0] S1x2048.size inb_S1x2048_S1x2048_0_0).toLoadRect g8)⟩ : View.Piece (Elt F) S1x2048 .f32)]) := by
  unfold tripL_k0_t2 trip_k0_t2
  rfl

/-- Trip j's pieces consed onto those of the trips before it. -/
theorem l2_pb_succ (j : ℕ) (hlt : j < k0_t2_loop.trips) :
    (pb_k0_t2 (F := F) 𝒱 c bd i arg1 harg1 arg2 harg2 arg3 harg3 arg4 harg4 arg5 harg5 arg6 harg6 arg7 harg7 arg8 harg8 arg9 harg9 X7 G6 G8 (j + 1))
      = ((⟨(Rect.unit (s := S2048x2048) (k0_off3 ⟨j, hlt⟩) S512x2048.size (k0_off3_inb ⟨j, hlt⟩)),
            k0_pay2 (arg6.view.readAt (Elt F) (Rect.unit (s := S2048x2048) (k0_off3 ⟨j, hlt⟩) S512x2048.size (k0_off3_inb ⟨j, hlt⟩)).toLoadRect
                (arg6.view.writes (Elt F) G6 (pb_k0_t2 (F := F) 𝒱 c bd i arg1 harg1 arg2 harg2 arg3 harg3 arg4 harg4 arg5 harg5 arg6 harg6 arg7 harg7 arg8 harg8 arg9 harg9 X7 G6 G8 j).1))
              (arg7.view.readAt (Elt F) (Rect.unit (s := S1x2048) ![0, 0] S1x2048.size inb_S1x2048_S1x2048_0_0).toLoadRect X7)⟩ : View.Piece (Elt F) S2048x2048 .f32)
            :: (pb_k0_t2 (F := F) 𝒱 c bd i arg1 harg1 arg2 harg2 arg3 harg3 arg4 harg4 arg5 harg5 arg6 harg6 arg7 harg7 arg8 harg8 arg9 harg9 X7 G6 G8 j).1,
         (⟨(Rect.unit (s := S1x2048) ![0, 0] S1x2048.size inb_S1x2048_S1x2048_0_0),
            k0_pay3 (arg6.view.readAt (Elt F) (Rect.unit (s := S2048x2048) (k0_off3 ⟨j, hlt⟩) S512x2048.size (k0_off3_inb ⟨j, hlt⟩)).toLoadRect
                (arg6.view.writes (Elt F) G6 (pb_k0_t2 (F := F) 𝒱 c bd i arg1 harg1 arg2 harg2 arg3 harg3 arg4 harg4 arg5 harg5 arg6 harg6 arg7 harg7 arg8 harg8 arg9 harg9 X7 G6 G8 j).1))
              (arg7.view.readAt (Elt F) (Rect.unit (s := S1x2048) ![0, 0] S1x2048.size inb_S1x2048_S1x2048_0_0).toLoadRect X7)
              (arg8.view.readAt (Elt F) (Rect.unit (s := S1x2048) ![0, 0] S1x2048.size inb_S1x2048_S1x2048_0_0).toLoadRect
                (arg8.view.writes (Elt F) G8 (pb_k0_t2 (F := F) 𝒱 c bd i arg1 harg1 arg2 harg2 arg3 harg3 arg4 harg4 arg5 harg5 arg6 harg6 arg7 harg7 arg8 harg8 arg9 harg9 X7 G6 G8 j).2))⟩ : View.Piece (Elt F) S1x2048 .f32)
            :: (pb_k0_t2 (F := F) 𝒱 c bd i arg1 harg1 arg2 harg2 arg3 harg3 arg4 harg4 arg5 harg5 arg6 harg6 arg7 harg7 arg8 harg8 arg9 harg9 X7 G6 G8 j).2) :=
  (pb_k0_t2_succ (F := F) 𝒱 c bd i arg1 harg1 arg2 harg2 arg3 harg3 arg4 harg4 arg5 harg5 arg6 harg6 arg7 harg7 arg8 harg8 arg9 harg9 X7 G6 G8 ⟨j, hlt⟩).trans (by rw [l2_trip]; rfl)

variable (CM : Vec F S1x2048 .f32) (E : Fin 4 → FVec F S512x2048 .f32)

/-- THE INVARIANT after j trips: the bands of the trips done hold the new strips, the others still hold E, and the
    second row holds the j-fold accumulation. -/
theorem l2_inv
    (hX7 : arg7.view.readAt (Elt F) (Rect.unit (s := S1x2048) ![0, 0] S1x2048.size inb_S1x2048_S1x2048_0_0).toLoadRect X7 = CM)
    (hG8 : arg8.view.readAt (Elt F) (Rect.unit (s := S1x2048) ![0, 0] S1x2048.size inb_S1x2048_S1x2048_0_0).toLoadRect G8 = k0_pay9)
    (hG6 : ∀ k : Fin k0_t2_loop.trips, arg6.view.readAt (Elt F) (Rect.unit (s := S2048x2048) (k0_off3 k) S512x2048.size (k0_off3_inb k)).toLoadRect G6
        = E ⟨k.val, Nat.lt_of_lt_of_le k.isLt k0_t2_abs.2.1⟩)
    (j : ℕ) (hj : j ≤ 4) :
    (∀ k : Fin k0_t2_loop.trips,
        arg6.view.readAt (Elt F) (Rect.unit (s := S2048x2048) (k0_off3 k) S512x2048.size (k0_off3_inb k)).toLoadRect (arg6.view.writes (Elt F) G6 (pb_k0_t2 (F := F) 𝒱 c bd i arg1 harg1 arg2 harg2 arg3 harg3 arg4 harg4 arg5 harg5 arg6 harg6 arg7 harg7 arg8 harg8 arg9 harg9 X7 G6 G8 j).1)
          = if k.val < j then k0_pay2 (E ⟨k.val, Nat.lt_of_lt_of_le k.isLt k0_t2_abs.2.1⟩) CM
            else E ⟨k.val, Nat.lt_of_lt_of_le k.isLt k0_t2_abs.2.1⟩)
      ∧ arg8.view.readAt (Elt F) (Rect.unit (s := S1x2048) ![0, 0] S1x2048.size inb_S1x2048_S1x2048_0_0).toLoadRect (arg8.view.writes (Elt F) G8 (pb_k0_t2 (F := F) 𝒱 c bd i arg1 harg1 arg2 harg2 arg3 harg3 arg4 harg4 arg5 harg5 arg6 harg6 arg7 harg7 arg8 harg8 arg9 harg9 X7 G6 G8 j).2) = l2_csm E CM j := by
  induction j with
  | zero =>
    refine ⟨fun k => ?_, hG8⟩
    rw [if_neg (Nat.not_lt_zero _)]
    exact hG6 k
  | succ j ih =>
    have hj4 : j < 4 := hj
    have hlt : j < k0_t2_loop.trips := by rw [l2_trips]; exact hj4
    obtain ⟨ihA, ihB⟩ := ih (Nat.le_of_succ_le hj)
    have hE : arg6.view.readAt (Elt F) (Rect.unit (s := S2048x2048) (k0_off3 ⟨j, hlt⟩) S512x2048.size (k0_off3_inb ⟨j, hlt⟩)).toLoadRect (arg6.view.writes (Elt F) G6 (pb_k0_t2 (F := F) 𝒱 c bd i arg1 harg1 arg2 harg2 arg3 harg3 arg4 harg4 arg5 harg5 arg6 harg6 arg7 harg7 arg8 harg8 arg9 harg9 X7 G6 G8 j).1)
        = E ⟨j, hj4⟩ := (ihA ⟨j, hlt⟩).trans (if_neg (Nat.lt_irrefl j))
    rw [l2_pb_succ (F := F) 𝒱 c bd i arg1 harg1 arg2 harg2 arg3 harg3 arg4 harg4 arg5 harg5 arg6 harg6 arg7 harg7 arg8 harg8 arg9 harg9 X7 G6 G8 j hlt, hE, hX7, ihB]
    refine ⟨fun k => ?_, ?_⟩
    · by_cases hk : k.val = j
      · obtain rfl : k = ⟨j, hlt⟩ := Fin.ext hk
        rw [if_pos (Nat.lt_succ_self j)]
        exact l2_readAt_cons_same arg6.view G6 _ _ _
      · rw [l2_readAt_cons_disjoint arg6.view G6 _ _ _ _ (l2_bands_disjoint k ⟨j, hlt⟩ hk), ihA k]
        by_cases hkj : k.val < j
        · rw [if_pos hkj, if_pos (Nat.lt_succ_of_lt hkj)]
        · rw [if_neg hkj, if_neg (by omega)]
    · rw [l2_csm, dif_pos hj4]
      exact l2_readAt_cons_same arg8.view G8 _ _ _

/-- The second row after j trips. -/
theorem l2_sum
    (hX7 : arg7.view.readAt (Elt F) (Rect.unit (s := S1x2048) ![0, 0] S1x2048.size inb_S1x2048_S1x2048_0_0).toLoadRect X7 = CM)
    (hG8 : arg8.view.readAt (Elt F) (Rect.unit (s := S1x2048) ![0, 0] S1x2048.size inb_S1x2048_S1x2048_0_0).toLoadRect G8 = k0_pay9)
    (hG6 : ∀ k : Fin k0_t2_loop.trips, arg6.view.readAt (Elt F) (Rect.unit (s := S2048x2048) (k0_off3 k) S512x2048.size (k0_off3_inb k)).toLoadRect G6
        = E ⟨k.val, Nat.lt_of_lt_of_le k.isLt k0_t2_abs.2.1⟩)
    (j : ℕ) (hj : j ≤ 4) :
    arg8.view.readAt (Elt F) (Rect.unit (s := S1x2048) ![0, 0] S1x2048.size inb_S1x2048_S1x2048_0_0).toLoadRect (arg8.view.writes (Elt F) G8 (pb_k0_t2 (F := F) 𝒱 c bd i arg1 harg1 arg2 harg2 arg3 harg3 arg4 harg4 arg5 harg5 arg6 harg6 arg7 harg7 arg8 harg8 arg9 harg9 X7 G6 G8 j).2) = l2_csm E CM j :=
  (l2_inv (F := F) 𝒱 c bd i arg1 harg1 arg2 harg2 arg3 harg3 arg4 harg4 arg5 harg5 arg6 harg6 arg7 harg7 arg8 harg8 arg9 harg9 X7 G6 G8 CM E hX7 hG8 hG6 j hj).2

/-- After the loop, the band the third loop's trip k reads holds the new strip k. -/
theorem l2_band
    (hX7 : arg7.view.readAt (Elt F) (Rect.unit (s := S1x2048) ![0, 0] S1x2048.size inb_S1x2048_S1x2048_0_0).toLoadRect X7 = CM)
    (hG8 : arg8.view.readAt (Elt F) (Rect.unit (s := S1x2048) ![0, 0] S1x2048.size inb_S1x2048_S1x2048_0_0).toLoadRect G8 = k0_pay9)
    (hG6 : ∀ k : Fin k0_t2_loop.trips, arg6.view.readAt (Elt F) (Rect.unit (s := S2048x2048) (k0_off3 k) S512x2048.size (k0_off3_inb k)).toLoadRect G6
        = E ⟨k.val, Nat.lt_of_lt_of_le k.isLt k0_t2_abs.2.1⟩)
    (k : Fin k0_t3_loop.trips) :
    arg6.view.readAt (Elt F) (Rect.unit (s := S2048x2048) (k0_off4 k) S512x2048.size (k0_off4_inb k)).toLoadRect
        (arg6.view.writes (Elt F) G6 (pb_k0_t2 (F := F) 𝒱 c bd i arg1 harg1 arg2 harg2 arg3 harg3 arg4 harg4 arg5 harg5 arg6 harg6 arg7 harg7 arg8 harg8 arg9 harg9 X7 G6 G8 k0_t2_loop.trips).1)
      = k0_pay2 (E ⟨k.val, Nat.lt_of_lt_of_le k.isLt k0_t3_abs.2.1⟩) CM := by
  have hk4 : k.val < 4 := Nat.lt_of_lt_of_le k.isLt k0_t3_abs.2.1
  have hlt : k.val < k0_t2_loop.trips := Nat.lt_of_lt_of_eq hk4 l2_trips.symm
  have hoff : k0_off4 k = k0_off3 ⟨k.val, hlt⟩ := by rw [k0_off4_eq, k0_off3_eq]
  have h4 : (pb_k0_t2 (F := F) 𝒱 c bd i arg1 harg1 arg2 harg2 arg3 harg3 arg4 harg4 arg5 harg5 arg6 harg6 arg7 harg7 arg8 harg8 arg9 harg9 X7 G6 G8 k0_t2_loop.trips) = (pb_k0_t2 (F := F) 𝒱 c bd i arg1 harg1 arg2 harg2 arg3 harg3 arg4 harg4 arg5 harg5 arg6 harg6 arg7 harg7 arg8 harg8 arg9 harg9 X7 G6 G8 4) :=
    congrArg (pb_k0_t2 (F := F) 𝒱 c bd i arg1 harg1 arg2 harg2 arg3 harg3 arg4 harg4 arg5 harg5 arg6 harg6 arg7 harg7 arg8 harg8 arg9 harg9 X7 G6 G8) l2_trips
  rw [h4]
  refine (View.readAt_unit_congr arg6.view hoff (k0_off4_inb k) (k0_off3_inb ⟨k.val, hlt⟩) _).trans ?_
  exact ((l2_inv (F := F) 𝒱 c bd i arg1 harg1 arg2 harg2 arg3 harg3 arg4 harg4 arg5 harg5 arg6 harg6 arg7 harg7 arg8 harg8 arg9 harg9 X7 G6 G8 CM E hX7 hG8 hG6 4 (Nat.le_refl 4)).1 ⟨k.val, hlt⟩).trans
    (if_pos hk4)

end Loop

end Cert.KernelIdeal.Gen

end
-- ==== Proof.IdealLoops12.lean ====
/-
  The first two counted loops of the kernel body, joined to the pure per-tile functions.

  Loop 1 (four trips): trip k loads rows 512k … 512k+511 of the projected queries, multiplies them with the
  projected keys, stores the 512×2048 block of energies into rows 512k … of the energy scratch and folds the block's
  column maximum into the running maximum.  The row bands of different trips are disjoint, so after the loop band k of
  the scratch holds the energies of tile k, whatever it held before; the running maximum, restored whole by every
  trip, holds the fold of the first j tiles after j trips.
  Loop 2 turns band k into the exponentials against the final maximum and accumulates the column sums; with both
  loops read, trip k of loop 3 computes the pure output tile k.
-/
import proofs.«139261_j76158360092784_2_alg».proof.Proof.IdealBlock
import proofs.«139261_j76158360092784_2_alg».proof.Proof.IdealLoop3
import proofs.«139261_j76158360092784_2_alg».proof.Proof.IdealLoop2
import proofs.«139261_j76158360092784_2_alg».proof.Proof.Gen.KernelIdeal.Loops
import Idealize.ShloMosaic.Lib.Writes
import Idealize.ShloMosaic.Lib.WritesUnit
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

/-! ## Reading a list of stores through a unit-stride rectangle -/

section Helpers

variable {sig : RefSig} {κ : Kind} {sp : Space} {e : EltTy} {Val : EltTy → Type}

/-- A load through the rectangle of the newest store reads that store's payload. -/
theorem l12_readAt_cons_self {s : Shape} (v : View sig κ sp s e) (f : v.ty.Contents Val) (r : Rect s)
    (w : r.shape.Idx → Val e) (L : List (View.Piece Val s e)) :
    v.readAt Val r.toLoadRect (v.writes Val f (⟨r, w⟩ :: L)) = w :=
  funext fun y => View.read_writes_cons_emb v f r w L y

/-- The same, the load's offsets being equal to the store's. -/
theorem l12_readAt_cons_hit {s : Shape} (v : View sig κ sp s e) (f : v.ty.Contents Val) {off off' size : Fin s.rank → ℕ}
    (inb : ∀ a, off a + size a ≤ s.size a) (inb' : ∀ a, off' a + size a ≤ s.size a)
    (w : (Rect.unit off size inb).shape.Idx → Val e) (L : List (View.Piece Val s e)) (h : off' = off) :
    v.readAt Val (Rect.unit off' size inb').toLoadRect (v.writes Val f (⟨Rect.unit off size inb, w⟩ :: L)) = w := by
  subst h
  exact l12_readAt_cons_self v f _ w L

/-- A load of whole rows [o', o' + W') of a rank-2 view passes a newest store of whole rows [o, o + W) disjoint from
    them. -/
theorem l12_readAt_cons_miss {d : Fin 2 → ℕ} (v : View sig κ sp (⟨2, d⟩ : Shape) e) (f : v.ty.Contents Val)
    {off off' size size' : Fin 2 → ℕ} {o o' W W' : ℕ} (inb : ∀ a : Fin 2, off a + size a ≤ d a)
    (inb' : ∀ a : Fin 2, off' a + size' a ≤ d a)
    (w : (Rect.unit (s := ⟨2, d⟩) off size inb).shape.Idx → Val e) (L : List (View.Piece Val (⟨2, d⟩ : Shape) e))
    (hoff : off = ![o, 0]) (hoff' : off' = ![o', 0]) (hW : size (0 : Fin 2) = W) (hW' : size' (0 : Fin 2) = W')
    (hdis : o' + W' ≤ o ∨ o + W ≤ o') :
    v.readAt Val (Rect.unit (s := ⟨2, d⟩) off' size' inb').toLoadRect
        (v.writes Val f ((⟨Rect.unit (s := ⟨2, d⟩) off size inb, w⟩ : View.Piece Val (⟨2, d⟩ : Shape) e) :: L))
      = v.readAt Val (Rect.unit (s := ⟨2, d⟩) off' size' inb').toLoadRect (v.writes Val f L) := by
  funext y
  rw [View.readAt_apply, View.readAt_apply]
  refine View.read_writes_cons_rows_of_not_mem v f inb w L _ hoff hW ?_
  have h1 : ((Rect.unit (s := ⟨2, d⟩) off' size' inb').toLoadRect.idx y (0 : Fin 2)).val = o' + (y (0 : Fin 2)).val := by
    subst hoff'
    show (![o', 0] : Fin 2 → ℕ) 0 + 1 * (y (0 : Fin 2)).val = o' + (y (0 : Fin 2)).val
    rw [Nat.one_mul]; rfl
  have h2 : (y (0 : Fin 2)).val < W' := hW' ▸ (y (0 : Fin 2)).isLt
  omega

/-- Reading a rank-2 view whole after a newest store of the whole view: the payload. -/
theorem l12_read_cons_whole {d : Fin 2 → ℕ} (v : View sig κ sp (⟨2, d⟩ : Shape) e) (f : v.ty.Contents Val)
    (inb : ∀ a : Fin 2, (![0, 0] : Fin 2 → ℕ) a + d a ≤ d a)
    (w : (Rect.unit (s := ⟨2, d⟩) ![0, 0] d inb).shape.Idx → Val e) (L : List (View.Piece Val (⟨2, d⟩ : Shape) e)) :
    v.read Val (v.writes Val f ((⟨Rect.unit (s := ⟨2, d⟩) ![0, 0] d inb, w⟩ : View.Piece Val (⟨2, d⟩ : Shape) e) :: L)) = w := by
  funext y
  exact View.read_writes_cons_unit_of_mem v f inb w L y y rfl
    (Fin.forall_fin_two.mpr ⟨(Nat.zero_add _).symm, (Nat.zero_add _).symm⟩)

end Helpers

variable {F : FTy → Type} [FloatOps F]

/-! ## Loop 1 -/

section Loop1

variable (𝒱 : Variants) (c : Dev nD) (bd : Option 𝒱.V) (i : grid0.Coords) (arg1 : Memref sig .tc .vmem S1x2048x256 .bf16) (harg1 : arg1.IsWhole) (arg2 : Memref sig .tc .vmem S64x256 .bf16) (harg2 : arg2.IsWhole) (arg3 : Memref sig .tc .vmem S64x256 .bf16) (harg3 : arg3.IsWhole) (arg4 : Memref sig .tc .vmem S256x256 .bf16) (harg4 : arg4.IsWhole) (arg5 : Memref sig .tc .vmem S1x2048x256 .f32) (harg5 : arg5.IsWhole) (arg6 : Memref sig .tc .vmem S2048x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x64 .bf16) (harg9 : arg9.IsWhole)
  (X : Vec F S1x2048x256 .bf16) (WQ WK : Vec F S64x256 .bf16)

/-- Loop 1 makes four trips. -/
theorem l12_trips1 : k0_t1_loop.trips = 4 := by decide

/-- ONE TRIP of loop 1, its definition opened once: the block of energies stored at the trip's rows of the energy
    scratch, and the running maximum restored whole, both from the trip's rows of the projected queries. -/
theorem l12_tripL1 (v0 : Vec F S1x2048x256 .bf16) (v10 : Vec F S64x256 .bf16) (X9 : BufTy.Contents (Elt F) arg9.view.ty)
    (k : Fin k0_t1_loop.trips) (g6 : BufTy.Contents (Elt F) arg6.view.ty) (g7 : BufTy.Contents (Elt F) arg7.view.ty) :
    tripL_k0_t1 (F := F) 𝒱 c bd i arg1 harg1 arg2 harg2 arg3 harg3 arg4 harg4 arg5 harg5 arg6 harg6 arg7 harg7 arg8 harg8 arg9 harg9 v0 v10 X9 k g6 g7
      = ([⟨Rect.unit (s := S2048x2048) (k0_off2 k) S512x2048.size (k0_off2_inb k), k0_pay11 v0 v10 (View.readAt (Elt F) arg9.view (Rect.unit (s := S2048x64) (k0_off1 k) S512x64.size (k0_off1_inb k)).toLoadRect X9)⟩],
         [⟨(Rect.unit (s := S1x2048) ![0, 0] S1x2048.size inb_S1x2048_S1x2048_0_0), k0_pay12 v0 v10 (View.readAt (Elt F) arg9.view (Rect.unit (s := S2048x64) (k0_off1 k) S512x64.size (k0_off1_inb k)).toLoadRect X9)
            (View.readAt (Elt F) arg7.view (Rect.unit (s := S1x2048) ![0, 0] S1x2048.size inb_S1x2048_S1x2048_0_0).toLoadRect g7)⟩]) := by
  unfold tripL_k0_t1 trip_k0_t1
  rfl

/-- The pieces after one more trip: the trip's two stores in front of the earlier trips'. -/
theorem l12_pb1_succ (X9 : BufTy.Contents (Elt F) arg9.view.ty) (G6 : BufTy.Contents (Elt F) arg6.view.ty)
    (G7 : BufTy.Contents (Elt F) arg7.view.ty) (k : Fin k0_t1_loop.trips) :
    (pb_k0_t1 (F := F) 𝒱 c bd i arg1 harg1 arg2 harg2 arg3 harg3 arg4 harg4 arg5 harg5 arg6 harg6 arg7 harg7 arg8 harg8 arg9 harg9 X WK X9 G6 G7 (k.val + 1))
      = (⟨Rect.unit (s := S2048x2048) (k0_off2 k) S512x2048.size (k0_off2_inb k), k0_pay11 X WK (View.readAt (Elt F) arg9.view (Rect.unit (s := S2048x64) (k0_off1 k) S512x64.size (k0_off1_inb k)).toLoadRect X9)⟩
            :: (pb_k0_t1 (F := F) 𝒱 c bd i arg1 harg1 arg2 harg2 arg3 harg3 arg4 harg4 arg5 harg5 arg6 harg6 arg7 harg7 arg8 harg8 arg9 harg9 X WK X9 G6 G7 k.val).1,
         ⟨(Rect.unit (s := S1x2048) ![0, 0] S1x2048.size inb_S1x2048_S1x2048_0_0), k0_pay12 X WK (View.readAt (Elt F) arg9.view (Rect.unit (s := S2048x64) (k0_off1 k) S512x64.size (k0_off1_inb k)).toLoadRect X9)
            (View.readAt (Elt F) arg7.view (Rect.unit (s := S1x2048) ![0, 0] S1x2048.size inb_S1x2048_S1x2048_0_0).toLoadRect (arg7.view.writes (Elt F) G7 (pb_k0_t1 (F := F) 𝒱 c bd i arg1 harg1 arg2 harg2 arg3 harg3 arg4 harg4 arg5 harg5 arg6 harg6 arg7 harg7 arg8 harg8 arg9 harg9 X WK X9 G6 G7 k.val).2))⟩
            :: (pb_k0_t1 (F := F) 𝒱 c bd i arg1 harg1 arg2 harg2 arg3 harg3 arg4 harg4 arg5 harg5 arg6 harg6 arg7 harg7 arg8 harg8 arg9 harg9 X WK X9 G6 G7 k.val).2) := by
  rw [pb_k0_t1_succ, l12_tripL1]
  rfl

/-- A trip's load of the projected queries is its band of rows. -/
theorem l12_load_q (X9 : BufTy.Contents (Elt F) arg9.view.ty) (hX9 : arg9.view.read (Elt F) X9 = Blk.Qm X WQ)
    (k : Fin k0_t1_loop.trips) :
    (View.readAt (Elt F) arg9.view (Rect.unit (s := S2048x64) (k0_off1 k) S512x64.size (k0_off1_inb k)).toLoadRect X9) = Blk.qRows (Blk.Qm X WQ) ⟨k.val, Nat.lt_of_lt_of_le k.isLt k0_t1_abs.2.1⟩ := by
  funext y
  rw [View.readAt_apply, hX9]
  refine congrArg (Blk.Qm X WQ) (funext fun a => Fin.ext ?_)
  match a with
  | ⟨0, _⟩ =>
    show k0_off1 k 0 + 1 * (y 0).val = 512 * k.val + (y 0).val
    have h0 : k0_off1 k 0 = 512 * k.val := by rw [k0_off1_eq]; rfl
    omega
  | ⟨1, _⟩ =>
    show k0_off1 k 1 + 1 * (y 1).val = (y 1).val
    have h1 : k0_off1 k 1 = 0 := by rw [k0_off1_eq]; rfl
    omega

/-- THE RUNNING MAXIMUM after j trips is the pure fold over the first j tiles. -/
theorem l1_max (X9 : BufTy.Contents (Elt F) arg9.view.ty) (G6 : BufTy.Contents (Elt F) arg6.view.ty)
    (G7 : BufTy.Contents (Elt F) arg7.view.ty) (hX9 : arg9.view.read (Elt F) X9 = Blk.Qm X WQ)
    (hG7 : View.readAt (Elt F) arg7.view (Rect.unit (s := S1x2048) ![0, 0] S1x2048.size inb_S1x2048_S1x2048_0_0).toLoadRect G7 = k0_pay8) :
    ∀ (j : ℕ) (hj : j ≤ 4),
      View.readAt (Elt F) arg7.view (Rect.unit (s := S1x2048) ![0, 0] S1x2048.size inb_S1x2048_S1x2048_0_0).toLoadRect (arg7.view.writes (Elt F) G7 (pb_k0_t1 (F := F) 𝒱 c bd i arg1 harg1 arg2 harg2 arg3 harg3 arg4 harg4 arg5 harg5 arg6 harg6 arg7 harg7 arg8 harg8 arg9 harg9 X WK X9 G6 G7 j).2) = Blk.cmx X WQ WK j
  | 0, _ => hG7
  | j + 1, hj => by
    have hj4 : j < 4 := by omega
    have hj' : j < k0_t1_loop.trips := by rw [l12_trips1]; exact hj4
    have h : (pb_k0_t1 (F := F) 𝒱 c bd i arg1 harg1 arg2 harg2 arg3 harg3 arg4 harg4 arg5 harg5 arg6 harg6 arg7 harg7 arg8 harg8 arg9 harg9 X WK X9 G6 G7 (j + 1)) = _ := l12_pb1_succ (F := F) 𝒱 c bd i arg1 harg1 arg2 harg2 arg3 harg3 arg4 harg4 arg5 harg5 arg6 harg6 arg7 harg7 arg8 harg8 arg9 harg9 X WK X9 G6 G7 ⟨j, hj'⟩
    rw [h]
    dsimp only
    rw [l12_readAt_cons_self, l12_load_q (F := F) arg9 X WQ X9 hX9, l1_max X9 G6 G7 hX9 hG7 j (by omega)]
    conv_rhs => rw [Blk.cmx]
    rw [dif_pos hj4]

end Loop1

section Loop1Band

variable (𝒱 : Variants) (c : Dev nD) (bd : Option 𝒱.V) (i : grid0.Coords) (arg1 : Memref sig .tc .vmem S1x2048x256 .bf16) (harg1 : arg1.IsWhole) (arg2 : Memref sig .tc .vmem S64x256 .bf16) (harg2 : arg2.IsWhole) (arg3 : Memref sig .tc .vmem S64x256 .bf16) (harg3 : arg3.IsWhole) (arg4 : Memref sig .tc .vmem S256x256 .bf16) (harg4 : arg4.IsWhole) (arg5 : Memref sig .tc .vmem S1x2048x256 .f32) (harg5 : arg5.IsWhole) (arg6 : Memref sig .tc .vmem S2048x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x64 .bf16) (harg9 : arg9.IsWhole)
  (X : Vec F S1x2048x256 .bf16) (WQ WK : Vec F S64x256 .bf16)

/-- Loop 2 makes four trips. -/
theorem l12_trips2 : k0_t2_loop.trips = 4 := by decide

/-- After j trips of loop 1, band k < j of the energy scratch holds the energies of tile k: trip k stored them, the
    later trips store other bands. -/
theorem l1_band_aux (X9 : BufTy.Contents (Elt F) arg9.view.ty) (G6 : BufTy.Contents (Elt F) arg6.view.ty)
    (G7 : BufTy.Contents (Elt F) arg7.view.ty) (hX9 : arg9.view.read (Elt F) X9 = Blk.Qm X WQ) :
    ∀ (j : ℕ) (hj : j ≤ 4) (k : Fin k0_t2_loop.trips) (hk : k.val < j),
      View.readAt (Elt F) arg6.view (Rect.unit (s := S2048x2048) (k0_off3 k) S512x2048.size (k0_off3_inb k)).toLoadRect
          (arg6.view.writes (Elt F) G6 (pb_k0_t1 (F := F) 𝒱 c bd i arg1 harg1 arg2 harg2 arg3 harg3 arg4 harg4 arg5 harg5 arg6 harg6 arg7 harg7 arg8 harg8 arg9 harg9 X WK X9 G6 G7 j).1)
        = Blk.Eb X WQ WK ⟨k.val, Nat.lt_of_lt_of_le k.isLt k0_t2_abs.2.1⟩
  | 0, _, k, hk => absurd hk (Nat.not_lt_zero _)
  | j + 1, hj, k, hk => by
    have hj4 : j < 4 := by omega
    have hj' : j < k0_t1_loop.trips := by rw [l12_trips1]; exact hj4
    have h : (pb_k0_t1 (F := F) 𝒱 c bd i arg1 harg1 arg2 harg2 arg3 harg3 arg4 harg4 arg5 harg5 arg6 harg6 arg7 harg7 arg8 harg8 arg9 harg9 X WK X9 G6 G7 (j + 1)) = _ := l12_pb1_succ (F := F) 𝒱 c bd i arg1 harg1 arg2 harg2 arg3 harg3 arg4 harg4 arg5 harg5 arg6 harg6 arg7 harg7 arg8 harg8 arg9 harg9 X WK X9 G6 G7 ⟨j, hj'⟩
    rw [h]
    dsimp only
    by_cases hkj : k.val = j
    · rw [l12_readAt_cons_hit arg6.view G6 (k0_off2_inb ⟨j, hj'⟩) (k0_off3_inb k) _ _
        (by rw [k0_off3_eq, k0_off2_eq, hkj]),
        l12_load_q (F := F) arg9 X WQ X9 hX9]
      have hf : (⟨k.val, Nat.lt_of_lt_of_le k.isLt k0_t2_abs.2.1⟩ : Fin 4) = ⟨j, hj4⟩ := Fin.ext hkj
      rw [hf]
      rfl
    · have hlt : k.val < j := by omega
      rw [l12_readAt_cons_miss arg6.view G6 (k0_off2_inb ⟨j, hj'⟩) (k0_off3_inb k) _ _ (k0_off2_eq _) (k0_off3_eq _)
        (W := 512) (W' := 512) rfl rfl (Or.inl (by show 512 * k.val + 512 ≤ 512 * j; omega))]
      exact l1_band_aux X9 G6 G7 hX9 j (by omega) k hlt

/-- THE ENERGY SCRATCH after loop 1: band k holds the energies of tile k, whatever the scratch held before. -/
theorem l1_band (X9 : BufTy.Contents (Elt F) arg9.view.ty) (G6 : BufTy.Contents (Elt F) arg6.view.ty)
    (G7 : BufTy.Contents (Elt F) arg7.view.ty) (hX9 : arg9.view.read (Elt F) X9 = Blk.Qm X WQ)
    (k : Fin k0_t2_loop.trips) :
    View.readAt (Elt F) arg6.view (Rect.unit (s := S2048x2048) (k0_off3 k) S512x2048.size (k0_off3_inb k)).toLoadRect
        (arg6.view.writes (Elt F) G6 (pb_k0_t1 (F := F) 𝒱 c bd i arg1 harg1 arg2 harg2 arg3 harg3 arg4 harg4 arg5 harg5 arg6 harg6 arg7 harg7 arg8 harg8 arg9 harg9 X WK X9 G6 G7 k0_t1_loop.trips).1)
      = Blk.Eb X WQ WK ⟨k.val, Nat.lt_of_lt_of_le k.isLt k0_t2_abs.2.1⟩ :=
  l1_band_aux (F := F) 𝒱 c bd i arg1 harg1 arg2 harg2 arg3 harg3 arg4 harg4 arg5 harg5 arg6 harg6 arg7 harg7 arg8 harg8 arg9 harg9 X WQ WK X9 G6 G7 hX9 k0_t1_loop.trips (le_of_eq l12_trips1)
    k (lt_of_lt_of_eq (Nat.lt_of_lt_of_le k.isLt k0_t2_abs.2.1) l12_trips1.symm)

end Loop1Band

/-! ## The two loops together: what trip k of loop 3 computes -/

section Assemble

variable (𝒱 : Variants) (c : Dev nD) (bd : Option 𝒱.V) (i : grid0.Coords) (arg1 : Memref sig .tc .vmem S1x2048x256 .bf16) (harg1 : arg1.IsWhole) (arg2 : Memref sig .tc .vmem S64x256 .bf16) (harg2 : arg2.IsWhole) (arg3 : Memref sig .tc .vmem S64x256 .bf16) (harg3 : arg3.IsWhole) (arg4 : Memref sig .tc .vmem S256x256 .bf16) (harg4 : arg4.IsWhole) (arg5 : Memref sig .tc .vmem S1x2048x256 .f32) (harg5 : arg5.IsWhole) (arg6 : Memref sig .tc .vmem S2048x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x64 .bf16) (harg9 : arg9.IsWhole)
  (X : Vec F S1x2048x256 .bf16) (WQ WK : Vec F S64x256 .bf16) (WV : Vec F S256x256 .bf16)
  (j7 : BufTy.Contents (Elt F) arg7.view.ty) (j8 : BufTy.Contents (Elt F) arg8.view.ty)
  (j9 : BufTy.Contents (Elt F) arg9.view.ty) (f6 : BufTy.Contents (Elt F) arg6.view.ty)

/-- The projected-query scratch as loop 1 finds it: the projection stored whole. -/
abbrev l12_X9 : BufTy.Contents (Elt F) arg9.view.ty :=
  arg9.view.writes (Elt F) j9 [⟨(Rect.unit (s := S2048x64) ![0, 0] S2048x64.size inb_S2048x64_S2048x64_0_0), k0_pay6 X WQ⟩]

/-- The running maximum as loop 1 finds it: -inf stored whole. -/
abbrev l12_G7 : BufTy.Contents (Elt F) arg7.view.ty :=
  arg7.view.writes (Elt F) j7 [⟨(Rect.unit (s := S1x2048) ![0, 0] S1x2048.size inb_S1x2048_S1x2048_0_0), k0_pay8⟩]

/-- Loop 1's pieces, all trips. -/
abbrev l12_PB1 : List (View.Piece (Elt F) S2048x2048 .f32) × List (View.Piece (Elt F) S1x2048 .f32) :=
  pb_k0_t1 (F := F) 𝒱 c bd i arg1 harg1 arg2 harg2 arg3 harg3 arg4 harg4 arg5 harg5 arg6 harg6 arg7 harg7 arg8 harg8 arg9 harg9 X WK (l12_X9 arg9 X WQ j9) f6 (l12_G7 arg7 j7) k0_t1_loop.trips

/-- The running maximum as loop 2 finds it. -/
abbrev l12_X7 : BufTy.Contents (Elt F) arg7.view.ty :=
  arg7.view.writes (Elt F) j7 ((l12_PB1 𝒱 c bd i arg1 harg1 arg2 harg2 arg3 harg3 arg4 harg4 arg5 harg5 arg6 harg6 arg7 harg7 arg8 harg8 arg9 harg9 X WQ WK j7 j9 f6).2 ++ [⟨(Rect.unit (s := S1x2048) ![0, 0] S1x2048.size inb_S1x2048_S1x2048_0_0), k0_pay8⟩])

/-- The energy scratch as loop 2 finds it. -/
abbrev l12_G6 : BufTy.Contents (Elt F) arg6.view.ty :=
  arg6.view.writes (Elt F) f6 (l12_PB1 𝒱 c bd i arg1 harg1 arg2 harg2 arg3 harg3 arg4 harg4 arg5 harg5 arg6 harg6 arg7 harg7 arg8 harg8 arg9 harg9 X WQ WK j7 j9 f6).1

/-- The running sum as loop 2 finds it: zero stored whole. -/
abbrev l12_G8 : BufTy.Contents (Elt F) arg8.view.ty :=
  arg8.view.writes (Elt F) j8 [⟨(Rect.unit (s := S1x2048) ![0, 0] S1x2048.size inb_S1x2048_S1x2048_0_0), k0_pay9⟩]

/-- Loop 2's pieces, all trips. -/
abbrev l12_PB2 : List (View.Piece (Elt F) S2048x2048 .f32) × List (View.Piece (Elt F) S1x2048 .f32) :=
  pb_k0_t2 (F := F) 𝒱 c bd i arg1 harg1 arg2 harg2 arg3 harg3 arg4 harg4 arg5 harg5 arg6 harg6 arg7 harg7 arg8 harg8 arg9 harg9 (l12_X7 𝒱 c bd i arg1 harg1 arg2 harg2 arg3 harg3 arg4 harg4 arg5 harg5 arg6 harg6 arg7 harg7 arg8 harg8 arg9 harg9 X WQ WK j7 j9 f6) (l12_G6 𝒱 c bd i arg1 harg1 arg2 harg2 arg3 harg3 arg4 harg4 arg5 harg5 arg6 harg6 arg7 harg7 arg8 harg8 arg9 harg9 X WQ WK j7 j9 f6)
    (l12_G8 arg8 j8) k0_t2_loop.trips

/-- The column sums loop 3 loads. -/
abbrev l12_S : Vec F S1x2048 .f32 :=
  View.readAt (Elt F) arg8.view (Rect.unit (s := S1x2048) ![0, 0] S1x2048.size inb_S1x2048_S1x2048_0_0).toLoadRect
    (arg8.view.writes (Elt F) j8 ((l12_PB2 𝒱 c bd i arg1 harg1 arg2 harg2 arg3 harg3 arg4 harg4 arg5 harg5 arg6 harg6 arg7 harg7 arg8 harg8 arg9 harg9 X WQ WK j7 j8 j9 f6).2 ++ [⟨(Rect.unit (s := S1x2048) ![0, 0] S1x2048.size inb_S1x2048_S1x2048_0_0), k0_pay9⟩]))

/-- The energy scratch as loop 3 finds it. -/
abbrev l12_X6 : BufTy.Contents (Elt F) arg6.view.ty :=
  arg6.view.writes (Elt F) f6 ((l12_PB2 𝒱 c bd i arg1 harg1 arg2 harg2 arg3 harg3 arg4 harg4 arg5 harg5 arg6 harg6 arg7 harg7 arg8 harg8 arg9 harg9 X WQ WK j7 j8 j9 f6).1 ++ (l12_PB1 𝒱 c bd i arg1 harg1 arg2 harg2 arg3 harg3 arg4 harg4 arg5 harg5 arg6 harg6 arg7 harg7 arg8 harg8 arg9 harg9 X WQ WK j7 j9 f6).1)

/-- The abstract running sum at the pure energies and final maximum is the pure running sum. -/
theorem l12_csm_eq : ∀ j : ℕ, l2_csm (Blk.Eb X WQ WK) (Blk.cmx X WQ WK 4) j = Blk.csm X WQ WK j
  | 0 => rfl
  | j + 1 => by
    rw [l2_csm, Blk.csm, l12_csm_eq j]

/-- TRIP k OF LOOP 3 computes the pure output tile k, whatever the scratch buffers held at the start. -/
theorem l12_out (k : Fin k0_t3_loop.trips) :
    blk3 arg6 (k0_pay7 X WV) (l12_S 𝒱 c bd i arg1 harg1 arg2 harg2 arg3 harg3 arg4 harg4 arg5 harg5 arg6 harg6 arg7 harg7 arg8 harg8 arg9 harg9 X WQ WK j7 j8 j9 f6) (l12_X6 𝒱 c bd i arg1 harg1 arg2 harg2 arg3 harg3 arg4 harg4 arg5 harg5 arg6 harg6 arg7 harg7 arg8 harg8 arg9 harg9 X WQ WK j7 j8 j9 f6) k
      = Blk.Ob X WQ WK WV ⟨k.val, Nat.lt_of_lt_of_le k.isLt k0_t3_abs.2.1⟩ := by
  have hX9 : arg9.view.read (Elt F) (l12_X9 arg9 X WQ j9) = Blk.Qm X WQ :=
    l12_read_cons_whole arg9.view j9 inb_S2048x64_S2048x64_0_0 (k0_pay6 X WQ) []
  have hG7 : View.readAt (Elt F) arg7.view (Rect.unit (s := S1x2048) ![0, 0] S1x2048.size inb_S1x2048_S1x2048_0_0).toLoadRect (l12_G7 arg7 j7) = k0_pay8 :=
    l12_readAt_cons_self arg7.view j7 (Rect.unit (s := S1x2048) ![0, 0] S1x2048.size inb_S1x2048_S1x2048_0_0) k0_pay8 []
  have hG8 : View.readAt (Elt F) arg8.view (Rect.unit (s := S1x2048) ![0, 0] S1x2048.size inb_S1x2048_S1x2048_0_0).toLoadRect (l12_G8 arg8 j8) = k0_pay9 :=
    l12_readAt_cons_self arg8.view j8 (Rect.unit (s := S1x2048) ![0, 0] S1x2048.size inb_S1x2048_S1x2048_0_0) k0_pay9 []
  have hX7 : View.readAt (Elt F) arg7.view (Rect.unit (s := S1x2048) ![0, 0] S1x2048.size inb_S1x2048_S1x2048_0_0).toLoadRect (l12_X7 𝒱 c bd i arg1 harg1 arg2 harg2 arg3 harg3 arg4 harg4 arg5 harg5 arg6 harg6 arg7 harg7 arg8 harg8 arg9 harg9 X WQ WK j7 j9 f6) = Blk.cmx X WQ WK 4 := by
    unfold l12_X7
    rw [View.writes_append]
    exact (l1_max (F := F) 𝒱 c bd i arg1 harg1 arg2 harg2 arg3 harg3 arg4 harg4 arg5 harg5 arg6 harg6 arg7 harg7 arg8 harg8 arg9 harg9 X WQ WK _ f6 _ hX9 hG7 k0_t1_loop.trips (le_of_eq l12_trips1)).trans
      (congrArg (Blk.cmx X WQ WK) l12_trips1)
  have hG6 : ∀ k : Fin k0_t2_loop.trips, View.readAt (Elt F) arg6.view (Rect.unit (s := S2048x2048) (k0_off3 k) S512x2048.size (k0_off3_inb k)).toLoadRect (l12_G6 𝒱 c bd i arg1 harg1 arg2 harg2 arg3 harg3 arg4 harg4 arg5 harg5 arg6 harg6 arg7 harg7 arg8 harg8 arg9 harg9 X WQ WK j7 j9 f6) = Blk.Eb X WQ WK ⟨k.val, Nat.lt_of_lt_of_le k.isLt k0_t2_abs.2.1⟩ :=
    fun k => l1_band (F := F) 𝒱 c bd i arg1 harg1 arg2 harg2 arg3 harg3 arg4 harg4 arg5 harg5 arg6 harg6 arg7 harg7 arg8 harg8 arg9 harg9 X WQ WK _ f6 _ hX9 k
  have hS : l12_S 𝒱 c bd i arg1 harg1 arg2 harg2 arg3 harg3 arg4 harg4 arg5 harg5 arg6 harg6 arg7 harg7 arg8 harg8 arg9 harg9 X WQ WK j7 j8 j9 f6 = Blk.csm X WQ WK 4 := by
    unfold l12_S
    rw [View.writes_append]
    refine (l2_sum (F := F) 𝒱 c bd i arg1 harg1 arg2 harg2 arg3 harg3 arg4 harg4 arg5 harg5 arg6 harg6 arg7 harg7 arg8 harg8 arg9 harg9 _ _ _ _ _ hX7 hG8 hG6 k0_t2_loop.trips (le_of_eq l12_trips2)).trans ?_
    exact (congrArg (l2_csm (Blk.Eb X WQ WK) (Blk.cmx X WQ WK 4)) l12_trips2).trans (l12_csm_eq X WQ WK 4)
  have hP : View.readAt (Elt F) arg6.view (Rect.unit (s := S2048x2048) (k0_off4 k) S512x2048.size (k0_off4_inb k)).toLoadRect
      (l12_X6 𝒱 c bd i arg1 harg1 arg2 harg2 arg3 harg3 arg4 harg4 arg5 harg5 arg6 harg6 arg7 harg7 arg8 harg8 arg9 harg9 X WQ WK j7 j8 j9 f6) = Blk.Pb X WQ WK ⟨k.val, Nat.lt_of_lt_of_le k.isLt k0_t3_abs.2.1⟩ := by
    unfold l12_X6
    rw [View.writes_append]
    exact l2_band (F := F) 𝒱 c bd i arg1 harg1 arg2 harg2 arg3 harg3 arg4 harg4 arg5 harg5 arg6 harg6 arg7 harg7 arg8 harg8 arg9 harg9 _ _ _ _ _ hX7 hG8 hG6 k
  unfold blk3
  rw [hS, hP]
  rfl

end Assemble

end Cert.KernelIdeal.Gen

end
-- ==== Proof.IdealRead.lean ====
/-
  What is READ BACK through the output's staging buffer after the kernel body: the pure output block of the four input
  blocks, whatever the buffer and the energy scratch held before.  The body's run leaves the iterated view-writes of the
  third loop (`W3`) over the contents the first two loops left; row n of the read-back is row n mod 512 of trip n / 512's
  block (the four row bands are disjoint and cover the buffer), and that block is the pure output tile (the first two
  loops' pieces, read band by band).
-/
import proofs.«139261_j76158360092784_2_alg».proof.Proof.IdealRun
import proofs.«139261_j76158360092784_2_alg».proof.Proof.IdealBlock
import proofs.«139261_j76158360092784_2_alg».proof.Proof.IdealLoop3Read
import proofs.«139261_j76158360092784_2_alg».proof.Proof.IdealLoops12
import Idealize.ShloMosaic.Lib.Pipeline.Value

set_option maxRecDepth 16384

noncomputable section

namespace Cert.KernelIdeal.Gen

open Idealize.ShloMosaic Idealize.ShloMosaic.TcCoe Idealize.ShloMosaic.Tactic Idealize.SL.Sem

variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl

/-- A whole-buffer load of a whole memref holding `x` is `x`. -/
theorem load_x (arg1 : Memref sig .tc .vmem S1x2048x256 .bf16) (harg1 : arg1.IsWhole) (x : Vec F S1x2048x256 .bf16) :
    View.readAt (Elt F) arg1.view (Rect.unit (s := S1x2048x256) ![0, 0, 0] ![1, 2048, 256] inb_S1x2048x256_S1x2048x256_0_0_0).toLoadRect (harg1.unread x) = x := by
  show View.readAt (Elt F) arg1.view (Rect.unit (s := S1x2048x256) ![0, 0, 0] S1x2048x256.size inb_S1x2048x256_S1x2048x256_0_0_0).toLoadRect (harg1.unread x) = x
  simp only [View.readAt_eq_ld, harg1.read_unread, View.ld_unit_zero (S := S1x2048x256) zeros3]
theorem load_w (arg2 : Memref sig .tc .vmem S64x256 .bf16) (harg2 : arg2.IsWhole) (x : Vec F S64x256 .bf16) :
    View.readAt (Elt F) arg2.view (Rect.unit (s := S64x256) ![0, 0] ![64, 256] inb_S64x256_S64x256_0_0).toLoadRect (harg2.unread x) = x := by
  show View.readAt (Elt F) arg2.view (Rect.unit (s := S64x256) ![0, 0] S64x256.size inb_S64x256_S64x256_0_0).toLoadRect (harg2.unread x) = x
  simp only [View.readAt_eq_ld, harg2.read_unread, View.ld_unit_zero (S := S64x256) zeros2]
theorem load_wv (arg4 : Memref sig .tc .vmem S256x256 .bf16) (harg4 : arg4.IsWhole) (x : Vec F S256x256 .bf16) :
    View.readAt (Elt F) arg4.view (Rect.unit (s := S256x256) ![0, 0] ![256, 256] inb_S256x256_S256x256_0_0).toLoadRect (harg4.unread x) = x := by
  show View.readAt (Elt F) arg4.view (Rect.unit (s := S256x256) ![0, 0] S256x256.size inb_S256x256_S256x256_0_0).toLoadRect (harg4.unread x) = x
  simp only [View.readAt_eq_ld, harg4.read_unread, View.ld_unit_zero (S := S256x256) zeros2]

theorem trips3 : Scf.trips (0#32) (Scalar.addi 0#32 4#32) 1#32 = 4 := by decide +kernel

/-- The read-back of the third loop's iterated writes, when each trip's block is the pure output tile. -/
theorem read_W3_outBlk (arg5 : Memref sig .tc .vmem S1x2048x256 .f32) (harg5 : arg5.IsWhole) (arg6 : Memref sig .tc .vmem S2048x2048 .f32)
    (V : FVec F S2048x256 .bf16) (S : Vec F S1x2048 .f32) (X6 : BufTy.Contents (Elt F) arg6.view.ty) (f5 : BufTy.Contents (Elt F) arg5.view.ty)
    (x0 : Vec F S1x2048x256 .bf16) (x1 x2 : Vec F S64x256 .bf16) (x3 : Vec F S256x256 .bf16)
    (h : ∀ k : Fin k0_t3_loop.trips, blk3 arg6 V S X6 k = Cert.KernelIdeal.Blk.Ob x0 x1 x2 x3 ⟨k.val, Nat.lt_of_lt_of_le k.isLt k0_t3_abs.2.1⟩) :
    arg5.view.read (Elt F) (W3 arg5 arg6 V S X6 f5 (Scf.trips (0#32) (Scalar.addi 0#32 4#32) 1#32)) = Cert.KernelIdeal.Blk.outBlk x0 x1 x2 x3 := by
  rw [trips3]
  funext y
  obtain ⟨a, n, d, rfl⟩ : ∃ (a : Fin 1) (n : Fin 2048) (d : Fin 256), y = ValueIdx.ix3 a n d := ⟨y 0, y 1, y 2, ValueIdx.eq_ix3 y⟩
  obtain rfl : a = 0 := Subsingleton.elim _ _
  rw [w3_read arg5 harg5, h]
  rfl

set_option maxHeartbeats 1600000 in
theorem read_out (c : Dev nD) (i : grid0.Coords) (arg1 : Memref sig .tc .vmem S1x2048x256 .bf16) (harg1 : arg1.IsWhole) (arg2 : Memref sig .tc .vmem S64x256 .bf16) (harg2 : arg2.IsWhole) (arg3 : Memref sig .tc .vmem S64x256 .bf16) (harg3 : arg3.IsWhole) (arg4 : Memref sig .tc .vmem S256x256 .bf16) (harg4 : arg4.IsWhole) (arg5 : Memref sig .tc .vmem S1x2048x256 .f32) (harg5 : arg5.IsWhole) (arg6 : Memref sig .tc .vmem S2048x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S2048x64 .bf16) (harg9 : arg9.IsWhole)
    (x0 : Vec F S1x2048x256 .bf16) (x1 x2 : Vec F S64x256 .bf16) (x3 : Vec F S256x256 .bf16)
    (f5 : BufTy.Contents (Elt F) arg5.view.ty) (f6 : BufTy.Contents (Elt F) arg6.view.ty) :
    arg5.view.read (Elt F) ((kernelRun0_A c i arg1 harg1 arg2 harg2 arg3 harg3 arg4 harg4 arg5 harg5 arg6 harg6 arg7 harg7 arg8 harg8 arg9 harg9 x0 x1 x2 x3).1 f5 f6) = Cert.KernelIdeal.Blk.outBlk x0 x1 x2 x3 := by
  unfold kernelRun0_A
  dsimp only
  sl_unfold_run_names
  simp only [load_x, load_w, load_wv]
  exact read_W3_outBlk arg5 harg5 arg6 _ _ _ f5 x0 x1 x2 x3
    (fun k => l12_out Variants.none c none i arg1 harg1 arg2 harg2 arg3 harg3 arg4 harg4 arg5 harg5 arg6 harg6 arg7 harg7 arg8 harg8 arg9 harg9 x0 x1 x2 x3 arg7.view.junk arg8.view.junk arg9.view.junk f6 k)

end Cert.KernelIdeal.Gen

end
-- ==== Proof.IdealFrame.lean ====
/-
  The frame of the program with the one kernel launch, and its run with the output array named: the proof data of the
  pipeline (each input window's staging buffer at its block; the output's at `Blk.outBlk` of the point's four input
  blocks; the scratch buffers in the region's invariant at anything, since every point writes each of them before it
  reads it), the body obligation from the body's run, the launch, and the frame claim's post.
-/
import proofs.«139261_j76158360092784_2_alg».proof.Proof.IdealRead
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the output's staging buffer at point `t`: the pure output block of the point's input blocks. -/
def out0_4 (c : Dev nD) (t : Fin cfg0.N) : Vec F S1x2048x256 .f32 :=
  Cert.KernelIdeal.Blk.outBlk (iblk m c 0 t) (iblk m c 1 t) (iblk m c 2 t) (iblk m c 3 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out0_4 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1600000 in
/-- The body at any point: the inputs' memrefs hold their blocks; the invariant hands the body its scratch buffers at
    some contents and takes them back at some contents; the output's buffer is read back as the point's output block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩⟩
  iapply ((kernelRun0_A c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, ⟨%f5, %f6, H4⟩, ⟨%g6, HS0⟩, ⟨%g7, HS1⟩, ⟨%g8, HS2⟩, ⟨%g9, HS3⟩⟩
  isplitl [HS0 HS1 HS2 HS3 Hg]
  · isplitr [Hg]
    · isplitl [HS0]; · iexists _; unfold owns; iexists g6; isplitr; · (ipureintro; rfl)
                       iexact HS0
      isplitl [HS1]; · iexists _; unfold owns; iexists g7; isplitr; · (ipureintro; rfl)
                       iexact HS1
      isplitl [HS2]; · iexists _; unfold owns; iexists g8; isplitr; · (ipureintro; rfl)
                       iexact HS2
      iexists _; unfold owns; iexists g9; isplitr; · (ipureintro; rfl)
      iexact HS3
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro
  exact read_out c (grid0.coords t) _ _ _ _ _ _ _ _ _ (hs0_4 t) _ _ _ _ _ _ _ _ (iblk m c 0 t) (iblk m c 1 t) (iblk m c 2 t) (iblk m c 3 t) f5 f6

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the program runs to its end without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Gen

end
-- ==== Proof.Payloads.lean ====
/-
  The kernel body's arithmetic, read one element at a time on the extended reals.

  Each named payload of the kernel (a matrix product into a zero accumulator, a transpose, a broadcast of a row or of
  a column, a sum or a maximum along one axis, an exponential, a reciprocal) is read at an index given by literal
  coordinates: a product of an M×K by a K×N matrix at (i, j) is the sum over k of the factors' products, a sum along
  an axis is the finite sum over that axis's coordinate, a maximum along an axis from the value -inf is the supremum
  over that axis's coordinate, and every layout operation reads its operand at one index.
-/
import proofs.«139261_j76158360092784_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Payloads

open Cert.KernelIdeal Idealize.ShloMosaic Idealize.ShloMosaic.ValueIdx Idealize.SL.Sem
open scoped BigOperators

/-! ## General readings at coordinates -/

/-- The word 0xFF800000 is minus infinity. -/
theorem ofBits_neg_inf_f32 : Ideal.ofBits .f32 0xFF800000#32 = ⊥ := by
  simp [Ideal.ofBits, Ideal.ieee]

/-- A product of an M×K matrix by a K×N matrix into the zero accumulator, at (i, j): the sum over the contraction
    coordinate of the factors' products. -/
theorem matmul_plain_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (i : Fin M) (j : Fin N) :
    matmul D prec l r (constant ⟨2, ![M, N]⟩ .f32 0x00000000#32) (ix2 i j) = ∑ k : Fin K, l (ix2 i k) * r (ix2 k j) := by
  subst hD
  refine (Ideal.matmul_constant_zero_apply (DotDims.plain M K N) prec l r (ix2 i j)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- A sum along the rows of an a×b matrix, at column m: the sum over the row coordinate. -/
theorem sum_axis0_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec FTy.f32.bits) = FKind.add.neutral .f32 hφ) (m : Fin b) :
    multiReduction .add [0] ⟨1, ![b]⟩ src 0x00000000#32 h hφ hacc (ix1 m) = ∑ r : Fin a, src (ix2 r m) := by
  refine (Ideal.multiReduction_add_single src _ h hφ hacc (ix1 m)).trans ?_
  refine Finset.sum_congr rfl fun r _ => ?_
  refine congrArg src (funext fun c => Fin.ext ?_)
  match c with
  | ⟨0, _⟩ => rfl
  | ⟨1, _⟩ => rfl

/-- A sum along the columns of an a×b matrix, at row r: the sum over the column coordinate. -/
theorem sum_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = FKind.add.neutral .f32 hφ) (r : Fin a) :
    multiReduction .add [1] ⟨1, ![a]⟩ src 0x00000000#32 h hφ hacc (ix1 r) = ∑ m : Fin b, src (ix2 r m) := by
  refine (Ideal.multiReduction_add_single src _ h hφ hacc (ix1 r)).trans ?_
  refine Finset.sum_congr rfl fun m _ => ?_
  refine congrArg src (funext fun c => Fin.ext ?_)
  match c with
  | ⟨0, _⟩ => rfl
  | ⟨1, _⟩ => rfl

/-- A maximum along the rows of an a×b matrix from minus infinity, at column m: the supremum over the row coordinate. -/
theorem max_axis0_apply {a b : ℕ} (src : FVec Ideal ⟨2, ![a, b]⟩ .f32)
    (h : (⟨2, ![a, b]⟩ : Shape).Reduces [0] ⟨1, ![b]⟩) (hφ : FKind.Formats .f32)
    (hacc : (0xFF800000#32 : BitVec FTy.f32.bits) = FKind.maximumf.neutral .f32 hφ) (m : Fin b) :
    multiReduction .maximumf [0] ⟨1, ![b]⟩ src 0xFF800000#32 h hφ hacc (ix1 m)
      = Finset.univ.sup fun r : Fin a => src (ix2 r m) := by
  refine (Ideal.multiReduction_maximumf_single src _ h hφ hacc (ix1 m)).trans ?_
  have hf : (src ∘ h.lift (ix1 m)) = fun r : Fin a => src (ix2 r m) := funext fun r =>
    congrArg src (funext fun c => Fin.ext (by
      match c with
      | ⟨0, _⟩ => rfl
      | ⟨1, _⟩ => rfl))
  show Finset.fold max (Ideal.ofBits .f32 0xFF800000#32) (src ∘ h.lift (ix1 m)) (Finset.univ : Finset (Fin a)) = _
  rw [hf, ofBits_neg_inf_f32]
  rfl

/-- A vector of length a viewed as a column a×1 reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column a×1 broadcast over b columns reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The initial values -/

/-- The running maximum starts at minus infinity. -/
theorem pay8_apply (m : Fin 2048) : Gen.k0_pay8 (F := Ideal) (ix2 0 m) = ⊥ := by
  unfold Gen.k0_pay8
  refine (congrFun (shapeCast_self _ _) _).trans ?_
  exact ofBits_neg_inf_f32

/-- The running sum starts at zero. -/
theorem pay9_apply (m : Fin 2048) : Gen.k0_pay9 (F := Ideal) (ix2 0 m) = 0 := by
  unfold Gen.k0_pay9
  refine (congrFun (shapeCast_self _ _) _).trans ?_
  exact Ideal.ofBits_zero_f32

/-! ## The projections -/

/-- The 64-column projection of the block: entry (n, d) is the sum over c of X n c · w d c. -/
theorem pay6_apply (v0 : Vec Ideal S1x2048x256 .bf16) (v2 : Vec Ideal S64x256 .bf16) (n : Fin 2048) (d : Fin 64) :
    Gen.k0_pay6 (F := Ideal) v0 v2 (ix2 n d) = ∑ c : Fin 256, v0 (ix3 0 n c) * v2 (ix2 d c) := by
  unfold Gen.k0_pay6 Gen.k0_pay5
  refine (congrFun (shapeCast_self _ _) _).trans ?_
  refine (truncf_apply (φ := .f32) (ψ := .bf16) _ _ _).trans ?_
  refine (matmul_plain_apply _ rfl none _ _ n d).trans ?_
  refine Finset.sum_congr rfl fun c _ => ?_
  refine congrArg₂ (· * ·) ?_ ?_
  · exact shapeCast_1ab_ab_apply v0 _ n c
  · refine (transpose_ix2_apply _ _ c d).trans ?_
    exact congrFun (shapeCast_self v2 _) _

/-- The 256-column projection of the block: entry (n, d) is the sum over c of X n c · w d c. -/
theorem pay7_apply (v0 : Vec Ideal S1x2048x256 .bf16) (v15 : Vec Ideal S256x256 .bf16) (n : Fin 2048) (d : Fin 256) :
    Gen.k0_pay7 (F := Ideal) v0 v15 (ix2 n d) = ∑ c : Fin 256, v0 (ix3 0 n c) * v15 (ix2 d c) := by
  unfold Gen.k0_pay7 Gen.k0_pay5
  refine (truncf_apply (φ := .f32) (ψ := .bf16) _ _ _).trans ?_
  refine (matmul_plain_apply _ rfl none _ _ n d).trans ?_
  refine Finset.sum_congr rfl fun c _ => ?_
  refine congrArg₂ (· * ·) ?_ ?_
  · exact shapeCast_1ab_ab_apply v0 _ n c
  · refine (transpose_ix2_apply _ _ c d).trans ?_
    exact congrFun (shapeCast_self v15 _) _

/-! ## The energies -/

/-- A 512-row strip of the energy matrix: entry (r, m) is the sum over d of the stored projection's row r times the
    other projection of row m of the block. -/
theorem pay10_apply (v0 : Vec Ideal S1x2048x256 .bf16) (v10 : Vec Ideal S64x256 .bf16) (v39 : Vec Ideal S512x64 .bf16)
    (r : Fin 512) (m : Fin 2048) :
    Gen.k0_pay10 (F := Ideal) v0 v10 v39 (ix2 r m)
      = ∑ d : Fin 64, v39 (ix2 r d) * ∑ c : Fin 256, v0 (ix3 0 m c) * v10 (ix2 d c) := by
  unfold Gen.k0_pay10 Gen.k0_pay5
  refine (matmul_plain_apply _ rfl none _ _ r m).trans ?_
  refine Finset.sum_congr rfl fun d _ => ?_
  refine congrArg₂ (· * ·) rfl ?_
  refine (transpose_ix2_apply _ _ d m).trans ?_
  refine (truncf_apply (φ := .f32) (ψ := .bf16) _ _ _).trans ?_
  refine (matmul_plain_apply _ rfl none _ _ m d).trans ?_
  refine Finset.sum_congr rfl fun c _ => ?_
  refine congrArg₂ (· * ·) ?_ ?_
  · exact shapeCast_1ab_ab_apply v0 _ m c
  · refine (transpose_ix2_apply _ _ c d).trans ?_
    exact congrFun (shapeCast_self v10 _) _

/-- The strip as stored: a cast to its own shape. -/
theorem pay11_eq (v0 : Vec Ideal S1x2048x256 .bf16) (v10 : Vec Ideal S64x256 .bf16) (v39 : Vec Ideal S512x64 .bf16) :
    Gen.k0_pay11 (F := Ideal) v0 v10 v39 = Gen.k0_pay10 (F := Ideal) v0 v10 v39 := by
  unfold Gen.k0_pay11
  exact shapeCast_self _ _

/-- The running column maximum after a strip: the larger of the stored maximum and the strip's column supremum. -/
theorem pay12_apply (v0 : Vec Ideal S1x2048x256 .bf16) (v10 : Vec Ideal S64x256 .bf16) (v39 : Vec Ideal S512x64 .bf16)
    (v46 : Vec Ideal S1x2048 .f32) (m : Fin 2048) :
    Gen.k0_pay12 (F := Ideal) v0 v10 v39 v46 (ix2 0 m)
      = max (v46 (ix2 0 m)) (Finset.univ.sup fun r : Fin 512 => Gen.k0_pay10 (F := Ideal) v0 v10 v39 (ix2 r m)) := by
  unfold Gen.k0_pay12
  refine (congrFun (shapeCast_self _ _) _).trans ?_
  refine (maximumf_apply (φ := .f32) _ _ _).trans ?_
  refine congrArg (max (v46 (ix2 0 m))) ?_
  refine (shapeCast_a_1a_apply _ _ 0 m).trans ?_
  exact max_axis0_apply _ _ _ _ m

/-! ## The shifted exponentials and their column sums -/

/-- The exponential of an energy less its column's maximum. -/
theorem pay1_apply (v39 : Vec Ideal S512x2048 .f32) (v40 : Vec Ideal S1x2048 .f32) (r : Fin 512) (m : Fin 2048) :
    Gen.k0_pay1 (F := Ideal) v39 v40 (ix2 r m) = Ideal.exp (v39 (ix2 r m) - v40 (ix2 0 m)) := by
  unfold Gen.k0_pay1
  show Ideal.exp (v39 (ix2 r m) - broadcastTo S512x2048 v40 Gen.broadcasts_S1x2048_S512x2048 (ix2 r m)) = _
  exact congrArg (fun t => Ideal.exp (v39 (ix2 r m) - t)) (broadcastTo_1b_ab_apply v40 _ r m)

/-- The exponentials as stored: a cast to their own shape. -/
theorem pay2_eq (v39 : Vec Ideal S512x2048 .f32) (v40 : Vec Ideal S1x2048 .f32) :
    Gen.k0_pay2 (F := Ideal) v39 v40 = Gen.k0_pay1 (F := Ideal) v39 v40 := by
  unfold Gen.k0_pay2
  exact shapeCast_self _ _

/-- The running column sum after a strip: the stored sum plus the strip's column sum of exponentials. -/
theorem pay3_apply (v39 : Vec Ideal S512x2048 .f32) (v40 : Vec Ideal S1x2048 .f32) (v48 : Vec Ideal S1x2048 .f32)
    (m : Fin 2048) :
    Gen.k0_pay3 (F := Ideal) v39 v40 v48 (ix2 0 m)
      = v48 (ix2 0 m) + ∑ r : Fin 512, Gen.k0_pay1 (F := Ideal) v39 v40 (ix2 r m) := by
  unfold Gen.k0_pay3
  refine (congrFun (shapeCast_self _ _) _).trans ?_
  refine (addf_apply (φ := .f32) _ _ _).trans ?_
  refine congrArg (v48 (ix2 0 m) + ·) ?_
  refine (shapeCast_a_1a_apply _ _ 0 m).trans ?_
  exact sum_axis0_apply _ _ _ _ m

/-! ## The output strip -/

/-- The strip of exponentials scaled by the reciprocal column sums, at (r, m). -/
theorem scaled_apply (v30 : Vec Ideal S1x2048 .f32) (v39 : Vec Ideal S512x2048 .f32) (r : Fin 512) (m : Fin 2048) :
    mulf (F := Ideal) v39 (broadcastTo S512x2048
        (divf (broadcast S1x2048 (Scalar.ofBits (F := Ideal) .f32 0x3F800000#32)) v30)
        Gen.broadcasts_S1x2048_S512x2048) (ix2 r m)
      = v39 (ix2 r m) * Ideal.div 1 (v30 (ix2 0 m)) := by
  refine (mulf_apply (φ := .f32) _ _ _).trans ?_
  refine congrArg (v39 (ix2 r m) * ·) ?_
  refine (broadcastTo_1b_ab_apply _ _ r m).trans ?_
  refine (divf_apply (φ := .f32) _ _ _).trans ?_
  exact congrArg (fun t => Ideal.div t (v30 (ix2 0 m))) Ideal.ofBits_one_f32

/-- The output strip: the scaled strip times the value projection, times the reciprocal of the scaled strip's row
    sum plus the small constant. -/
theorem pay4_apply (v19 : FVec Ideal S2048x256 .bf16) (v30 : Vec Ideal S1x2048 .f32) (v39 : Vec Ideal S512x2048 .f32)
    (r : Fin 512) (d : Fin 256) :
    Gen.k0_pay4 (F := Ideal) v19 v30 v39 (ix2 r d)
      = (∑ m : Fin 2048, (v39 (ix2 r m) * Ideal.div 1 (v30 (ix2 0 m))) * v19 (ix2 m d))
        * Ideal.div 1 ((∑ m : Fin 2048, v39 (ix2 r m) * Ideal.div 1 (v30 (ix2 0 m)))
            + Ideal.ofBits .f32 0x3089705F#32) := by
  unfold Gen.k0_pay4
  refine (mulf_apply (φ := .f32) _ _ _).trans ?_
  refine congrArg₂ (· * ·) ?_ ?_
  · refine (matmul_plain_apply _ rfl none _ _ r d).trans ?_
    refine Finset.sum_congr rfl fun m _ => ?_
    refine congrArg (· * v19 (ix2 m d)) ?_
    refine (truncf_apply (φ := .f32) (ψ := .bf16) _ _ _).trans ?_
    exact scaled_apply v30 v39 r m
  · refine (broadcastTo_a1_ab_apply _ _ r d).trans ?_
    refine (divf_apply (φ := .f32) _ _ _).trans ?_
    refine congrArg₂ Ideal.div Ideal.ofBits_one_f32 ?_
    refine (addf_apply (φ := .f32) _ _ _).trans ?_
    refine congrArg₂ (· + ·) ?_ rfl
    refine (shapeCast_a_a1_apply _ _ r 0).trans ?_
    refine (sum_axis1_apply _ _ _ _ r).trans ?_
    exact Finset.sum_congr rfl fun m _ => scaled_apply v30 v39 r m

end Cert.KernelIdeal.Payloads

end
-- ==== Proof.Spec.lean ====
/-
  Column-softmax attention with a row renormalisation, for ONE batch, on the extended reals.

  From a 2048×256 matrix `X` and weights `wq wk : 64×256`, `wv : 256×256`:
    q = X·wqᵀ, k = X·wkᵀ, v = X·wvᵀ,  e n m = Σ_d q n d · k m d,
    cmax m = max_n e n m,  p n m = exp (e n m − cmax m),  csum m = Σ_n p n m
  (a softmax over the QUERY index n for each key m), then each row is renormalised by its own sum plus a small
  constant `eps` and multiplied with `v`.  Two arrangements of the last steps are stated:
    `outR` divides:   Σ_m ((p n m / csum m) / (eps + Σ_m' p n m' / csum m')) · v m d
    `outK` multiplies by reciprocals and scales after the contraction:
                      (Σ_m (p n m · (1 / csum m)) · v m d) · (1 / ((Σ_m' p n m' · (1 / csum m')) + eps)).
  They agree when every entry of X and of the weights is a real number and eps is a non-negative real: then every
  intermediate is real, csum m ≥ 1 > 0 (the maximal entry of a column contributes exp 0), the row sums are positive,
  and the equation is distributivity in ℝ (`outK_eq_outR`, in Proof/Arrange.lean).
-/
import Idealize.ShloMosaic.PureOps.Ideal

noncomputable section

namespace ColAttn

open Idealize.ShloMosaic

/-- One batch's inputs: the 2048×256 matrix and a weight matrix with `D` rows. -/
abbrev Mat (a b : ℕ) : Type := Fin a → Fin b → EReal

variable (X : Mat 2048 256) (wq wk : Mat 64 256) (wv : Mat 256 256) (eps : EReal)

/-- A projection `X·wᵀ`: entry (n, d) is Σ_c X n c · w d c. -/
def proj {D : ℕ} (w : Mat D 256) (n : Fin 2048) (d : Fin D) : EReal := ∑ c : Fin 256, X n c * w d c

/-- The energy matrix q·kᵀ. -/
def energy (n m : Fin 2048) : EReal := ∑ d : Fin 64, proj X wq n d * proj X wk m d

/-- The maximum of column m of the energy matrix (over the query index). -/
def cmax (m : Fin 2048) : EReal := Finset.univ.sup fun n : Fin 2048 => energy X wq wk n m

/-- The shifted exponentials. -/
def p (n m : Fin 2048) : EReal := Ideal.exp (energy X wq wk n m - cmax X wq wk m)

/-- Column sums of the exponentials. -/
def csum (m : Fin 2048) : EReal := ∑ n : Fin 2048, p X wq wk n m

/-- The column softmax by division. -/
def attR (n m : Fin 2048) : EReal := Ideal.div (p X wq wk n m) (csum X wq wk m)

/-- The dividing arrangement. -/
def outR (n : Fin 2048) (d : Fin 256) : EReal :=
  ∑ m : Fin 2048, Ideal.div (attR X wq wk n m) (eps + ∑ m' : Fin 2048, attR X wq wk n m') * proj X wv m d

/-- The column softmax by the reciprocal of the column sum. -/
def attK (n m : Fin 2048) : EReal := p X wq wk n m * Ideal.div 1 (csum X wq wk m)

/-- The arrangement with reciprocals, scaled after the contraction. -/
def outK (n : Fin 2048) (d : Fin 256) : EReal :=
  (∑ m : Fin 2048, attK X wq wk n m * proj X wv m d) * Ideal.div 1 ((∑ m' : Fin 2048, attK X wq wk n m') + eps)

/-- Every entry is a real number. -/
def AllReal {a b : ℕ} (M : Mat a b) : Prop := ∀ i j, ∃ r : ℝ, M i j = (r : EReal)

end ColAttn

end
-- ==== Proof.Tiles.lean ====
/-
  Four tiles of 512 rows cover the 2048 rows.

  Row n lies in tile n / 512 at offset n % 512, so (tile, offset) ↦ 512·tile + offset is a bijection of
  Fin 4 × Fin 512 with Fin 2048.  A supremum or a sum over the 2048 rows is therefore the supremum or sum, over the
  four tiles, of the tile's own supremum or sum; a running maximum started at ⊥ (a running total started at 0)
  that takes in one tile at a time ends at the whole-column value.  Only commutativity and associativity of max
  and +, and the neutral elements ⊥ and 0, are used.
-/
import proofs.«139261_j76158360092784_2_alg».proof.Proof.Spec

noncomputable section

namespace ColAttn

/-- The row at offset r of tile k. -/
def row (k : Fin 4) (r : Fin 512) : Fin 2048 := ⟨512 * k.val + r.val, by omega⟩

/-- Every row is the row of its tile (quotient by 512) at its offset (remainder). -/
theorem row_div (n : Fin 2048) :
    n = row ⟨n.val / 512, by omega⟩ ⟨n.val % 512, Nat.mod_lt _ (by norm_num)⟩ := by
  apply Fin.ext
  show n.val = 512 * (n.val / 512) + n.val % 512
  exact (Nat.div_add_mod n.val 512).symm

/-- (tile, offset) ↦ row is a bijection of Fin 4 × Fin 512 with Fin 2048. -/
def tileEquiv : Fin 4 × Fin 512 ≃ Fin 2048 where
  toFun q := row q.1 q.2
  invFun n := (⟨n.val / 512, by omega⟩, ⟨n.val % 512, Nat.mod_lt _ (by norm_num)⟩)
  left_inv := by
    rintro ⟨k, r⟩
    apply Prod.ext
    · apply Fin.ext
      show (512 * k.val + r.val) / 512 = k.val
      omega
    · apply Fin.ext
      show (512 * k.val + r.val) % 512 = r.val
      omega
  right_inv n := (row_div n).symm

/-- A running maximum over the four tiles, started at ⊥, ends at the supremum over all rows. -/
theorem sup_tiles (f : Fin 2048 → EReal) (acc : ℕ → EReal) (h0 : acc 0 = ⊥)
    (hs : ∀ k : Fin 4, acc (k.val + 1) = max (acc k.val) (Finset.univ.sup fun r : Fin 512 => f (row k r))) :
    acc 4 = Finset.univ.sup f := by
  have h1 : acc 1 = max (acc 0) (Finset.univ.sup fun r : Fin 512 => f (row 0 r)) := hs 0
  have h2 : acc 2 = max (acc 1) (Finset.univ.sup fun r : Fin 512 => f (row 1 r)) := hs 1
  have h3 : acc 3 = max (acc 2) (Finset.univ.sup fun r : Fin 512 => f (row 2 r)) := hs 2
  have h4 : acc 4 = max (acc 3) (Finset.univ.sup fun r : Fin 512 => f (row 3 r)) := hs 3
  have hle : ∀ k : Fin 4, (Finset.univ.sup fun r : Fin 512 => f (row k r)) ≤ Finset.univ.sup f :=
    fun k => Finset.sup_le fun r _ => Finset.le_sup (f := f) (Finset.mem_univ (row k r))
  have hge : ∀ k : Fin 4, (Finset.univ.sup fun r : Fin 512 => f (row k r)) ≤ acc 4 := by
    intro k
    rw [h4, h3, h2, h1]
    fin_cases k <;> simp
  apply le_antisymm
  · rw [h4, h3, h2, h1, h0]
    exact max_le (max_le (max_le (max_le bot_le (hle 0)) (hle 1)) (hle 2)) (hle 3)
  · refine Finset.sup_le fun n _ => ?_
    have hn : f n = f (row ⟨n.val / 512, by omega⟩ ⟨n.val % 512, Nat.mod_lt _ (by norm_num)⟩) :=
      congrArg f (row_div n)
    rw [hn]
    exact (Finset.le_sup (f := fun r : Fin 512 => f (row ⟨n.val / 512, by omega⟩ r))
      (Finset.mem_univ _)).trans (hge _)

/-- A running total over the four tiles, started at 0, ends at the sum over all rows. -/
theorem sum_tiles (f : Fin 2048 → EReal) (acc : ℕ → EReal) (h0 : acc 0 = 0)
    (hs : ∀ k : Fin 4, acc (k.val + 1) = acc k.val + ∑ r : Fin 512, f (row k r)) :
    acc 4 = ∑ n : Fin 2048, f n := by
  have h1 : acc 1 = acc 0 + ∑ r : Fin 512, f (row 0 r) := hs 0
  have h2 : acc 2 = acc 1 + ∑ r : Fin 512, f (row 1 r) := hs 1
  have h3 : acc 3 = acc 2 + ∑ r : Fin 512, f (row 2 r) := hs 2
  have h4 : acc 4 = acc 3 + ∑ r : Fin 512, f (row 3 r) := hs 3
  have key : ∑ n : Fin 2048, f n = ∑ k : Fin 4, ∑ r : Fin 512, f (row k r) := by
    rw [← Fintype.sum_prod_type' (f := fun k r => f (row k r))]
    exact (Fintype.sum_equiv tileEquiv (fun q => f (row q.1 q.2)) f fun _ => rfl).symm
  rw [key, Fin.sum_univ_four, h4, h3, h2, h1, h0, zero_add]

end ColAttn

end
-- ==== Proof.IdealBlockValue.lean ====
/-
  One grid point's output block is the reciprocal arrangement of the column-softmax attention.

  The block is composed, tile by tile, from the body's arithmetic read at an element: the projections are the
  specification's projections of the batch's rows, the energies of tile k at offset r are the energies of row
  512·k + r, the running column maximum started at minus infinity ends, after the four tiles, at the column maximum over
  all 2048 rows, the running column sum started at zero ends at the column sum, and the output tile is the
  specification's reciprocal arrangement at the tile's rows.  Row n is offset n mod 512 of tile n / 512.
  No finiteness is used: only the neutral elements of max and +, and their commutativity and associativity.
-/
import proofs.«139261_j76158360092784_2_alg».proof.Proof.IdealBlock
import proofs.«139261_j76158360092784_2_alg».proof.Proof.Payloads
import proofs.«139261_j76158360092784_2_alg».proof.Proof.Tiles
import proofs.«139261_j76158360092784_2_alg».proof.Proof.Spec

noncomputable section

namespace Cert.KernelIdeal.BlkValue

open Cert.KernelIdeal Cert.KernelIdeal.Payloads Idealize.ShloMosaic Idealize.ShloMosaic.ValueIdx
open scoped BigOperators

variable (X : Vec Ideal S1x2048x256 .bf16) (WQ WK : Vec Ideal S64x256 .bf16) (WV : Vec Ideal S256x256 .bf16)

/-- The batch's rows as a matrix. -/
abbrev xm : ColAttn.Mat 2048 256 := fun n c => X (ix3 0 n c)

/-- A weight block as a matrix. -/
abbrev wm {D : ℕ} (W : Vec Ideal ⟨2, ![D, 256]⟩ .bf16) : ColAttn.Mat D 256 := fun j c => W (ix2 j c)

/-- The small constant added to the row sums. -/
abbrev eps : EReal := Ideal.ofBits .f32 0x3089705F#32

/-! ## The projections -/

theorem Qm_apply (n : Fin 2048) (d : Fin 64) :
    Blk.Qm (F := Ideal) X WQ (ix2 n d) = ColAttn.proj (xm X) (wm WQ) n d := by
  unfold Blk.Qm
  exact pay6_apply X WQ n d

theorem qRows_apply (k : Fin 4) (r : Fin 512) (d : Fin 64) :
    Blk.qRows (F := Ideal) (Blk.Qm (F := Ideal) X WQ) k (ix2 r d) = ColAttn.proj (xm X) (wm WQ) (ColAttn.row k r) d :=
  Qm_apply X WQ (ColAttn.row k r) d

theorem Vm_apply (m : Fin 2048) (d : Fin 256) :
    Blk.Vm (F := Ideal) X WV (ix2 m d) = ColAttn.proj (xm X) (wm WV) m d := by
  unfold Blk.Vm
  exact pay7_apply X WV m d

/-! ## The energies and the column maximum -/

/-- The energies of tile k at offset r are the energies of row 512·k + r. -/
theorem pay10_tile (k : Fin 4) (r : Fin 512) (m : Fin 2048) :
    Gen.k0_pay10 (F := Ideal) X WK (Blk.qRows (F := Ideal) (Blk.Qm (F := Ideal) X WQ) k) (ix2 r m)
      = ColAttn.energy (xm X) (wm WQ) (wm WK) (ColAttn.row k r) m := by
  refine (pay10_apply X WK _ r m).trans ?_
  unfold ColAttn.energy
  refine Finset.sum_congr rfl fun d _ => ?_
  exact congrArg (· * ColAttn.proj (xm X) (wm WK) m d) (qRows_apply X WQ k r d)

theorem Eb_apply (k : Fin 4) (r : Fin 512) (m : Fin 2048) :
    Blk.Eb (F := Ideal) X WQ WK k (ix2 r m) = ColAttn.energy (xm X) (wm WQ) (wm WK) (ColAttn.row k r) m := by
  unfold Blk.Eb
  exact (congrFun (pay11_eq X WK _) _).trans (pay10_tile X WQ WK k r m)

theorem cmx_zero (m : Fin 2048) : Blk.cmx (F := Ideal) X WQ WK 0 (ix2 0 m) = ⊥ :=
  pay8_apply m

theorem cmx_succ (k : Fin 4) (m : Fin 2048) :
    Blk.cmx (F := Ideal) X WQ WK (k.val + 1) (ix2 0 m)
      = max (Blk.cmx (F := Ideal) X WQ WK k.val (ix2 0 m))
          (Finset.univ.sup fun r : Fin 512 => ColAttn.energy (xm X) (wm WQ) (wm WK) (ColAttn.row k r) m) := by
  have hstep : Blk.cmx (F := Ideal) X WQ WK (k.val + 1)
      = Gen.k0_pay12 (F := Ideal) X WK (Blk.qRows (F := Ideal) (Blk.Qm (F := Ideal) X WQ) k)
          (Blk.cmx (F := Ideal) X WQ WK k.val) := by
    rw [Blk.cmx, dif_pos k.isLt]
  rw [hstep]
  refine (pay12_apply X WK _ _ m).trans ?_
  refine congrArg (max _) ?_
  exact Finset.sup_congr rfl fun r _ => pay10_tile X WQ WK k r m

/-- After the four tiles the running maximum is the column maximum over all rows. -/
theorem cmx_four (m : Fin 2048) :
    Blk.cmx (F := Ideal) X WQ WK 4 (ix2 0 m) = ColAttn.cmax (xm X) (wm WQ) (wm WK) m :=
  ColAttn.sup_tiles (fun n => ColAttn.energy (xm X) (wm WQ) (wm WK) n m)
    (fun j => Blk.cmx (F := Ideal) X WQ WK j (ix2 0 m)) (cmx_zero X WQ WK m) (fun k => cmx_succ X WQ WK k m)

/-! ## The exponentials and the column sum -/

theorem pay1_tile (k : Fin 4) (r : Fin 512) (m : Fin 2048) :
    Gen.k0_pay1 (F := Ideal) (Blk.Eb (F := Ideal) X WQ WK k) (Blk.cmx (F := Ideal) X WQ WK 4) (ix2 r m)
      = ColAttn.p (xm X) (wm WQ) (wm WK) (ColAttn.row k r) m := by
  refine (pay1_apply _ _ r m).trans ?_
  unfold ColAttn.p
  rw [Eb_apply, cmx_four]

theorem Pb_apply (k : Fin 4) (r : Fin 512) (m : Fin 2048) :
    Blk.Pb (F := Ideal) X WQ WK k (ix2 r m) = ColAttn.p (xm X) (wm WQ) (wm WK) (ColAttn.row k r) m := by
  unfold Blk.Pb
  exact (congrFun (pay2_eq _ _) _).trans (pay1_tile X WQ WK k r m)

theorem csm_zero (m : Fin 2048) : Blk.csm (F := Ideal) X WQ WK 0 (ix2 0 m) = 0 :=
  pay9_apply m

theorem csm_succ (k : Fin 4) (m : Fin 2048) :
    Blk.csm (F := Ideal) X WQ WK (k.val + 1) (ix2 0 m)
      = Blk.csm (F := Ideal) X WQ WK k.val (ix2 0 m)
          + ∑ r : Fin 512, ColAttn.p (xm X) (wm WQ) (wm WK) (ColAttn.row k r) m := by
  have hstep : Blk.csm (F := Ideal) X WQ WK (k.val + 1)
      = Gen.k0_pay3 (F := Ideal) (Blk.Eb (F := Ideal) X WQ WK k) (Blk.cmx (F := Ideal) X WQ WK 4)
          (Blk.csm (F := Ideal) X WQ WK k.val) := by
    rw [Blk.csm, dif_pos k.isLt]
  rw [hstep]
  refine (pay3_apply _ _ _ m).trans ?_
  refine congrArg (_ + ·) ?_
  exact Finset.sum_congr rfl fun r _ => pay1_tile X WQ WK k r m

/-- After the four tiles the running sum is the column sum over all rows. -/
theorem csm_four (m : Fin 2048) :
    Blk.csm (F := Ideal) X WQ WK 4 (ix2 0 m) = ColAttn.csum (xm X) (wm WQ) (wm WK) m :=
  ColAttn.sum_tiles (fun n => ColAttn.p (xm X) (wm WQ) (wm WK) n m)
    (fun j => Blk.csm (F := Ideal) X WQ WK j (ix2 0 m)) (csm_zero X WQ WK m) (fun k => csm_succ X WQ WK k m)

/-! ## The output -/

/-- The output tile k at offset r is the reciprocal arrangement at row 512·k + r. -/
theorem Ob_apply (k : Fin 4) (r : Fin 512) (d : Fin 256) :
    Blk.Ob (F := Ideal) X WQ WK WV k (ix2 r d)
      = ColAttn.outK (xm X) (wm WQ) (wm WK) (wm WV) eps (ColAttn.row k r) d := by
  unfold Blk.Ob
  refine (pay4_apply _ _ _ r d).trans ?_
  unfold ColAttn.outK ColAttn.attK
  have hs : ∀ m : Fin 2048,
      Blk.Pb (F := Ideal) X WQ WK k (ix2 r m) * Ideal.div 1 (Blk.csm (F := Ideal) X WQ WK 4 (ix2 0 m))
        = ColAttn.p (xm X) (wm WQ) (wm WK) (ColAttn.row k r) m * Ideal.div 1 (ColAttn.csum (xm X) (wm WQ) (wm WK) m) :=
    fun m => by rw [Pb_apply, csm_four]
  refine congrArg₂ (· * ·) ?_ ?_
  · refine Finset.sum_congr rfl fun m _ => ?_
    rw [hs m, Vm_apply]
  · refine congrArg (fun t => Ideal.div 1 (t + eps)) ?_
    exact Finset.sum_congr rfl fun m _ => hs m

/-- Row n of the output block is the reciprocal arrangement of the column-softmax attention at row n. -/
theorem outBlk_eq_outK (X : Vec Ideal S1x2048x256 .bf16) (WQ WK : Vec Ideal S64x256 .bf16)
    (WV : Vec Ideal S256x256 .bf16) (n : Fin 2048) (d : Fin 256) :
    Cert.KernelIdeal.Blk.outBlk (F := Ideal) X WQ WK WV (ValueIdx.ix3 0 n d)
      = ColAttn.outK (fun n c => X (ValueIdx.ix3 0 n c)) (fun j c => WQ (ValueIdx.ix2 j c))
          (fun j c => WK (ValueIdx.ix2 j c)) (fun j c => WV (ValueIdx.ix2 j c))
          (Ideal.ofBits .f32 0x3089705F#32) n d := by
  have h := Ob_apply X WQ WK WV ⟨n.val / 512, by omega⟩ ⟨n.val % 512, Nat.mod_lt _ (by norm_num)⟩ d
  rw [← ColAttn.row_div n] at h
  exact h

end Cert.KernelIdeal.BlkValue

end
-- ==== Proof.IdealArray.lean ====
/-
  The kernel's run with its result array named as one function of the argument arrays.

  Each of the eight grid points writes back one batch: the output block of point t is the reciprocal arrangement of the
  column-softmax attention of rows (t, ·, ·) of the first argument with the three weight matrices, and the block sits at
  rows (t, ·, ·) of the result array.  The four arrays the kernel stages are the host's narrowing converts of the
  arguments, which on the extended reals are the arguments themselves.  The eight blocks cover the result array (index i
  lies in the block of point i₀), so the array after the run is `G` of the arguments at every index.
-/
import proofs.«139261_j76158360092784_2_alg».proof.Proof.IdealFrame
import proofs.«139261_j76158360092784_2_alg».proof.Proof.IdealBlockValue
import Idealize.ShloMosaic.Lib.Pipeline.Value
import Idealize.ShloMosaic.Lib.ValueIdx

set_option maxRecDepth 16384

noncomputable section

namespace Cert.KernelIdeal.Arr

open Cert.KernelIdeal Cert.KernelIdeal.Gen Idealize.ShloMosaic Idealize.ShloMosaic.TcCoe Idealize.SL.Sem
open Idealize.ShloMosaic.Pipeline (Dat)
open Idealize.ShloMosaic.ValueIdx

/-- The result array as one function of the four argument arrays: at (b, n, d), the reciprocal arrangement of the
    column-softmax attention of batch b, at row n and column d. -/
def G (a0 : S8x2048x256.Idx → EReal) (a1 a2 : S64x256.Idx → EReal) (a3 : S256x256.Idx → EReal) : S8x2048x256.Idx → EReal :=
  fun i => ColAttn.outK (fun n c => a0 (ValueIdx.ix3 ⟨(i 0).val, (i 0).isLt⟩ n c)) (fun j c => a1 (ValueIdx.ix2 j c))
    (fun j c => a2 (ValueIdx.ix2 j c)) (fun j c => a3 (ValueIdx.ix2 j c)) (Ideal.ofBits .f32 0x3089705F#32)
    ⟨(i 1).val, (i 1).isLt⟩ ⟨(i 2).val, (i 2).isLt⟩

variable (m : (ℓ : Loc nD τ sig) → Buf (Elt Ideal) ℓ) (ρ : Dev nD → PrngReg)

/-! ## The run's post read at the result and at the arguments -/

/-- After the run the result array is what the library computes from the blocks written back. -/
theorem post_result (r : PUnit × MemSt nD τ sig (Elt Ideal)) (h : Pipeline.FramePost cfgs (dats m) 0 (V m) r) (c : Dev nD) :
    r.2.mem ((c : Thread nD τ).loc main_v4) = (dats m 0 c).arrAt 4 cfg0.N :=
  (h c).1 4

/-- After the run each argument array is as launched: no window stages it and no host operation writes it. -/
theorem kept_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
theorem kept_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
theorem kept_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
theorem kept_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-! ## The staged arrays are the arguments -/

/-- On the extended reals the host's narrowing convert is the identity: the staged copy of each argument is the argument. -/
theorem staged0 (c : Dev nD) : (V m c main_v0 : S8x2048x256.Idx → EReal) = m ((c : Thread nD τ).loc main_arg0) := by
  dsimp only [Gen.V, Gen.hostOps0]; after_results; rfl
theorem staged1 (c : Dev nD) : (V m c main_v1 : S64x256.Idx → EReal) = m ((c : Thread nD τ).loc main_arg1) := by
  dsimp only [Gen.V, Gen.hostOps0]; after_results; rfl
theorem staged2 (c : Dev nD) : (V m c main_v2 : S64x256.Idx → EReal) = m ((c : Thread nD τ).loc main_arg2) := by
  dsimp only [Gen.V, Gen.hostOps0]; after_results; rfl
theorem staged3 (c : Dev nD) : (V m c main_v3 : S256x256.Idx → EReal) = m ((c : Thread nD τ).loc main_arg3) := by
  dsimp only [Gen.V, Gen.hostOps0]; after_results; rfl

/-! ## The index maps, and the input blocks read at coordinates -/

/-- The printed index maps over the grid: the first input's and the result's block index at point t is (t, 0, 0); the
    weight matrices' block index is (0, 0) at every point. -/
theorem index_maps : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- A grid point is a batch number. -/
theorem point_lt (t : Fin cfg0.N) : t.val < 8 := Nat.lt_of_lt_of_eq t.isLt N_0

/-- The first input's block at point t, at (0, n, c'), is the first argument at (t, n, c'). -/
theorem iblk0_apply (c : Dev nD) (t : Fin cfg0.N) (n : Fin 2048) (c' : Fin 256) :
    (iblk m c 0 t : Vec Ideal S1x2048x256 .bf16) (ix3 0 n c')
      = (m ((c : Thread nD τ).loc main_arg0) : S8x2048x256.Idx → EReal) (ix3 (⟨t.val, point_lt t⟩ : Fin 8) n c') := by
  obtain ⟨e0, e1, e2, -⟩ := index_maps t
  unfold iblk
  rw [View.read_apply]
  show (V m c main_v0 : S8x2048x256.Idx → EReal) _ = _
  rw [staged0]
  refine congrArg _ (funext fun a => Fin.ext ?_)
  match a with
  | ⟨0, _⟩ => show win0_0.index t (0 : Fin 3) * 1 + 1 * 0 = t.val; omega
  | ⟨1, _⟩ => show win0_0.index t (1 : Fin 3) * 2048 + 1 * n.val = n.val; omega
  | ⟨2, _⟩ => show win0_0.index t (2 : Fin 3) * 256 + 1 * c'.val = c'.val; omega

/-- A weight matrix's block at any point is the whole matrix: at (j, c'), the argument at (j, c'). -/
theorem iblk1_apply (c : Dev nD) (t : Fin cfg0.N) (j : Fin 64) (c' : Fin 256) :
    (iblk m c 1 t : Vec Ideal S64x256 .bf16) (ix2 j c')
      = (m ((c : Thread nD τ).loc main_arg1) : S64x256.Idx → EReal) (ix2 j c') := by
  obtain ⟨-, -, -, e0, e1, -⟩ := index_maps t
  unfold iblk
  rw [View.read_apply]
  show (V m c main_v1 : S64x256.Idx → EReal) _ = _
  rw [staged1]
  refine congrArg _ (funext fun a => Fin.ext ?_)
  match a with
  | ⟨0, _⟩ => show win0_1.index t (0 : Fin 2) * 64 + 1 * j.val = j.val; omega
  | ⟨1, _⟩ => show win0_1.index t (1 : Fin 2) * 256 + 1 * c'.val = c'.val; omega

theorem iblk2_apply (c : Dev nD) (t : Fin cfg0.N) (j : Fin 64) (c' : Fin 256) :
    (iblk m c 2 t : Vec Ideal S64x256 .bf16) (ix2 j c')
      = (m ((c : Thread nD τ).loc main_arg2) : S64x256.Idx → EReal) (ix2 j c') := by
  obtain ⟨-, -, -, -, -, e0, e1, -⟩ := index_maps t
  unfold iblk
  rw [View.read_apply]
  show (V m c main_v2 : S64x256.Idx → EReal) _ = _
  rw [staged2]
  refine congrArg _ (funext fun a => Fin.ext ?_)
  match a with
  | ⟨0, _⟩ => show win0_2.index t (0 : Fin 2) * 64 + 1 * j.val = j.val; omega
  | ⟨1, _⟩ => show win0_2.index t (1 : Fin 2) * 256 + 1 * c'.val = c'.val; omega

theorem iblk3_apply (c : Dev nD) (t : Fin cfg0.N) (j : Fin 256) (c' : Fin 256) :
    (iblk m c 3 t : Vec Ideal S256x256 .bf16) (ix2 j c')
      = (m ((c : Thread nD τ).loc main_arg3) : S256x256.Idx → EReal) (ix2 j c') := by
  obtain ⟨-, -, -, -, -, -, -, e0, e1, -⟩ := index_maps t
  unfold iblk
  rw [View.read_apply]
  show (V m c main_v3 : S256x256.Idx → EReal) _ = _
  rw [staged3]
  refine congrArg _ (funext fun a => Fin.ext ?_)
  match a with
  | ⟨0, _⟩ => show win0_3.index t (0 : Fin 2) * 256 + 1 * j.val = j.val; omega
  | ⟨1, _⟩ => show win0_3.index t (1 : Fin 2) * 256 + 1 * c'.val = c'.val; omega

/-! ## What a point writes back -/

/-- The output block of a point whose input blocks are rows of four matrices: the reciprocal arrangement of those
    matrices, at the row and column of the index. -/
theorem outBlk_of_rows (X : Vec Ideal S1x2048x256 .bf16) (WQ WK : Vec Ideal S64x256 .bf16) (WV : Vec Ideal S256x256 .bf16)
    (A0 : ColAttn.Mat 2048 256) (A1 A2 : ColAttn.Mat 64 256) (A3 : ColAttn.Mat 256 256)
    (h0 : ∀ n c, X (ix3 0 n c) = A0 n c) (h1 : ∀ j c, WQ (ix2 j c) = A1 j c) (h2 : ∀ j c, WK (ix2 j c) = A2 j c)
    (h3 : ∀ j c, WV (ix2 j c) = A3 j c) (y : S1x2048x256.Idx) :
    Blk.outBlk (F := Ideal) X WQ WK WV y
      = ColAttn.outK A0 A1 A2 A3 (Ideal.ofBits .f32 0x3089705F#32) (⟨(y 1).val, (y 1).isLt⟩ : Fin 2048) (⟨(y 2).val, (y 2).isLt⟩ : Fin 256) := by
  obtain rfl : (fun n c => X (ix3 0 n c)) = A0 := funext fun n => funext fun c => h0 n c
  obtain rfl : (fun j c => WQ (ix2 j c)) = A1 := funext fun j => funext fun c => h1 j c
  obtain rfl : (fun j c => WK (ix2 j c)) = A2 := funext fun j => funext fun c => h2 j c
  obtain rfl : (fun j c => WV (ix2 j c)) = A3 := funext fun j => funext fun c => h3 j c
  exact BlkValue.outBlk_eq_outK X WQ WK WV ⟨(y 1).val, (y 1).isLt⟩ ⟨(y 2).val, (y 2).isLt⟩

/-- `G` at (b, n, d). -/
theorem G_apply (a0 : S8x2048x256.Idx → EReal) (a1 a2 : S64x256.Idx → EReal) (a3 : S256x256.Idx → EReal)
    (b : Fin 8) (n : Fin 2048) (d : Fin 256) :
    G a0 a1 a2 a3 (ix3 b n d) = ColAttn.outK (fun n c => a0 (ix3 b n c)) (fun j c => a1 (ix2 j c)) (fun j c => a2 (ix2 j c))
      (fun j c => a3 (ix2 j c)) (Ideal.ofBits .f32 0x3089705F#32) n d := rfl

/-- The result's block at point t places its (0, n, d) at the array's (t, n, d). -/
theorem out_emb (t : Fin cfg0.N) (j : S1x2048x256.Idx) :
    ((cfg0.win 4).blk t).view.emb j
      = ix3 (⟨t.val, point_lt t⟩ : Fin 8) (⟨(j 1).val, (j 1).isLt⟩ : Fin 2048) (⟨(j 2).val, (j 2).isLt⟩ : Fin 256) := by
  obtain ⟨-, -, -, -, -, -, -, -, -, e0, e1, e2⟩ := index_maps t
  have h0 : (j 0).val < 1 := (j 0).isLt
  refine funext fun a => Fin.ext ?_
  match a with
  | ⟨0, _⟩ => show win0_4.index t (0 : Fin 3) * 1 + 1 * (j 0).val = t.val; omega
  | ⟨1, _⟩ => show win0_4.index t (1 : Fin 3) * 2048 + 1 * (j 1).val = (j 1).val; omega
  | ⟨2, _⟩ => show win0_4.index t (2 : Fin 3) * 256 + 1 * (j 2).val = (j 2).val; omega

/-- WHAT POINT t WRITES BACK is block t of `G` of the argument arrays. -/
theorem flushed_eq (c : Dev nD) (t : Fin cfg0.N) :
    (dats m 0 c).flushed 4 t = ((cfg0.win 4).blk t).view.read (Elt Ideal)
      (G (m ((c : Thread nD τ).loc main_arg0)) (m ((c : Thread nD τ).loc main_arg1)) (m ((c : Thread nD τ).loc main_arg2)) (m ((c : Thread nD τ).loc main_arg3))) := by
  show (cfg0.win 4).cut (grid0.coords t) ((dats m 0 c).after 4 t) = _
  rw [after0_4]
  unfold out0_4
  funext j
  show Blk.outBlk (F := Ideal) (iblk m c 0 t) (iblk m c 1 t) (iblk m c 2 t) (iblk m c 3 t) j
    = G (m ((c : Thread nD τ).loc main_arg0)) (m ((c : Thread nD τ).loc main_arg1)) (m ((c : Thread nD τ).loc main_arg2)) (m ((c : Thread nD τ).loc main_arg3))
        (((cfg0.win 4).blk t).view.emb j)
  rw [out_emb, G_apply]
  exact outBlk_of_rows _ _ _ _ _ _ _ _ (fun n c' => iblk0_apply m c t n c') (fun j' c' => iblk1_apply m c t j' c')
    (fun j' c' => iblk2_apply m c t j' c') (fun j' c' => iblk3_apply m c t j' c') j

/-! ## The blocks cover the array -/

/-- An index of the result array is in point t's block iff each coordinate is in the block's range on its axis. -/
theorem mem_blk (t : Fin cfg0.N) (i : S8x2048x256.Idx) :
    i ∈ ((cfg0.win 4).blk t).view.set ↔ ∀ a : Fin 3, win0_4.index t a * S1x2048x256.size a ≤ (i a).val ∧ (i a).val < win0_4.index t a * S1x2048x256.size a + S1x2048x256.size a := by
  show i ∈ ((View.whole main_v4).slice (win0_4.rect t)).set ↔ _
  rw [View.set_slice_whole, Rect.mem_set_unit]
  exact Iff.rfl

/-- Every index lies in the block of the point its first coordinate names. -/
theorem cover (i : S8x2048x256.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 256 := (i 2).isLt
  let t : Fin cfg0.N := ⟨(i 0).val, Nat.lt_of_lt_of_eq hi0 N_0.symm⟩
  obtain ⟨-, -, -, -, -, -, -, -, -, e0, e1, e2⟩ := index_maps t
  have ht : t.val = (i 0).val := rfl
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 256 ≤ (i 2).val ∧ (i 2).val < win0_4.index t (2 : Fin 3) * 256 + 256; omega

/-- THE RESULT ARRAY after the run is `G` of the argument arrays. -/
theorem final (c : Dev nD) : (dats m 0 c).arrAt 4 cfg0.N
    = G (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) cover

/-! ## The run, read -/

/-- Every weakly fair execution of @main terminates with the result array at `G` of the argument arrays, the arguments unchanged. -/
theorem run_value : θ_run (defs (F := Ideal)) (onTc (τ := τ) (main (F := Ideal))) ⟨m, fun _ => 0, ρ⟩ fun r => ∀ c : Dev nD,
      r.2.mem ((c.tc : Thread nD τ).loc main_v4)
        = G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(post_result m r h c).trans (final m c),
      kept_arg0 m r h c, kept_arg1 m r h c, kept_arg2 m r h c, kept_arg3 m r h c⟩)
    (run_main m ρ)

end Cert.KernelIdeal.Arr

end
-- ==== Proof.RefStages.lean ====
/-
  The reference computation read one stage at a time at coordinates (b, n, m) / (b, n, d), for the batch `b` fixed:
  the three projections are the sums Σ_c X n c · w d c, the energy is Σ_d q n d · k m d, the maximum-reduce from −∞ over
  the query axis is the supremum over n (a fold of `max` from ⊥ is the supremum, and the later maximum with −∞ is the
  identity), the exponentials of the shifted energies are summed over the query axis from 0, each is divided by its
  column's sum, the quotients are summed over the key axis from 0, the small constant is added, each quotient is divided
  by that row total, and the result is contracted with the value projection over the key axis. Every stage is an equation
  between extended-real expressions with no side condition; the last one is the dividing arrangement `ColAttn.outR`.
-/
import proofs.«139261_j76158360092784_2_alg».proof.Proof.Gen.ReferenceIdeal.Read
import proofs.«139261_j76158360092784_2_alg».proof.Proof.Spec
import Idealize.ShloMosaic.Lib.ValueIdx
import Idealize.ShloMosaic.PureOps.Ideal.Laws

noncomputable section

namespace Cert.ReferenceIdeal.RefStages

open Cert.ReferenceIdeal Cert.ReferenceIdeal.Gen Cert.ReferenceIdeal.Read Idealize.ShloMosaic Idealize.ShloMosaic.ValueIdx

variable (x0 : (⟨S8x2048x256, .f32⟩ : BufTy).Contents (Elt Ideal)) (x1 x2 : (⟨S64x256, .f32⟩ : BufTy).Contents (Elt Ideal))
  (x3 : (⟨S256x256, .f32⟩ : BufTy).Contents (Elt Ideal))

/-! ## The three projections -/

/-- The query projection of batch `b` at (n, d). -/
theorem q_eq (b : Fin 8) (n : Fin 2048) (d : Fin 64) :
    val_main_v0 (F := Ideal) x0 x1 (ix3 b n d) = ColAttn.proj (fun n c => x0 (ix3 b n c)) (fun j c => x1 (ix2 j c)) n d := by
  rw [val_main_v0_apply]
  unfold ColAttn.proj
  refine Finset.sum_congr rfl fun c _ => ?_
  have el : lidx_main_v0 (ix3 b n d) c = ix3 b n c := funext fun a => Fin.ext (by match a with | ⟨0, _⟩ => rfl | ⟨1, _⟩ => rfl | ⟨2, _⟩ => rfl)
  have er : ridx_main_v0 (ix3 b n d) c = ix2 d c := funext fun a => Fin.ext (by match a with | ⟨0, _⟩ => rfl | ⟨1, _⟩ => rfl)
  rw [el, er]

/-- The key projection of batch `b` at (m, d). -/
theorem k_eq (b : Fin 8) (m : Fin 2048) (d : Fin 64) :
    val_main_v1 (F := Ideal) x0 x2 (ix3 b m d) = ColAttn.proj (fun n c => x0 (ix3 b n c)) (fun j c => x2 (ix2 j c)) m d := by
  rw [val_main_v1_apply]
  unfold ColAttn.proj
  refine Finset.sum_congr rfl fun c _ => ?_
  have el : lidx_main_v1 (ix3 b m d) c = ix3 b m c := funext fun a => Fin.ext (by match a with | ⟨0, _⟩ => rfl | ⟨1, _⟩ => rfl | ⟨2, _⟩ => rfl)
  have er : ridx_main_v1 (ix3 b m d) c = ix2 d c := funext fun a => Fin.ext (by match a with | ⟨0, _⟩ => rfl | ⟨1, _⟩ => rfl)
  rw [el, er]

/-- The value projection of batch `b` at (m, d). -/
theorem v_eq (b : Fin 8) (m : Fin 2048) (d : Fin 256) :
    val_main_v2 (F := Ideal) x0 x3 (ix3 b m d) = ColAttn.proj (fun n c => x0 (ix3 b n c)) (fun j c => x3 (ix2 j c)) m d := by
  rw [val_main_v2_apply]
  unfold ColAttn.proj
  refine Finset.sum_congr rfl fun c _ => ?_
  have el : lidx_main_v2 (ix3 b m d) c = ix3 b m c := funext fun a => Fin.ext (by match a with | ⟨0, _⟩ => rfl | ⟨1, _⟩ => rfl | ⟨2, _⟩ => rfl)
  have er : ridx_main_v2 (ix3 b m d) c = ix2 d c := funext fun a => Fin.ext (by match a with | ⟨0, _⟩ => rfl | ⟨1, _⟩ => rfl)
  rw [el, er]

/-! ## The energy matrix -/

/-- The energy of batch `b` at (n, m): the contraction of the query row n with the key row m. -/
theorem energy_eq (b : Fin 8) (n m : Fin 2048) :
    val_main_v3 (F := Ideal) x0 x1 x2 (ix3 b n m) = ColAttn.energy (fun n c => x0 (ix3 b n c)) (fun j c => x1 (ix2 j c)) (fun j c => x2 (ix2 j c)) n m := by
  rw [val_main_v3_apply]
  unfold ColAttn.energy
  refine Finset.sum_congr rfl fun d _ => ?_
  have el : lidx_main_v3 (ix3 b n m) d = ix3 b n d := funext fun a => Fin.ext (by match a with | ⟨0, _⟩ => rfl | ⟨1, _⟩ => rfl | ⟨2, _⟩ => rfl)
  have er : ridx_main_v3 (ix3 b n m) d = ix3 b m d := funext fun a => Fin.ext (by match a with | ⟨0, _⟩ => rfl | ⟨1, _⟩ => rfl | ⟨2, _⟩ => rfl)
  rw [el, er, q_eq, k_eq]

/-! ## The column maximum -/

/-- The word of the reduce's initial value and of the broadcast constant is −∞, the bottom of the extended reals. -/
theorem ofBits_neg_inf : Ideal.ofBits .f32 0xFF800000#32 = (⊥ : EReal) := by simp [Ideal.ofBits, Ideal.ieee]

/-- A fold of `max` from the bottom over a finite set is the set's supremum. -/
theorem fold_max_bot_eq_sup {ι : Type} (s : Finset ι) (f : ι → EReal) : s.fold max ⊥ f = s.sup f := rfl

/-- The reduced index (b, m) with the coordinate `k` put back on axis 1 is (b, k, m). -/
theorem lift_d1 (h : S8x2048x2048.Reduces [1] S8x2048) (b : Fin 8) (m : Fin 2048) (k : Fin (S8x2048x2048.size 1)) :
    h.lift (ix2 b m) k = ix3 b (⟨k.val, k.isLt⟩ : Fin 2048) m := by
  funext c; apply Fin.ext
  fin_cases c <;> rfl

/-- A maximum-reduce from −∞ over axis 1 of any 8×2048×2048 array, at (b, m), is the supremum over n of the array at (b, n, m). -/
theorem reduce_max_d1 (y : (⟨S8x2048x2048, .f32⟩ : BufTy).Contents (Elt Ideal)) (b : Fin 8) (m : Fin 2048) :
    Host.reduce (FloatOps.maximumf (F := Ideal) (φ := .f32)) y (val_main_cst (F := Ideal)) reducesTo_S8x2048x2048_S8x2048_d1 h_S_ (ix2 b m)
      = Finset.univ.sup fun n : Fin 2048 => y (ix3 b n m) := by
  have h : S8x2048x2048.Reduces [1] S8x2048 := by decide
  rw [Host.reduce_eq_fold_single (FloatOps.maximumf (F := Ideal) (φ := .f32)) y _ reducesTo_S8x2048x2048_S8x2048_d1 h h_S_]
  have hi : val_main_cst (F := Ideal) (Shape.Idx.first h_S_) = (⊥ : EReal) := ofBits_neg_inf
  rw [hi]
  have hf : (y ∘ h.lift (ix2 b m)) = fun n : Fin 2048 => y (ix3 b n m) := funext fun k => congrArg y (lift_d1 h b m k)
  exact (congrArg (fun f => Finset.fold max (⊥ : EReal) f (Finset.univ : Finset (Fin 2048))) hf).trans (fold_max_bot_eq_sup _ _)

/-- The column maximum of batch `b` at m, as the reduce leaves it. -/
theorem v4_eq (b : Fin 8) (m : Fin 2048) :
    val_main_v4 (F := Ideal) x0 x1 x2 (ix2 b m) = ColAttn.cmax (fun n c => x0 (ix3 b n c)) (fun j c => x1 (ix2 j c)) (fun j c => x2 (ix2 j c)) m := by
  unfold val_main_v4
  rw [reduce_max_d1]
  unfold ColAttn.cmax
  exact congrArg (Finset.univ.sup) (funext fun n => energy_eq x0 x1 x2 b n m)

/-- The maximum with the broadcast −∞ changes nothing. -/
theorem cmax_eq (b : Fin 8) (m : Fin 2048) :
    val_main_v6 (F := Ideal) x0 x1 x2 (ix2 b m) = ColAttn.cmax (fun n c => x0 (ix3 b n c)) (fun j c => x1 (ix2 j c)) (fun j c => x2 (ix2 j c)) m := by
  rw [val_main_v6_apply, val_main_v5_apply, val_main_cst_0_apply, v4_eq]
  show max (Ideal.ofBits .f32 0xFF800000#32) _ = _
  rw [ofBits_neg_inf]
  exact max_bot_left _

/-- The column maximum broadcast back over the query axis. -/
theorem v8_eq (b : Fin 8) (n m : Fin 2048) :
    val_main_v8 (F := Ideal) x0 x1 x2 (ix3 b n m) = ColAttn.cmax (fun n c => x0 (ix3 b n c)) (fun j c => x1 (ix2 j c)) (fun j c => x2 (ix2 j c)) m := by
  rw [val_main_v8_apply, val_main_v7_apply]
  have e : idx_main_v7 (idx_main_v8 (ix3 b n m)) = ix2 b m := funext fun a => Fin.ext (by match a with | ⟨0, _⟩ => rfl | ⟨1, _⟩ => rfl)
  rw [e, cmax_eq]

/-! ## The shifted exponentials and their column sums -/

/-- The exponential of the energy less its column's maximum. -/
theorem p_eq (b : Fin 8) (n m : Fin 2048) :
    val_main_v10 (F := Ideal) x0 x1 x2 (ix3 b n m) = ColAttn.p (fun n c => x0 (ix3 b n c)) (fun j c => x1 (ix2 j c)) (fun j c => x2 (ix2 j c)) n m := by
  rw [val_main_v10_apply, val_main_v9_apply, energy_eq, v8_eq]
  rfl

/-- The word of the sums' initial value is zero. -/
theorem cst_1_eq (i : S_.Idx) : val_main_cst_1 (F := Ideal) i = (0 : EReal) := Ideal.ofBits_zero_f32
theorem cst_2_eq (i : S_.Idx) : val_main_cst_2 (F := Ideal) i = (0 : EReal) := Ideal.ofBits_zero_f32

/-- The column sum of batch `b` at m. -/
theorem csum_eq (b : Fin 8) (m : Fin 2048) :
    val_main_v11 (F := Ideal) x0 x1 x2 (ix2 b m) = ColAttn.csum (fun n c => x0 (ix3 b n c)) (fun j c => x1 (ix2 j c)) (fun j c => x2 (ix2 j c)) m := by
  rw [val_main_v11_apply, cst_1_eq, zero_add]
  unfold ColAttn.csum
  refine Finset.sum_congr rfl fun n _ => ?_
  have e : idx_main_v11 (ix2 b m) n = ix3 b n m := funext fun a => Fin.ext (by match a with | ⟨0, _⟩ => rfl | ⟨1, _⟩ => rfl | ⟨2, _⟩ => rfl)
  rw [e, p_eq]

/-- The column sum broadcast back over the query axis. -/
theorem v13_eq (b : Fin 8) (n m : Fin 2048) :
    val_main_v13 (F := Ideal) x0 x1 x2 (ix3 b n m) = ColAttn.csum (fun n c => x0 (ix3 b n c)) (fun j c => x1 (ix2 j c)) (fun j c => x2 (ix2 j c)) m := by
  rw [val_main_v13_apply, val_main_v12_apply]
  have e : idx_main_v12 (idx_main_v13 (ix3 b n m)) = ix2 b m := funext fun a => Fin.ext (by match a with | ⟨0, _⟩ => rfl | ⟨1, _⟩ => rfl)
  rw [e, csum_eq]

/-! ## The column softmax and its row sums -/

/-- The column softmax by division. -/
theorem attR_eq (b : Fin 8) (n m : Fin 2048) :
    val_main_v14 (F := Ideal) x0 x1 x2 (ix3 b n m) = ColAttn.attR (fun n c => x0 (ix3 b n c)) (fun j c => x1 (ix2 j c)) (fun j c => x2 (ix2 j c)) n m := by
  rw [val_main_v14_apply, p_eq, v13_eq]
  rfl

/-- The row sum of the column softmax. -/
theorem rowsum_eq (b : Fin 8) (n : Fin 2048) :
    val_main_v15 (F := Ideal) x0 x1 x2 (ix2 b n) = ∑ m' : Fin 2048, ColAttn.attR (fun n c => x0 (ix3 b n c)) (fun j c => x1 (ix2 j c)) (fun j c => x2 (ix2 j c)) n m' := by
  rw [val_main_v15_apply, cst_2_eq, zero_add]
  refine Finset.sum_congr rfl fun m _ => ?_
  have e : idx_main_v15 (ix2 b n) m = ix3 b n m := funext fun a => Fin.ext (by match a with | ⟨0, _⟩ => rfl | ⟨1, _⟩ => rfl | ⟨2, _⟩ => rfl)
  rw [e, attR_eq]

/-- The small constant plus the row sum, broadcast over the key axis. -/
theorem v19_eq (b : Fin 8) (n m : Fin 2048) :
    val_main_v19 (F := Ideal) x0 x1 x2 (ix3 b n m)
      = Ideal.ofBits .f32 0x3089705F#32 + ∑ m' : Fin 2048, ColAttn.attR (fun n c => x0 (ix3 b n c)) (fun j c => x1 (ix2 j c)) (fun j c => x2 (ix2 j c)) n m' := by
  rw [val_main_v19_apply, val_main_v18_apply, val_main_v17_apply, val_main_cst_3_apply, val_main_v16_apply]
  have e : idx_main_v16 (idx_main_v19 (ix3 b n m)) = ix2 b n := funext fun a => Fin.ext (by match a with | ⟨0, _⟩ => rfl | ⟨1, _⟩ => rfl)
  rw [e, rowsum_eq]
  rfl

/-- The renormalised softmax. -/
theorem v20_eq (b : Fin 8) (n m : Fin 2048) :
    val_main_v20 (F := Ideal) x0 x1 x2 (ix3 b n m)
      = Ideal.div (ColAttn.attR (fun n c => x0 (ix3 b n c)) (fun j c => x1 (ix2 j c)) (fun j c => x2 (ix2 j c)) n m) (Ideal.ofBits .f32 0x3089705F#32 + ∑ m' : Fin 2048, ColAttn.attR (fun n c => x0 (ix3 b n c)) (fun j c => x1 (ix2 j c)) (fun j c => x2 (ix2 j c)) n m') := by
  rw [val_main_v20_apply, attR_eq, v19_eq]
  rfl

/-! ## The result -/

/-- The reference's result at (b, n, d) is the dividing arrangement of batch `b` at (n, d). -/
theorem ref_is_outR (b : Fin 8) (n : Fin 2048) (d : Fin 256) :
    val_main_v21 (F := Ideal) x0 x1 x2 x3 (ix3 b n d)
      = ColAttn.outR (fun n c => x0 (ix3 b n c)) (fun j c => x1 (ix2 j c)) (fun j c => x2 (ix2 j c)) (fun j c => x3 (ix2 j c)) (Ideal.ofBits .f32 0x3089705F#32) n d := by
  rw [val_main_v21_apply]
  unfold ColAttn.outR
  refine Finset.sum_congr rfl fun m _ => ?_
  have el : lidx_main_v21 (ix3 b n d) m = ix3 b n m := funext fun a => Fin.ext (by match a with | ⟨0, _⟩ => rfl | ⟨1, _⟩ => rfl | ⟨2, _⟩ => rfl)
  have er : ridx_main_v21 (ix3 b n d) m = ix3 b m d := funext fun a => Fin.ext (by match a with | ⟨0, _⟩ => rfl | ⟨1, _⟩ => rfl | ⟨2, _⟩ => rfl)
  rw [el, er, v20_eq, v_eq]

end Cert.ReferenceIdeal.RefStages

end
-- ==== Proof.Arrange.lean ====
/-
  The two arrangements of column-softmax attention agree on real inputs.

  With every entry of the inputs a real number, each projection and each energy is a finite sum of products of
  reals, hence real.  The column maximum is a supremum over a nonempty finite index set, so it is attained and is
  real too; each shifted exponential is therefore the exponential of a real number, a positive real.  A column sum
  is a sum of positive reals over a nonempty index set, hence a positive real, so dividing by it is multiplying by
  the coercion of its real reciprocal: both softmaxes are the same positive real.  A row sum of those is positive,
  adding a non-negative constant keeps it positive, so the last division is again a multiplication by a real
  reciprocal, and the two sides are the coercions of
      (Σ_m a_m v_m) · (1 / (s + ε))   and   Σ_m (a_m · (1 / (ε + s))) · v_m,
  which are equal by distributivity in ℝ.
-/
import proofs.«139261_j76158360092784_2_alg».proof.Proof.Spec

noncomputable section

namespace ColAttn

open Idealize.ShloMosaic

/-- A finite sum of real numbers, taken in the extended reals, is the coercion of the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of extended reals that are all real is real. -/
theorem sum_real {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [← coe_sum]; exact Finset.sum_congr rfl fun i _ => hg i⟩

/-- A finite sum, over a nonempty index set, of extended reals that are all positive reals is a positive real. -/
theorem sum_pos_real {ι : Type*} (s : Finset ι) (hs : s.Nonempty) (f : ι → EReal)
    (h : ∀ i, ∃ r : ℝ, 0 < r ∧ f i = (r : EReal)) :
    ∃ r : ℝ, 0 < r ∧ ∑ i ∈ s, f i = (r : EReal) := by
  choose g hg0 hg using h
  exact ⟨∑ i ∈ s, g i, Finset.sum_pos (fun i _ => hg0 i) hs,
    by rw [← coe_sum]; exact Finset.sum_congr rfl fun i _ => hg i⟩

section
variable (X : Mat 2048 256) (wq wk : Mat 64 256) (wv : Mat 256 256) (eps : EReal)

/-- A projection of real data is real. -/
theorem proj_real {D : ℕ} (w : Mat D 256) (hX : AllReal X) (hw : AllReal w) (n : Fin 2048) (d : Fin D) :
    ∃ r : ℝ, proj X w n d = (r : EReal) := by
  unfold proj
  refine sum_real _ _ fun c => ?_
  obtain ⟨a, ha⟩ := hX n c
  obtain ⟨b, hb⟩ := hw d c
  exact ⟨a * b, by rw [ha, hb, EReal.coe_mul]⟩

/-- The energies of real data are real. -/
theorem energy_real (hX : AllReal X) (hq : AllReal wq) (hk : AllReal wk) (n m : Fin 2048) :
    ∃ r : ℝ, energy X wq wk n m = (r : EReal) := by
  unfold energy
  refine sum_real _ _ fun d => ?_
  obtain ⟨a, ha⟩ := proj_real X wq hX hq n d
  obtain ⟨b, hb⟩ := proj_real X wk hX hk m d
  exact ⟨a * b, by rw [ha, hb, EReal.coe_mul]⟩

/-- A column maximum of real energies is attained, hence real. -/
theorem cmax_real (hX : AllReal X) (hq : AllReal wq) (hk : AllReal wk) (m : Fin 2048) :
    ∃ r : ℝ, cmax X wq wk m = (r : EReal) := by
  unfold cmax
  obtain ⟨n₀, -, h⟩ := Finset.exists_mem_eq_sup (Finset.univ : Finset (Fin 2048)) Finset.univ_nonempty
    (fun n : Fin 2048 => energy X wq wk n m)
  rw [h]
  exact energy_real X wq wk hX hq hk n₀ m

/-- Each shifted exponential is a positive real. -/
theorem p_pos_real (hX : AllReal X) (hq : AllReal wq) (hk : AllReal wk) (n m : Fin 2048) :
    ∃ r : ℝ, 0 < r ∧ p X wq wk n m = (r : EReal) := by
  obtain ⟨e, he⟩ := energy_real X wq wk hX hq hk n m
  obtain ⟨c, hc⟩ := cmax_real X wq wk hX hq hk m
  exact ⟨Real.exp (e - c), Real.exp_pos _, by unfold p; rw [he, hc, ← EReal.coe_sub, Ideal.exp_coe]⟩

/-- Each column sum is a positive real. -/
theorem csum_pos_real (hX : AllReal X) (hq : AllReal wq) (hk : AllReal wk) (m : Fin 2048) :
    ∃ r : ℝ, 0 < r ∧ csum X wq wk m = (r : EReal) := by
  unfold csum
  exact sum_pos_real _ Finset.univ_nonempty _ fun n => p_pos_real X wq wk hX hq hk n m

/-- Both softmaxes are the same positive real. -/
theorem att_pos_real (hX : AllReal X) (hq : AllReal wq) (hk : AllReal wk) (n m : Fin 2048) :
    ∃ r : ℝ, 0 < r ∧ attR X wq wk n m = (r : EReal) ∧ attK X wq wk n m = (r : EReal) := by
  obtain ⟨q, hq0, hq'⟩ := p_pos_real X wq wk hX hq hk n m
  obtain ⟨s, hs0, hs⟩ := csum_pos_real X wq wk hX hq hk m
  refine ⟨q * (1 / s), mul_pos hq0 (one_div_pos.mpr hs0), ?_, ?_⟩
  · unfold attR
    rw [hq', hs, Ideal.div_coe hs0.ne', ← EReal.coe_mul]
  · unfold attK
    rw [hq', hs, Ideal.div_coe hs0.ne', one_mul, ← EReal.coe_mul]

/-- The two arrangements agree on real inputs with a non-negative real constant. -/
theorem outK_eq_outR (hX : AllReal X) (hq : AllReal wq) (hk : AllReal wk) (hv : AllReal wv)
    (heps : ∃ r : ℝ, 0 ≤ r ∧ eps = (r : EReal)) (n : Fin 2048) (d : Fin 256) :
    outK X wq wk wv eps n d = outR X wq wk wv eps n d := by
  obtain ⟨r, hr0, hr⟩ := heps
  choose a ha0 haR haK using fun m => att_pos_real X wq wk hX hq hk n m
  choose v hv' using fun m => proj_real X wv hX hv m d
  have ht0 : 0 < ∑ m, a m := Finset.sum_pos (fun i _ => ha0 i) Finset.univ_nonempty
  have hsumR : (∑ m' : Fin 2048, attR X wq wk n m') = ((∑ m, a m : ℝ) : EReal) := by
    rw [← coe_sum]; exact Finset.sum_congr rfl fun i _ => haR i
  have hsumK : (∑ m' : Fin 2048, attK X wq wk n m') = ((∑ m, a m : ℝ) : EReal) := by
    rw [← coe_sum]; exact Finset.sum_congr rfl fun i _ => haK i
  have hne : r + ∑ m, a m ≠ 0 := (add_pos_of_nonneg_of_pos hr0 ht0).ne'
  have hne' : (∑ m, a m) + r ≠ 0 := (add_pos_of_pos_of_nonneg ht0 hr0).ne'
  have hR : outR X wq wk wv eps n d = ((∑ m, a m * (1 / (r + ∑ m, a m)) * v m : ℝ) : EReal) := by
    unfold outR
    rw [hsumR, hr, ← EReal.coe_add, ← coe_sum]
    refine Finset.sum_congr rfl fun m _ => ?_
    rw [haR m, hv' m, Ideal.div_coe hne, ← EReal.coe_mul, ← EReal.coe_mul]
  have hK : outK X wq wk wv eps n d
      = (((∑ m, a m * v m) * (1 / ((∑ m, a m) + r)) : ℝ) : EReal) := by
    unfold outK
    rw [hsumK, hr, ← EReal.coe_add, Ideal.div_coe hne', one_mul, EReal.coe_mul, ← coe_sum]
    refine congrArg (fun z : EReal => z * _) ?_
    refine Finset.sum_congr rfl fun m _ => ?_
    rw [haK m, hv' m, ← EReal.coe_mul]
  rw [hR, hK, Finset.sum_mul, add_comm (∑ m, a m) r]
  refine congrArg (fun z : ℝ => (z : EReal)) ?_
  refine Finset.sum_congr rfl fun m _ => ?_
  ring

end

/-- The constant's bit pattern has sign bit 0 and biased exponent 97, so it denotes the positive dyadic
    rational 9007199 · 2⁻⁵³; in particular it is a non-negative real. -/
theorem eps_lit : ∃ r : ℝ, 0 ≤ r ∧ Ideal.ofBits .f32 0x3089705F#32 = (r : EReal) :=
  ⟨9007199 * (2 ^ 53)⁻¹, by positivity, by simp [Ideal.ofBits, Ideal.ieee, -EReal.coe_mul]⟩

end ColAttn

end
-- ==== Proof.FiniteArgs.lean ====
/-
  From the precondition to "every entry of every argument is a real number".

  The precondition is the conjunction, over the four argument arrays, of "every entry x has |x| < +∞", each
  conjunct an all-axes reduction by "and" of the elementwise comparison.  The conjunction being 1 makes each
  conjunct 1; an all-axes "and" being 1 makes every compared element 1; and max x (−x) < ⊤ on the extended reals
  excludes x = ⊤ and x = ⊥ (where −x = ⊤), leaving a real number.
-/
import proofs.«139261_j76158360092784_2_alg».proof.Defs
import Idealize.ShloMosaic.Lib.ReduceAll
import Idealize.ShloMosaic.Lib.ValueIdx

namespace Cert.KernelIdeal.FiniteArgs

open Idealize.ShloMosaic

/-- The rank-0 shape has one index. -/
instance : Subsingleton Cert.Pre_finite_inputs.S_.Idx := ⟨fun a b => funext fun d => d.elim0⟩

/-- The bit pattern of +∞ denotes ⊤. -/
theorem inf_lit : Ideal.ofBits .f32 0x7F800000#32 = (⊤ : EReal) := by simp [Ideal.ofBits, Ideal.ieee]

/-- An extended real whose absolute value max x (−x) compares below +∞ is a real number. -/
theorem real_of_abs_lt_inf {x : EReal}
    (h : Ideal.cmp .olt (max x (-x)) (Ideal.ofBits .f32 0x7F800000#32) = 1#1) : ∃ r : ℝ, x = (r : EReal) := by
  rw [inf_lit] at h
  induction x using EReal.rec with
  | bot => simp [Ideal.cmp] at h
  | top => simp [Ideal.cmp] at h
  | coe r => exact ⟨r, rfl⟩

/-- One array: if the all-axes "and" of "|a j| < +∞" is 1, every entry of the array is a real number. -/
theorem all_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf (F := Ideal) .olt (Host.absf a)
            (broadcastInDim s ![] hb (constant (F := Ideal) Cert.Pre_finite_inputs.S_ .f32 0x7F800000#32)))
          (constantI Cert.Pre_finite_inputs.S_ 1 1#1) hr hu ValueIdx.ix0 = 1#1)
    (i : s.Idx) : ∃ r : ℝ, a i = (r : EReal) :=
  real_of_abs_lt_inf (x := a i) (Host.reduce_andi_all _ _ hr hu _ e i)

/-- The precondition makes every entry of the four argument arrays a real number. -/
theorem args_real [Cert.Pre_finite_inputs.Facts]
    (a0 : (⟨Cert.KernelIdeal.S8x2048x256, .f32⟩ : BufTy).Contents (Elt Ideal))
    (a1 a2 : (⟨Cert.KernelIdeal.S64x256, .f32⟩ : BufTy).Contents (Elt Ideal))
    (a3 : (⟨Cert.KernelIdeal.S256x256, .f32⟩ : BufTy).Contents (Elt Ideal))
    (h : Cert.Pre_finite_inputs.fn (F := Ideal) a0 a1 a2 a3 = (fun _ => 1#1)) :
    (∀ i, ∃ r : ℝ, a0 i = (r : EReal)) ∧ (∀ i, ∃ r : ℝ, a1 i = (r : EReal)) ∧
      (∀ i, ∃ r : ℝ, a2 i = (r : EReal)) ∧ (∀ i, ∃ r : ℝ, a3 i = (r : EReal)) := by
  have h' := congrFun h ValueIdx.ix0
  dsimp only [Cert.Pre_finite_inputs.fn, Cert.Pre_finite_inputs.fn_part1] at h'
  obtain ⟨h012, h3⟩ := IntOp.andi_eq_one.1 h'
  obtain ⟨h01, h2⟩ := IntOp.andi_eq_one.1 h012
  obtain ⟨h0, h1⟩ := IntOp.andi_eq_one.1 h01
  exact ⟨fun i => all_real a0 _ _ _ h0 i, fun i => all_real a1 _ _ _ h1 i,
    fun i => all_real a2 _ _ _ h2 i, fun i => all_real a3 _ _ _ h3 i⟩

end Cert.KernelIdeal.FiniteArgs
-- ==== Proof.Claims.lean ====
/-
  The five claims.  The kernel computes, per batch, a softmax of the energies q·kᵀ over the QUERY index (one softmax per
  key), renormalises each row by its sum plus a small constant, and multiplies with v; it multiplies by reciprocals and
  scales after the last contraction, where the reference divides before it.  At the ideal instance the kernel's result
  array is `Arr.G` of the argument arrays (the arrangement with reciprocals, `ColAttn.outK`, batch by batch), the
  reference's is the dividing arrangement `ColAttn.outR`, and the two agree because the precondition makes every argument
  entry a real number: then every column sum is at least 1 and every row sum positive, and the equation is distributivity
  in ℝ (`ColAttn.outK_eq_outR`).  The frames: each program runs to its end and leaves its arguments unchanged; nothing
  was rewritten by the idealization, so `preserves` is trivial.
-/
import proofs.«139261_j76158360092784_2_alg».proof.Defs
import proofs.«139261_j76158360092784_2_alg».proof.Proof.Gen.Kernel
import proofs.«139261_j76158360092784_2_alg».proof.Proof.Gen.KernelIdeal
import proofs.«139261_j76158360092784_2_alg».proof.Proof.Gen.ReferenceIdeal
import proofs.«139261_j76158360092784_2_alg».proof.Proof.Gen.Pre_finite_inputs
import proofs.«139261_j76158360092784_2_alg».proof.Proof.Gen.ReferenceIdeal.Run
import proofs.«139261_j76158360092784_2_alg».proof.Proof.Gen.ReferenceIdeal.Read
import proofs.«139261_j76158360092784_2_alg».proof.Proof.BitsFrame
import proofs.«139261_j76158360092784_2_alg».proof.Proof.IdealFrame
import proofs.«139261_j76158360092784_2_alg».proof.Proof.IdealArray
import proofs.«139261_j76158360092784_2_alg».proof.Proof.RefStages
import proofs.«139261_j76158360092784_2_alg».proof.Proof.Arrange
import proofs.«139261_j76158360092784_2_alg».proof.Proof.FiniteArgs

noncomputable section

open Idealize.ShloMosaic Idealize.ShloMosaic.TcCoe Idealize.SL.Sem

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, run from memories agreeing on the arguments, end with the same result array. -/
theorem algebraic : Cert.algebraic_KernelIdeal_ReferenceIdeal := by
  intro m ρ m' ρ' hpre hagree
  refine ⟨fun c => Cert.KernelIdeal.Arr.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Arr.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2.1, (hagree c).2.2.2]
  obtain ⟨h0, h1, h2, h3⟩ := Cert.KernelIdeal.FiniteArgs.args_real _ _ _ _ (hpre c)
  funext i
  obtain ⟨b, n, d, rfl⟩ : ∃ (b : Fin 8) (n : Fin 2048) (d : Fin 256), i = ValueIdx.ix3 b n d := ⟨i 0, i 1, i 2, ValueIdx.eq_ix3 i⟩
  rw [Cert.ReferenceIdeal.RefStages.ref_is_outR]
  exact (ColAttn.outK_eq_outR _ _ _ _ _ (fun n c => h0 _) (fun j c => h1 _) (fun j c => h2 _) (fun j c => h3 _) ColAttn.eps_lit n d).symm

end Cert.Proof.Claims

end
-- ==== Proof.lean ====
/-
  The certificate's claim: the three frames, the (trivial) preservation of the idealization, and the equality of the
  kernel's and the reference's results on the extended reals.  The programs' stated side conditions are witnessed by the
  generated fact modules; the five claims are proved in Proof/Claims.lean.
-/
import proofs.«139261_j76158360092784_2_alg».proof.Defs
import proofs.«139261_j76158360092784_2_alg».proof.Proof.Gen.Kernel
import proofs.«139261_j76158360092784_2_alg».proof.Proof.Gen.KernelIdeal
import proofs.«139261_j76158360092784_2_alg».proof.Proof.Gen.ReferenceIdeal
import proofs.«139261_j76158360092784_2_alg».proof.Proof.Gen.Pre_finite_inputs
import proofs.«139261_j76158360092784_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
